-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : IVec S33554432 32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  main_v3
-- ==== Kernel.lean ====
abbrev S33554432 : Shape := ⟨1, ![33554432]⟩
abbrev S262144x128 : Shape := ⟨2, ![262144, 128]⟩
abbrev S2x1x128 : Shape := ⟨3, ![2, 1, 128]⟩
abbrev S8192x128 : Shape := ⟨2, ![8192, 128]⟩
abbrev S1x1x128 : Shape := ⟨3, ![1, 1, 128]⟩
abbrev S128 : Shape := ⟨1, ![128]⟩
abbrev S1x128 : Shape := ⟨2, ![1, 128]⟩
abbrev S_ : Shape := ⟨0, ![]⟩
abbrev S1 : Shape := ⟨1, ![1]⟩

abbrev nBuf : Space → Nat
  | .hbm => 35
  | .vmem => 19
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S262144x128, .f32⟩
  | .hbm, ⟨3, _⟩ => ⟨S262144x128, .i32⟩
  | .hbm, ⟨4, _⟩ => ⟨S2x1x128, .f32⟩
  | .hbm, ⟨5, _⟩ => ⟨S2x1x128, .f32⟩
  | .hbm, ⟨6, _⟩ => ⟨S2x1x128, .f32⟩
  | .hbm, ⟨7, _⟩ => ⟨S2x1x128, .f32⟩
  | .hbm, ⟨8, _⟩ => ⟨S2x1x128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S1, .f32⟩
  | .local _ .vmem, ⟨0, _⟩ => ⟨S8192x128, .f32⟩
  | .local _ .vmem, ⟨1, _⟩ => ⟨S8192x128, .f32⟩
  | .local _ .vmem, ⟨2, _⟩ => ⟨S8192x128, .i32⟩
  | .local _ .vmem, ⟨3, _⟩ => ⟨S8192x128, .i32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S1x1x128, .f32⟩
  | .local _ .vmem, ⟨16, _⟩ => ⟨S1x1x128, .f32⟩
  | .local _ .vmem, ⟨17, _⟩ => ⟨S1x1x128, .f32⟩
  | .local _ .vmem, ⟨18, _⟩ => ⟨S1x1x128, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_cst_4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 16], ![false, false]⟩

def k0_cond3 (i : grid0.Coords) : BitVec 1 :=
  let arg1 : BitVec 32 := BitVec.ofNat 32 (i 1).val
  let c15_i32 : BitVec 32 := 15#32
  let v25 : BitVec 1 := Scalar.cmpi .eq arg1 c15_i32
  let v26 : BitVec 32 := Scalar.extui v25
  let c0_i32_11 : BitVec 32 := 0#32
  let v27 : BitVec 1 := Scalar.cmpi .ne v26 c0_i32_11
  v27

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S33554432_S262144x128 : S33554432.ShapeCasts S262144x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  natLt_1_32 : 1 < 32
  reduces_S8192x128_S128 : S8192x128.Reduces [0] S128
  shapeCasts_S128_S1x128 : S128.ShapeCasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  reducesTo_S2x1x128_S_d0_1_2 : S2x1x128.ReducesTo [0, 1, 2] S_
  h_S_ : 0 < S_.numel
  shapeCasts_S_S1 : S_.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .i32 = 32 ∨ (Rect.block (s := S262144x128) S8192x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S2x1x128.size a
  hwx0_2 : ∀ i : grid0.Coords, EltTy.bits .f32 = 32 ∨ (Rect.block (s := S2x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x128.size a
  hwx0_3 : ∀ i : grid0.Coords, EltTy.bits .f32 = 32 ∨ (Rect.block (s := S2x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S2x1x128.size a
  hwx0_4 : ∀ i : grid0.Coords, EltTy.bits .f32 = 32 ∨ (Rect.block (s := S2x1x128) S1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S2x1x128.size a
  hwx0_5 : ∀ i : grid0.Coords, EltTy.bits .f32 = 32 ∨ (Rect.block (s := S2x1x128) S1x1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S2x1x128.size a
  hwx0_6 : ∀ i : grid0.Coords, EltTy.bits .f32 = 32 ∨ (Rect.block (s := S2x1x128) S1x1x128.size (cc0_transform_6 i) (hinb0_6 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x1x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_3) S1x1x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_4) S1x1x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun i => !(k0_cond3 i == 1#1) | 3 => fun i => !(k0_cond3 i == 1#1) | 4 => fun i => !(k0_cond3 i == 1#1) | 5 => fun i => !(k0_cond3 i == 1#1) | 6 => fun i => !(k0_cond3 i == 1#1) | ⟨_ + 7, h⟩ => absurd h (Nat.not_lt.2 (Nat.le_add_left _ _))

class Facts : Prop extends Facts₀ where

variable [Facts]
-- ==== ReferenceIdeal.lean ====
abbrev S33554432 : Shape := ⟨1, ![33554432]⟩
abbrev S_ : Shape := ⟨0, ![]⟩
abbrev S1 : Shape := ⟨1, ![1]⟩

abbrev nBuf : Space → Nat
  | .hbm => 35
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S33554432, .f32⟩
  | .hbm, ⟨8, _⟩ => ⟨S33554432, .f32⟩
  | .hbm, ⟨9, _⟩ => ⟨S33554432, .f32⟩
  | .hbm, ⟨10, _⟩ => ⟨S33554432, .f32⟩
  | .hbm, ⟨11, _⟩ => ⟨S_, .i32⟩
  | .hbm, ⟨12, _⟩ => ⟨S33554432, .i32⟩
  | .hbm, ⟨13, _⟩ => ⟨S33554432, .i1⟩
  | .hbm, ⟨14, _⟩ => ⟨S33554432, .i32⟩
  | .hbm, ⟨15, _⟩ => ⟨S_, .i32⟩
  | .hbm, ⟨16, _⟩ => ⟨S_, .i32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S33554432, .f32⟩
  | .hbm, ⟨23, _⟩ => ⟨S33554432, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S1, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  reducesTo_S33554432_S_d0 : S33554432.ReducesTo [0] S_
  h_S_ : 0 < S_.numel
  bcast_S_S33554432 : S_.BroadcastsInDim S33554432 (![] : Fin 0 → Fin S33554432.rank)
  natLt_1_32 : 1 < 32
  shapeCasts_S_S1 : S_.ShapeCasts S1

variable [Facts₀]

class Facts : Prop extends Facts₀ where

variable [Facts]
-- ==== Proof.KCasesBits.lean ====
/-
  What the three cases of the kernel body share. The body branches on the step index j (the second grid
  coordinate, 0 ≤ j < 16): at j = 0 it writes the block's column results into the five kept rows, at j > 0 it
  combines them into the kept rows, and at j = 15 it also copies the kept rows to the five output blocks. Over the
  32 grid points (point t = 16·core + j) the three conditions are decided as facts about t mod 16; the output
  windows are idle and not written back except at the last step of a core.
-/
import proofs.«166070_j33698313404542_2_alg».proof.Proof.Gen.Kernel.Frame
import proofs.«166070_j33698313404542_2_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first condition: the step index is zero. -/
abbrev cond1 (i : grid0.Coords) : Prop := (Scalar.cmpi .ne (Scalar.extui (Scalar.cmpi .eq (BitVec.ofNat 32 (i 1).val) 0#32)) 0#32) = 1#1
/-- The second: the step index is positive. -/
abbrev cond2 (i : grid0.Coords) : Prop := (Scalar.cmpi .ne (Scalar.extui (Scalar.cmpi .sgt (BitVec.ofNat 32 (i 1).val) 0#32)) 0#32) = 1#1
/-- The third: the step index is the last one, fifteen. -/
abbrev cond3 (i : grid0.Coords) : Prop := k0_cond3 i = 1#1

theorem hcond1 : ∀ t : Fin cfg0.N, cond1 (grid0.coords t) ↔ t.val % 16 = 0 :=
  (by decide +kernel : ∀ t : Fin grid0.N, cond1 (grid0.coords t) ↔ t.val % 16 = 0)
theorem hcond2 : ∀ t : Fin cfg0.N, cond2 (grid0.coords t) ↔ ¬ t.val % 16 = 0 :=
  (by decide +kernel : ∀ t : Fin grid0.N, cond2 (grid0.coords t) ↔ ¬ t.val % 16 = 0)
theorem hcond3 : ∀ t : Fin cfg0.N, cond3 (grid0.coords t) ↔ t.val % 16 = 15 :=
  (by decide +kernel : ∀ t : Fin grid0.N, cond3 (grid0.coords t) ↔ t.val % 16 = 15)

/-- The input windows are never idle. -/
theorem live_0 : ∀ t : Fin cfg0.N, cfg0.idle 0 (grid0.coords t) = false := by decide +kernel
theorem live_1 : ∀ t : Fin cfg0.N, cfg0.idle 1 (grid0.coords t) = false := by decide +kernel
/-- Output window 2 is idle, and not written back, except at the last step of a core; there it is live. -/
theorem idle_2 : ∀ t : Fin cfg0.N, ¬ t.val % 16 = 15 → cfg0.idle 2 (grid0.coords t) = true := by decide +kernel
theorem noFlush_2 : ∀ t : Fin cfg0.N, ¬ t.val % 16 = 15 → (cfg0.win 2).flush t = false := by decide +kernel
theorem live_2 : ∀ t : Fin cfg0.N, t.val % 16 = 15 → cfg0.idle 2 (grid0.coords t) = false := by decide +kernel
/-- Output window 3 is idle, and not written back, except at the last step of a core; there it is live. -/
theorem idle_3 : ∀ t : Fin cfg0.N, ¬ t.val % 16 = 15 → cfg0.idle 3 (grid0.coords t) = true := by decide +kernel
theorem noFlush_3 : ∀ t : Fin cfg0.N, ¬ t.val % 16 = 15 → (cfg0.win 3).flush t = false := by decide +kernel
theorem live_3 : ∀ t : Fin cfg0.N, t.val % 16 = 15 → cfg0.idle 3 (grid0.coords t) = false := by decide +kernel
/-- Output window 4 is idle, and not written back, except at the last step of a core; there it is live. -/
theorem idle_4 : ∀ t : Fin cfg0.N, ¬ t.val % 16 = 15 → cfg0.idle 4 (grid0.coords t) = true := by decide +kernel
theorem noFlush_4 : ∀ t : Fin cfg0.N, ¬ t.val % 16 = 15 → (cfg0.win 4).flush t = false := by decide +kernel
theorem live_4 : ∀ t : Fin cfg0.N, t.val % 16 = 15 → cfg0.idle 4 (grid0.coords t) = false := by decide +kernel
/-- Output window 5 is idle, and not written back, except at the last step of a core; there it is live. -/
theorem idle_5 : ∀ t : Fin cfg0.N, ¬ t.val % 16 = 15 → cfg0.idle 5 (grid0.coords t) = true := by decide +kernel
theorem noFlush_5 : ∀ t : Fin cfg0.N, ¬ t.val % 16 = 15 → (cfg0.win 5).flush t = false := by decide +kernel
theorem live_5 : ∀ t : Fin cfg0.N, t.val % 16 = 15 → cfg0.idle 5 (grid0.coords t) = false := by decide +kernel
/-- Output window 6 is idle, and not written back, except at the last step of a core; there it is live. -/
theorem idle_6 : ∀ t : Fin cfg0.N, ¬ t.val % 16 = 15 → cfg0.idle 6 (grid0.coords t) = true := by decide +kernel
theorem noFlush_6 : ∀ t : Fin cfg0.N, ¬ t.val % 16 = 15 → (cfg0.win 6).flush t = false := by decide +kernel
theorem live_6 : ∀ t : Fin cfg0.N, t.val % 16 = 15 → cfg0.idle 6 (grid0.coords t) = false := by decide +kernel

/-- One staging buffer per output window, through which its contents are stated. -/
abbrev VO_2 : View sig .tc .vmem S1x1x128 .f32 := (Memref.whole cc0_stg2_0 : Memref sig .tc .vmem S1x1x128 .f32).view
abbrev VO_3 : View sig .tc .vmem S1x1x128 .f32 := (Memref.whole cc0_stg3_0 : Memref sig .tc .vmem S1x1x128 .f32).view
abbrev VO_4 : View sig .tc .vmem S1x1x128 .f32 := (Memref.whole cc0_stg4_0 : Memref sig .tc .vmem S1x1x128 .f32).view
abbrev VO_5 : View sig .tc .vmem S1x1x128 .f32 := (Memref.whole cc0_stg5_0 : Memref sig .tc .vmem S1x1x128 .f32).view
abbrev VO_6 : View sig .tc .vmem S1x1x128 .f32 := (Memref.whole cc0_stg6_0 : Memref sig .tc .vmem S1x1x128 .f32).view
/-- The current staging memrefs at a point, and their wholeness. -/
abbrev ms_0 (t : Fin cfg0.N) : Memref sig .tc .vmem S8192x128 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S8192x128 .i32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x1x128 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x1x128 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1x1x128 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1x1x128 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S1x1x128 .f32 := win0_6.stage (cfg0.slots t 6)
abbrev hs_6 (t : Fin cfg0.N) : (ms_6 t).IsWhole := hstage0_6 ((cfg0.slots t 6).cast nbuf0_6)
/-- The five scratch rows the kernel keeps between points, as memrefs and as views. -/
abbrev scM_0 : Memref sig .tc .vmem S1x1x128 .f32 := Memref.whole cc0_scratch0
abbrev VS_0 : View sig .tc .vmem S1x1x128 .f32 := scM_0.view
abbrev scM_1 : Memref sig .tc .vmem S1x1x128 .f32 := Memref.whole cc0_scratch1
abbrev VS_1 : View sig .tc .vmem S1x1x128 .f32 := scM_1.view
abbrev scM_2 : Memref sig .tc .vmem S1x1x128 .f32 := Memref.whole cc0_scratch2
abbrev VS_2 : View sig .tc .vmem S1x1x128 .f32 := scM_2.view
abbrev scM_3 : Memref sig .tc .vmem S1x1x128 .f32 := Memref.whole cc0_scratch3
abbrev VS_3 : View sig .tc .vmem S1x1x128 .f32 := scM_3.view
abbrev scM_4 : Memref sig .tc .vmem S1x1x128 .f32 := Memref.whole cc0_scratch4
abbrev VS_4 : View sig .tc .vmem S1x1x128 .f32 := scM_4.view

/-- The region's invariant with the scratch rows as memrefs owned at some contents. -/
theorem PhiA_eq (c : Dev nD) :
    (Pipeline.ΦA spec0 c : sProp 𝕄)
      = iprop(iprop((∃ d, owns (c : Thread nD τ) scM_0 fullShare d) ∗ (∃ d, owns (c : Thread nD τ) scM_1 fullShare d) ∗ (∃ d, owns (c : Thread nD τ) scM_2 fullShare d) ∗ (∃ d, owns (c : Thread nD τ) scM_3 fullShare d) ∗ (∃ d, owns (c : Thread nD τ) scM_4 fullShare d)) ∗ (∃ r, prngReg c r)) := by
  unfold Pipeline.ΦA; rw [scopedRest0_eq]; simp only [scM_0, scM_1, scM_2, scM_3, scM_4, owns_whole]; try rfl

end Cert.Kernel.Hand

end
-- ==== Proof.KRunABits.lean ====
/-
  The kernel body run in its first case (step index 0: only the first branch is taken): on whole staging and scratch memrefs the body terminates without a fault,
  hands the two input blocks back as it found them, leaves the five output buffers untouched, and leaves in each kept row the
  pieces its stores wrote (found by running the body; read back in a later module).
-/
import proofs.«166070_j33698313404542_2_alg».proof.Proof.KCasesBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runA (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : cond1 i) (hc2 : ¬cond2 i) (hc3 : ¬cond3 i)
    (x0 : Vec F S8192x128 .f32) (y0 : Vec F S8192x128 .i32) :
    Σ' (LS0 : List (View.Piece (Elt F) S1x1x128 .f32)) (LS1 : List (View.Piece (Elt F) S1x1x128 .f32)) (LS2 : List (View.Piece (Elt F) S1x1x128 .f32)) (LS3 : List (View.Piece (Elt F) S1x1x128 .f32)), { LS4 : List (View.Piece (Elt F) S1x1x128 .f32) //
      ∀ (xi4 : Vec F S1x1x128 .f32) (xi5 : Vec F S1x1x128 .f32) (xi6 : Vec F S1x1x128 .f32) (xi7 : Vec F S1x1x128 .f32) (xi8 : Vec F S1x1x128 .f32) (E : Set ℕ) (K : PUnit → sProp 𝕄),
        iprop(owns (c : Thread nD τ) arg2 fullShare x0 ∗ owns (c : Thread nD τ) arg3 fullShare y0 ∗ owns (c : Thread nD τ) arg4 fullShare xi4 ∗ owns (c : Thread nD τ) arg5 fullShare xi5 ∗ owns (c : Thread nD τ) arg6 fullShare xi6 ∗ owns (c : Thread nD τ) arg7 fullShare xi7 ∗ owns (c : Thread nD τ) arg8 fullShare xi8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare y0 ∗ owns (c : Thread nD τ) arg4 fullShare xi4 ∗ owns (c : Thread nD τ) arg5 fullShare xi5 ∗ owns (c : Thread nD τ) arg6 fullShare xi6 ∗ owns (c : Thread nD τ) arg7 fullShare xi7 ∗ owns (c : Thread nD τ) arg8 fullShare xi8 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun xi4 xi5 xi6 xi7 xi8 E K => ?run⟩
  case run =>
    simp only [cc0__fused_kernel_eq_skeleton]; unfold cc0__fused_kernel_skel
    simp only [k0_part1_eq_skeleton]; unfold k0_part1_skel
    unfold owns
    iintro ⟨⟨%f0, %hf0, H0⟩, ⟨%f1, %hf1, H1⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1
    obtain rfl := harg4.eq_unread hf4; obtain rfl := harg5.eq_unread hf5; obtain rfl := harg6.eq_unread hf6; obtain rfl := harg7.eq_unread hf7; obtain rfl := harg8.eq_unread hf8
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [HS0]; · iexists _; iexact HS0
    isplitl [HS1]; · iexists _; iexact HS1
    isplitl [HS2]; · iexists _; iexact HS2
    isplitl [HS3]; · iexists _; iexact HS3
    iexists _; iexact HS4

end Cert.Kernel.Hand

end
-- ==== Proof.KPiecesABits.lean ====
/-
  What the body leaves, read back, at the first step of a core's sweep (the block's own column results are stored): the stored pieces tile each row,
  and the row they leave is the payload the store carried.
-/
import proofs.«166070_j33698313404542_2_alg».proof.Proof.KRunABits
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-block access, rank 3 and rank 2. -/
theorem hz3 : (![0, 0, 0] : Fin 3 → Nat) = fun _ => 0 := funext fun a => by fin_cases a <;> rfl
theorem hz2 : (![0, 0] : Fin 2 → Nat) = fun _ => 0 := funext fun a => by fin_cases a <;> rfl

/-- The pieces stored into kept row 0 tile it. -/
theorem scoverA_0 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : cond1 i) (hc2 : ¬cond2 i) (hc3 : ¬cond3 i)
    (x0 : Vec F S8192x128 .f32) (y0 : Vec F S8192x128 .i32) (y : S1x1x128.Idx) :
    ∃ pc ∈ (runA c i arg2 harg2 arg3 harg3 arg4 harg4 arg5 harg5 arg6 harg6 arg7 harg7 arg8 harg8 arg9 harg9 arg10 harg10 arg11 harg11 arg12 harg12 arg13 harg13 hc1 hc2 hc3 x0 y0).1, y ∈ pc.1.set :=
  View.cover_of_tiledL (runA c i arg2 harg2 arg3 harg3 arg4 harg4 arg5 harg5 arg6 harg6 arg7 harg7 arg8 harg8 arg9 harg9 arg10 harg10 arg11 harg11 arg12 harg12 arg13 harg13 hc1 hc2 hc3 x0 y0).1 S1x1x128.size (by sl_kernel_rfl) y

/-- What they leave in kept row 0. -/
theorem valA_0 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : cond1 i) (hc2 : ¬cond2 i) (hc3 : ¬cond3 i)
    (x0 : Vec F S8192x128 .f32) (y0 : Vec F S8192x128 .i32) :
    VS_0.read (Elt F) (VS_0.writes (Elt F) VS_0.junk (runA c i arg2 harg2 arg3 harg3 arg4 harg4 arg5 harg5 arg6 harg6 arg7 harg7 arg8 harg8 arg9 harg9 arg10 harg10 arg11 harg11 arg12 harg12 arg13 harg13 hc1 hc2 hc3 x0 y0).1) = k0_pay8 x0 := by
  rw [View.read_writes_eq_canon _ _ _ (scoverA_0 c i arg2 harg2 arg3 harg3 arg4 harg4 arg5 harg5 arg6 harg6 arg7 harg7 arg8 harg8 arg9 harg9 arg10 harg10 arg11 harg11 arg12 harg12 arg13 harg13 hc1 hc2 hc3 x0 y0)]
  unfold runA
  dsimp only
  sl_unfold_words
  rw [View.canon_unit_zero (S := S1x1x128) hz3]
  simp only [View.readAt_eq_ld, harg2.read_unread, harg3.read_unread, View.ld_unit_zero (S := S8192x128) hz2]

/-- The pieces stored into kept row 1 tile it. -/
theorem scoverA_1 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : cond1 i) (hc2 : ¬cond2 i) (hc3 : ¬cond3 i)
    (x0 : Vec F S8192x128 .f32) (y0 : Vec F S8192x128 .i32) (y : S1x1x128.Idx) :
    ∃ pc ∈ (runA c i arg2 harg2 arg3 harg3 arg4 harg4 arg5 harg5 arg6 harg6 arg7 harg7 arg8 harg8 arg9 harg9 arg10 harg10 arg11 harg11 arg12 harg12 arg13 harg13 hc1 hc2 hc3 x0 y0).2.1, y ∈ pc.1.set :=
  View.cover_of_tiledL (runA c i arg2 harg2 arg3 harg3 arg4 harg4 arg5 harg5 arg6 harg6 arg7 harg7 arg8 harg8 arg9 harg9 arg10 harg10 arg11 harg11 arg12 harg12 arg13 harg13 hc1 hc2 hc3 x0 y0).2.1 S1x1x128.size (by sl_kernel_rfl) y

/-- What they leave in kept row 1. -/
theorem valA_1 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : cond1 i) (hc2 : ¬cond2 i) (hc3 : ¬cond3 i)
    (x0 : Vec F S8192x128 .f32) (y0 : Vec F S8192x128 .i32) :
    VS_1.read (Elt F) (VS_1.writes (Elt F) VS_1.junk (runA c i arg2 harg2 arg3 harg3 arg4 harg4 arg5 harg5 arg6 harg6 arg7 harg7 arg8 harg8 arg9 harg9 arg10 harg10 arg11 harg11 arg12 harg12 arg13 harg13 hc1 hc2 hc3 x0 y0).2.1) = k0_pay9 x0 := by
  rw [View.read_writes_eq_canon _ _ _ (scoverA_1 c i arg2 harg2 arg3 harg3 arg4 harg4 arg5 harg5 arg6 harg6 arg7 harg7 arg8 harg8 arg9 harg9 arg10 harg10 arg11 harg11 arg12 harg12 arg13 harg13 hc1 hc2 hc3 x0 y0)]
  unfold runA
  dsimp only
  sl_unfold_words
  rw [View.canon_unit_zero (S := S1x1x128) hz3]
  simp only [View.readAt_eq_ld, harg2.read_unread, harg3.read_unread, View.ld_unit_zero (S := S8192x128) hz2]

/-- The pieces stored into kept row 2 tile it. -/
theorem scoverA_2 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : cond1 i) (hc2 : ¬cond2 i) (hc3 : ¬cond3 i)
    (x0 : Vec F S8192x128 .f32) (y0 : Vec F S8192x128 .i32) (y : S1x1x128.Idx) :
    ∃ pc ∈ (runA c i arg2 harg2 arg3 harg3 arg4 harg4 arg5 harg5 arg6 harg6 arg7 harg7 arg8 harg8 arg9 harg9 arg10 harg10 arg11 harg11 arg12 harg12 arg13 harg13 hc1 hc2 hc3 x0 y0).2.2.1, y ∈ pc.1.set :=
  View.cover_of_tiledL (runA c i arg2 harg2 arg3 harg3 arg4 harg4 arg5 harg5 arg6 harg6 arg7 harg7 arg8 harg8 arg9 harg9 arg10 harg10 arg11 harg11 arg12 harg12 arg13 harg13 hc1 hc2 hc3 x0 y0).2.2.1 S1x1x128.size (by sl_kernel_rfl) y

/-- What they leave in kept row 2. -/
theorem valA_2 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : cond1 i) (hc2 : ¬cond2 i) (hc3 : ¬cond3 i)
    (x0 : Vec F S8192x128 .f32) (y0 : Vec F S8192x128 .i32) :
    VS_2.read (Elt F) (VS_2.writes (Elt F) VS_2.junk (runA c i arg2 harg2 arg3 harg3 arg4 harg4 arg5 harg5 arg6 harg6 arg7 harg7 arg8 harg8 arg9 harg9 arg10 harg10 arg11 harg11 arg12 harg12 arg13 harg13 hc1 hc2 hc3 x0 y0).2.2.1) = k0_pay10 x0 := by
  rw [View.read_writes_eq_canon _ _ _ (scoverA_2 c i arg2 harg2 arg3 harg3 arg4 harg4 arg5 harg5 arg6 harg6 arg7 harg7 arg8 harg8 arg9 harg9 arg10 harg10 arg11 harg11 arg12 harg12 arg13 harg13 hc1 hc2 hc3 x0 y0)]
  unfold runA
  dsimp only
  sl_unfold_words
  rw [View.canon_unit_zero (S := S1x1x128) hz3]
  simp only [View.readAt_eq_ld, harg2.read_unread, harg3.read_unread, View.ld_unit_zero (S := S8192x128) hz2]

/-- The pieces stored into kept row 3 tile it. -/
theorem scoverA_3 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : cond1 i) (hc2 : ¬cond2 i) (hc3 : ¬cond3 i)
    (x0 : Vec F S8192x128 .f32) (y0 : Vec F S8192x128 .i32) (y : S1x1x128.Idx) :
    ∃ pc ∈ (runA c i arg2 harg2 arg3 harg3 arg4 harg4 arg5 harg5 arg6 harg6 arg7 harg7 arg8 harg8 arg9 harg9 arg10 harg10 arg11 harg11 arg12 harg12 arg13 harg13 hc1 hc2 hc3 x0 y0).2.2.2.1, y ∈ pc.1.set :=
  View.cover_of_tiledL (runA c i arg2 harg2 arg3 harg3 arg4 harg4 arg5 harg5 arg6 harg6 arg7 harg7 arg8 harg8 arg9 harg9 arg10 harg10 arg11 harg11 arg12 harg12 arg13 harg13 hc1 hc2 hc3 x0 y0).2.2.2.1 S1x1x128.size (by sl_kernel_rfl) y

/-- What they leave in kept row 3. -/
theorem valA_3 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : cond1 i) (hc2 : ¬cond2 i) (hc3 : ¬cond3 i)
    (x0 : Vec F S8192x128 .f32) (y0 : Vec F S8192x128 .i32) :
    VS_3.read (Elt F) (VS_3.writes (Elt F) VS_3.junk (runA c i arg2 harg2 arg3 harg3 arg4 harg4 arg5 harg5 arg6 harg6 arg7 harg7 arg8 harg8 arg9 harg9 arg10 harg10 arg11 harg11 arg12 harg12 arg13 harg13 hc1 hc2 hc3 x0 y0).2.2.2.1) = k0_pay11 x0 y0 := by
  rw [View.read_writes_eq_canon _ _ _ (scoverA_3 c i arg2 harg2 arg3 harg3 arg4 harg4 arg5 harg5 arg6 harg6 arg7 harg7 arg8 harg8 arg9 harg9 arg10 harg10 arg11 harg11 arg12 harg12 arg13 harg13 hc1 hc2 hc3 x0 y0)]
  unfold runA
  dsimp only
  sl_unfold_words
  rw [View.canon_unit_zero (S := S1x1x128) hz3]
  simp only [View.readAt_eq_ld, harg2.read_unread, harg3.read_unread, View.ld_unit_zero (S := S8192x128) hz2]

/-- The pieces stored into kept row 4 tile it. -/
theorem scoverA_4 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : cond1 i) (hc2 : ¬cond2 i) (hc3 : ¬cond3 i)
    (x0 : Vec F S8192x128 .f32) (y0 : Vec F S8192x128 .i32) (y : S1x1x128.Idx) :
    ∃ pc ∈ (runA c i arg2 harg2 arg3 harg3 arg4 harg4 arg5 harg5 arg6 harg6 arg7 harg7 arg8 harg8 arg9 harg9 arg10 harg10 arg11 harg11 arg12 harg12 arg13 harg13 hc1 hc2 hc3 x0 y0).2.2.2.2.1, y ∈ pc.1.set :=
  View.cover_of_tiledL (runA c i arg2 harg2 arg3 harg3 arg4 harg4 arg5 harg5 arg6 harg6 arg7 harg7 arg8 harg8 arg9 harg9 arg10 harg10 arg11 harg11 arg12 harg12 arg13 harg13 hc1 hc2 hc3 x0 y0).2.2.2.2.1 S1x1x128.size (by sl_kernel_rfl) y

/-- What they leave in kept row 4. -/
theorem valA_4 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : cond1 i) (hc2 : ¬cond2 i) (hc3 : ¬cond3 i)
    (x0 : Vec F S8192x128 .f32) (y0 : Vec F S8192x128 .i32) :
    VS_4.read (Elt F) (VS_4.writes (Elt F) VS_4.junk (runA c i arg2 harg2 arg3 harg3 arg4 harg4 arg5 harg5 arg6 harg6 arg7 harg7 arg8 harg8 arg9 harg9 arg10 harg10 arg11 harg11 arg12 harg12 arg13 harg13 hc1 hc2 hc3 x0 y0).2.2.2.2.1) = k0_pay12 y0 := by
  rw [View.read_writes_eq_canon _ _ _ (scoverA_4 c i arg2 harg2 arg3 harg3 arg4 harg4 arg5 harg5 arg6 harg6 arg7 harg7 arg8 harg8 arg9 harg9 arg10 harg10 arg11 harg11 arg12 harg12 arg13 harg13 hc1 hc2 hc3 x0 y0)]
  unfold runA
  dsimp only
  sl_unfold_words
  rw [View.canon_unit_zero (S := S1x1x128) hz3]
  simp only [View.readAt_eq_ld, harg2.read_unread, harg3.read_unread, View.ld_unit_zero (S := S8192x128) hz2]

end Cert.Kernel.Hand

end
-- ==== Proof.KRunBBits.lean ====
/-
  The kernel body run in its second case (step index between 1 and 14: only the second branch is taken): on whole staging and scratch memrefs the body terminates without a fault,
  hands the two input blocks back as it found them, leaves the five output buffers untouched, and leaves in each kept row the
  pieces its stores wrote (found by running the body; read back in a later module).
-/
import proofs.«166070_j33698313404542_2_alg».proof.Proof.KRunABits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runB (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : ¬cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) :
    Σ' (LS0 : List (View.Piece (Elt F) S1x1x128 .f32)) (LS1 : List (View.Piece (Elt F) S1x1x128 .f32)) (LS2 : List (View.Piece (Elt F) S1x1x128 .f32)) (LS3 : List (View.Piece (Elt F) S1x1x128 .f32)), { LS4 : List (View.Piece (Elt F) S1x1x128 .f32) //
      ∀ (xi4 : Vec F S1x1x128 .f32) (xi5 : Vec F S1x1x128 .f32) (xi6 : Vec F S1x1x128 .f32) (xi7 : Vec F S1x1x128 .f32) (xi8 : Vec F S1x1x128 .f32) (E : Set ℕ) (K : PUnit → sProp 𝕄),
        iprop(owns (c : Thread nD τ) arg2 fullShare x0 ∗ owns (c : Thread nD τ) arg3 fullShare y0 ∗ owns (c : Thread nD τ) arg4 fullShare xi4 ∗ owns (c : Thread nD τ) arg5 fullShare xi5 ∗ owns (c : Thread nD τ) arg6 fullShare xi6 ∗ owns (c : Thread nD τ) arg7 fullShare xi7 ∗ owns (c : Thread nD τ) arg8 fullShare xi8 ∗ owns (c : Thread nD τ) arg9 fullShare xs0 ∗ owns (c : Thread nD τ) arg10 fullShare xs1 ∗ owns (c : Thread nD τ) arg11 fullShare xs2 ∗ owns (c : Thread nD τ) arg12 fullShare xs3 ∗ owns (c : Thread nD τ) arg13 fullShare xs4
            ∗ (iprop(owns (c : Thread nD τ) arg2 fullShare x0 ∗ owns (c : Thread nD τ) arg3 fullShare y0 ∗ owns (c : Thread nD τ) arg4 fullShare xi4 ∗ owns (c : Thread nD τ) arg5 fullShare xi5 ∗ owns (c : Thread nD τ) arg6 fullShare xi6 ∗ owns (c : Thread nD τ) arg7 fullShare xi7 ∗ owns (c : Thread nD τ) arg8 fullShare xi8 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun xi4 xi5 xi6 xi7 xi8 E K => ?run⟩
  case run =>
    simp only [cc0__fused_kernel_eq_skeleton]; unfold cc0__fused_kernel_skel
    simp only [k0_part1_eq_skeleton]; unfold k0_part1_skel
    unfold owns
    iintro ⟨⟨%f0, %hf0, H0⟩, ⟨%f1, %hf1, H1⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1
    obtain rfl := harg4.eq_unread hf4; obtain rfl := harg5.eq_unread hf5; obtain rfl := harg6.eq_unread hf6; obtain rfl := harg7.eq_unread hf7; obtain rfl := harg8.eq_unread hf8
    obtain rfl := harg9.eq_unread hfs0; obtain rfl := harg10.eq_unread hfs1; obtain rfl := harg11.eq_unread hfs2; obtain rfl := harg12.eq_unread hfs3; obtain rfl := harg13.eq_unread hfs4
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [HS0]; · iexists _; iexact HS0
    isplitl [HS1]; · iexists _; iexact HS1
    isplitl [HS2]; · iexists _; iexact HS2
    isplitl [HS3]; · iexists _; iexact HS3
    iexists _; iexact HS4

end Cert.Kernel.Hand

end
-- ==== Proof.KPiecesBBits.lean ====
/-
  What the body leaves, read back, at a middle step (each kept row is combined with the block's column result and stored back): the stored pieces tile each row,
  and the row they leave is the payload the store carried.
-/
import proofs.«166070_j33698313404542_2_alg».proof.Proof.KRunBBits
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets, as the constant function. -/
theorem hz3B : (![0, 0, 0] : Fin 3 → Nat) = fun _ => 0 := funext fun a => by fin_cases a <;> rfl
theorem hz2B : (![0, 0] : Fin 2 → Nat) = fun _ => 0 := funext fun a => by fin_cases a <;> rfl

/-- The pieces stored into kept row 0 tile it. -/
theorem scoverB_0 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : ¬cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) (y : S1x1x128.Idx) :
    ∃ pc ∈ (runB c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).1, y ∈ pc.1.set :=
  View.cover_of_tiledL (runB c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).1 S1x1x128.size (by sl_kernel_rfl) y

/-- What they leave in kept row 0. -/
theorem valB_0 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : ¬cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) :
    VS_0.read (Elt F) (VS_0.writes (Elt F) VS_0.junk (runB c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).1) = k0_pay14 (k0_pay3 x0) xs0 := by
  rw [View.read_writes_eq_canon _ _ _ (scoverB_0 c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4)]
  unfold runB
  dsimp only
  rw [View.canon_unit_zero (S := S1x1x128) hz3B]
  simp only [View.readAt_eq_ld, harg2.read_unread, harg3.read_unread, harg9.read_unread, harg10.read_unread, harg11.read_unread, harg12.read_unread, harg13.read_unread, View.ld_unit_zero (S := S8192x128) hz2B, View.ld_unit_zero (S := S1x1x128) hz3B]

/-- The pieces stored into kept row 1 tile it. -/
theorem scoverB_1 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : ¬cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) (y : S1x1x128.Idx) :
    ∃ pc ∈ (runB c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.1, y ∈ pc.1.set :=
  View.cover_of_tiledL (runB c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.1 S1x1x128.size (by sl_kernel_rfl) y

/-- What they leave in kept row 1. -/
theorem valB_1 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : ¬cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) :
    VS_1.read (Elt F) (VS_1.writes (Elt F) VS_1.junk (runB c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.1) = k0_pay15 (k0_pay4 x0) xs1 := by
  rw [View.read_writes_eq_canon _ _ _ (scoverB_1 c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4)]
  unfold runB
  dsimp only
  rw [View.canon_unit_zero (S := S1x1x128) hz3B]
  simp only [View.readAt_eq_ld, harg2.read_unread, harg3.read_unread, harg9.read_unread, harg10.read_unread, harg11.read_unread, harg12.read_unread, harg13.read_unread, View.ld_unit_zero (S := S8192x128) hz2B, View.ld_unit_zero (S := S1x1x128) hz3B]

/-- The pieces stored into kept row 2 tile it. -/
theorem scoverB_2 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : ¬cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) (y : S1x1x128.Idx) :
    ∃ pc ∈ (runB c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.1, y ∈ pc.1.set :=
  View.cover_of_tiledL (runB c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.1 S1x1x128.size (by sl_kernel_rfl) y

/-- What they leave in kept row 2. -/
theorem valB_2 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : ¬cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) :
    VS_2.read (Elt F) (VS_2.writes (Elt F) VS_2.junk (runB c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.1) = k0_pay16 (k0_pay5 x0) xs2 := by
  rw [View.read_writes_eq_canon _ _ _ (scoverB_2 c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4)]
  unfold runB
  dsimp only
  rw [View.canon_unit_zero (S := S1x1x128) hz3B]
  simp only [View.readAt_eq_ld, harg2.read_unread, harg3.read_unread, harg9.read_unread, harg10.read_unread, harg11.read_unread, harg12.read_unread, harg13.read_unread, View.ld_unit_zero (S := S8192x128) hz2B, View.ld_unit_zero (S := S1x1x128) hz3B]

/-- The pieces stored into kept row 3 tile it. -/
theorem scoverB_3 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : ¬cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) (y : S1x1x128.Idx) :
    ∃ pc ∈ (runB c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.1, y ∈ pc.1.set :=
  View.cover_of_tiledL (runB c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.1 S1x1x128.size (by sl_kernel_rfl) y

/-- What they leave in kept row 3. -/
theorem valB_3 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : ¬cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) :
    VS_3.read (Elt F) (VS_3.writes (Elt F) VS_3.junk (runB c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.1) = k0_pay17 (k0_pay6 x0 y0) xs3 := by
  rw [View.read_writes_eq_canon _ _ _ (scoverB_3 c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4)]
  unfold runB
  dsimp only
  rw [View.canon_unit_zero (S := S1x1x128) hz3B]
  simp only [View.readAt_eq_ld, harg2.read_unread, harg3.read_unread, harg9.read_unread, harg10.read_unread, harg11.read_unread, harg12.read_unread, harg13.read_unread, View.ld_unit_zero (S := S8192x128) hz2B, View.ld_unit_zero (S := S1x1x128) hz3B]

/-- The pieces stored into kept row 4 tile it. -/
theorem scoverB_4 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : ¬cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) (y : S1x1x128.Idx) :
    ∃ pc ∈ (runB c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.2.1, y ∈ pc.1.set :=
  View.cover_of_tiledL (runB c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.2.1 S1x1x128.size (by sl_kernel_rfl) y

/-- What they leave in kept row 4. -/
theorem valB_4 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : ¬cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) :
    VS_4.read (Elt F) (VS_4.writes (Elt F) VS_4.junk (runB c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.2.1) = k0_pay13 (k0_pay18 (k0_pay7 y0) xs4) := by
  rw [View.read_writes_eq_canon _ _ _ (scoverB_4 c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4)]
  unfold runB
  dsimp only
  rw [View.canon_unit_zero (S := S1x1x128) hz3B]
  simp only [View.readAt_eq_ld, harg2.read_unread, harg3.read_unread, harg9.read_unread, harg10.read_unread, harg11.read_unread, harg12.read_unread, harg13.read_unread, View.ld_unit_zero (S := S8192x128) hz2B, View.ld_unit_zero (S := S1x1x128) hz3B]

end Cert.Kernel.Hand

end
-- ==== Proof.KRunCBits.lean ====
/-
  The kernel body run in its third case (step index 15: the second and the third branch are taken): on whole staging and scratch memrefs the body terminates without a fault,
  hands the two input blocks back as it found them and leaves in each output buffer and each kept row the
  pieces its stores wrote (found by running the body; read back in a later module).
-/
import proofs.«166070_j33698313404542_2_alg».proof.Proof.KRunBBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runC (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) :
    Σ' (L4 : List (View.Piece (Elt F) S1x1x128 .f32)) (L5 : List (View.Piece (Elt F) S1x1x128 .f32)) (L6 : List (View.Piece (Elt F) S1x1x128 .f32)) (L7 : List (View.Piece (Elt F) S1x1x128 .f32)) (L8 : List (View.Piece (Elt F) S1x1x128 .f32)) (LS0 : List (View.Piece (Elt F) S1x1x128 .f32)) (LS1 : List (View.Piece (Elt F) S1x1x128 .f32)) (LS2 : List (View.Piece (Elt F) S1x1x128 .f32)) (LS3 : List (View.Piece (Elt F) S1x1x128 .f32)), { LS4 : List (View.Piece (Elt F) S1x1x128 .f32) //
      ∀ (E : Set ℕ) (K : PUnit → sProp 𝕄),
        iprop(owns (c : Thread nD τ) arg2 fullShare x0 ∗ owns (c : Thread nD τ) arg3 fullShare y0 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3 ∗ owns (c : Thread nD τ) arg13 fullShare xs4
            ∗ (iprop(owns (c : Thread nD τ) arg2 fullShare x0 ∗ owns (c : Thread nD τ) arg3 fullShare y0 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, ?_, ?_, ?_, fun E K => ?run⟩
  case run =>
    simp only [cc0__fused_kernel_eq_skeleton]; unfold cc0__fused_kernel_skel
    simp only [k0_part1_eq_skeleton]; unfold k0_part1_skel
    unfold owns
    iintro ⟨⟨%f0, %hf0, H0⟩, ⟨%f1, %hf1, H1⟩, ⟨%d4, %f4, -, H4⟩, ⟨%d5, %f5, -, H5⟩, ⟨%d6, %f6, -, H6⟩, ⟨%d7, %f7, -, H7⟩, ⟨%d8, %f8, -, H8⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1
    obtain rfl := harg9.eq_unread hfs0; obtain rfl := harg10.eq_unread hfs1; obtain rfl := harg11.eq_unread hfs2; obtain rfl := harg12.eq_unread hfs3; obtain rfl := harg13.eq_unread hfs4
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H4]; · iexists _; iexact H4
    isplitl [H5]; · iexists _; iexact H5
    isplitl [H6]; · iexists _; iexact H6
    isplitl [H7]; · iexists _; iexact H7
    isplitl [H8]; · iexists _; iexact H8
    isplitl [HS0]; · iexists _; iexact HS0
    isplitl [HS1]; · iexists _; iexact HS1
    isplitl [HS2]; · iexists _; iexact HS2
    isplitl [HS3]; · iexists _; iexact HS3
    iexists _; iexact HS4

end Cert.Kernel.Hand

end
-- ==== Proof.KPiecesCBits.lean ====
/-
  What the body leaves, read back, at the last step (the kept rows are combined and stored back, then copied to the output buffers): the stored pieces tile each row,
  and the row they leave is the payload the store carried.
-/
import proofs.«166070_j33698313404542_2_alg».proof.Proof.KRunCBits
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-3 and of a rank-2 whole-shape rectangle, as constant functions. -/
private theorem hzC3 : (![0, 0, 0] : Fin 3 → Nat) = fun _ => 0 := funext fun a => by fin_cases a <;> rfl
private theorem hzC2 : (![0, 0] : Fin 2 → Nat) = fun _ => 0 := funext fun a => by fin_cases a <;> rfl

/-- The pieces stored into kept row 0 tile it. -/
theorem scoverC_0 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) (y : S1x1x128.Idx) :
    ∃ pc ∈ (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.2.2.1, y ∈ pc.1.set :=
  View.cover_of_tiledL (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.2.2.1 S1x1x128.size (by sl_kernel_rfl) y

/-- What they leave in kept row 0. -/
theorem valC_0 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) :
    VS_0.read (Elt F) (VS_0.writes (Elt F) VS_0.junk (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.2.2.1) = k0_pay14 (k0_pay3 x0) xs0 := by
  rw [View.read_writes_eq_canon _ _ _ (scoverC_0 c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4)]
  unfold runC
  dsimp only
  sl_unfold_words
  rw [View.canon_unit_zero (S := S1x1x128) hzC3]
  simp only [View.readAt_eq_ld, harg2.read_unread, harg3.read_unread, harg9.read_unread, harg10.read_unread,
    harg11.read_unread, harg12.read_unread, harg13.read_unread, View.ld_unit_zero (S := S8192x128) hzC2,
    View.ld_unit_zero (S := S1x1x128) hzC3]

/-- The pieces stored into kept row 1 tile it. -/
theorem scoverC_1 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) (y : S1x1x128.Idx) :
    ∃ pc ∈ (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.2.2.2.1, y ∈ pc.1.set :=
  View.cover_of_tiledL (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.2.2.2.1 S1x1x128.size (by sl_kernel_rfl) y

/-- What they leave in kept row 1. -/
theorem valC_1 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) :
    VS_1.read (Elt F) (VS_1.writes (Elt F) VS_1.junk (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.2.2.2.1) = k0_pay15 (k0_pay4 x0) xs1 := by
  rw [View.read_writes_eq_canon _ _ _ (scoverC_1 c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4)]
  unfold runC
  dsimp only
  sl_unfold_words
  rw [View.canon_unit_zero (S := S1x1x128) hzC3]
  simp only [View.readAt_eq_ld, harg2.read_unread, harg3.read_unread, harg9.read_unread, harg10.read_unread,
    harg11.read_unread, harg12.read_unread, harg13.read_unread, View.ld_unit_zero (S := S8192x128) hzC2,
    View.ld_unit_zero (S := S1x1x128) hzC3]

/-- The pieces stored into kept row 2 tile it. -/
theorem scoverC_2 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) (y : S1x1x128.Idx) :
    ∃ pc ∈ (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.2.2.2.2.1, y ∈ pc.1.set :=
  View.cover_of_tiledL (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.2.2.2.2.1 S1x1x128.size (by sl_kernel_rfl) y

/-- What they leave in kept row 2. -/
theorem valC_2 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) :
    VS_2.read (Elt F) (VS_2.writes (Elt F) VS_2.junk (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.2.2.2.2.1) = k0_pay16 (k0_pay5 x0) xs2 := by
  rw [View.read_writes_eq_canon _ _ _ (scoverC_2 c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4)]
  unfold runC
  dsimp only
  sl_unfold_words
  rw [View.canon_unit_zero (S := S1x1x128) hzC3]
  simp only [View.readAt_eq_ld, harg2.read_unread, harg3.read_unread, harg9.read_unread, harg10.read_unread,
    harg11.read_unread, harg12.read_unread, harg13.read_unread, View.ld_unit_zero (S := S8192x128) hzC2,
    View.ld_unit_zero (S := S1x1x128) hzC3]

/-- The pieces stored into kept row 3 tile it. -/
theorem scoverC_3 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) (y : S1x1x128.Idx) :
    ∃ pc ∈ (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.2.2.2.2.2.1, y ∈ pc.1.set :=
  View.cover_of_tiledL (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.2.2.2.2.2.1 S1x1x128.size (by sl_kernel_rfl) y

/-- What they leave in kept row 3. -/
theorem valC_3 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) :
    VS_3.read (Elt F) (VS_3.writes (Elt F) VS_3.junk (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.2.2.2.2.2.1) = k0_pay17 (k0_pay6 x0 y0) xs3 := by
  rw [View.read_writes_eq_canon _ _ _ (scoverC_3 c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4)]
  unfold runC
  dsimp only
  sl_unfold_words
  rw [View.canon_unit_zero (S := S1x1x128) hzC3]
  simp only [View.readAt_eq_ld, harg2.read_unread, harg3.read_unread, harg9.read_unread, harg10.read_unread,
    harg11.read_unread, harg12.read_unread, harg13.read_unread, View.ld_unit_zero (S := S8192x128) hzC2,
    View.ld_unit_zero (S := S1x1x128) hzC3]

/-- The pieces stored into kept row 4 tile it. -/
theorem scoverC_4 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) (y : S1x1x128.Idx) :
    ∃ pc ∈ (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.2.2.2.2.2.2.1, y ∈ pc.1.set :=
  View.cover_of_tiledL (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.2.2.2.2.2.2.1 S1x1x128.size (by sl_kernel_rfl) y

/-- What they leave in kept row 4. -/
theorem valC_4 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) :
    VS_4.read (Elt F) (VS_4.writes (Elt F) VS_4.junk (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.2.2.2.2.2.2.1) = k0_pay13 (k0_pay18 (k0_pay7 y0) xs4) := by
  rw [View.read_writes_eq_canon _ _ _ (scoverC_4 c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4)]
  unfold runC
  dsimp only
  sl_unfold_words
  rw [View.canon_unit_zero (S := S1x1x128) hzC3]
  simp only [View.readAt_eq_ld, harg2.read_unread, harg3.read_unread, harg9.read_unread, harg10.read_unread,
    harg11.read_unread, harg12.read_unread, harg13.read_unread, View.ld_unit_zero (S := S8192x128) hzC2,
    View.ld_unit_zero (S := S1x1x128) hzC3]

end Cert.Kernel.Hand

end
-- ==== Proof.KPiecesCOBits.lean ====
/-
  What the body leaves, read back, at the last step (the kept rows are combined and stored back, then copied to the output buffers — here the output buffers): the stored pieces tile each row,
  and the row they leave is the payload the store carried.
-/
import proofs.«166070_j33698313404542_2_alg».proof.Proof.KRunCBits
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-3 load or store, however spelt. -/
private theorem hz3CO : (![0, 0, 0] : Fin 3 → Nat) = fun _ => 0 := funext fun a => by fin_cases a <;> rfl
/-- The zero offsets of a rank-2 load or store, however spelt. -/
private theorem hz2CO : (![0, 0] : Fin 2 → Nat) = fun _ => 0 := funext fun a => by fin_cases a <;> rfl

/-- The pieces stored into output buffer 2 tile it. -/
theorem coverC_2 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) (y : S1x1x128.Idx) :
    ∃ pc ∈ (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).1, y ∈ pc.1.set :=
  View.cover_of_tiledL (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).1 S1x1x128.size (by sl_kernel_rfl) y

/-- Output buffer 2 receives the kept row just written. -/
theorem outC_2 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) :
    VO_2.read (Elt F) (VO_2.writes (Elt F) VO_2.junk (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).1) = k0_pay14 (k0_pay3 x0) xs0 := by
  rw [View.read_writes_junk_eq_canon]
  unfold runC
  dsimp only
  sl_unfold_words
  rw [View.canon_unit_zero (S := S1x1x128) hz3CO, View.readCov_unit_zero (S := S1x1x128) _ hz3CO]
  simp only [View.readAt_eq_ld, harg2.read_unread, harg3.read_unread, harg9.read_unread, harg10.read_unread, harg11.read_unread,
    harg12.read_unread, harg13.read_unread, View.ld_unit_zero (S := S8192x128) hz2CO, View.ld_unit_zero (S := S1x1x128) hz3CO]

/-- The pieces stored into output buffer 3 tile it. -/
theorem coverC_3 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) (y : S1x1x128.Idx) :
    ∃ pc ∈ (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.1, y ∈ pc.1.set :=
  View.cover_of_tiledL (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.1 S1x1x128.size (by sl_kernel_rfl) y

/-- Output buffer 3 receives the kept row just written. -/
theorem outC_3 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) :
    VO_3.read (Elt F) (VO_3.writes (Elt F) VO_3.junk (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.1) = k0_pay15 (k0_pay4 x0) xs1 := by
  rw [View.read_writes_junk_eq_canon]
  unfold runC
  dsimp only
  sl_unfold_words
  rw [View.canon_unit_zero (S := S1x1x128) hz3CO, View.readCov_unit_zero (S := S1x1x128) _ hz3CO]
  simp only [View.readAt_eq_ld, harg2.read_unread, harg3.read_unread, harg9.read_unread, harg10.read_unread, harg11.read_unread,
    harg12.read_unread, harg13.read_unread, View.ld_unit_zero (S := S8192x128) hz2CO, View.ld_unit_zero (S := S1x1x128) hz3CO]

/-- The pieces stored into output buffer 4 tile it. -/
theorem coverC_4 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) (y : S1x1x128.Idx) :
    ∃ pc ∈ (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.1, y ∈ pc.1.set :=
  View.cover_of_tiledL (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.1 S1x1x128.size (by sl_kernel_rfl) y

/-- Output buffer 4 receives the kept row just written. -/
theorem outC_4 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) :
    VO_4.read (Elt F) (VO_4.writes (Elt F) VO_4.junk (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.1) = k0_pay16 (k0_pay5 x0) xs2 := by
  rw [View.read_writes_junk_eq_canon]
  unfold runC
  dsimp only
  sl_unfold_words
  rw [View.canon_unit_zero (S := S1x1x128) hz3CO, View.readCov_unit_zero (S := S1x1x128) _ hz3CO]
  simp only [View.readAt_eq_ld, harg2.read_unread, harg3.read_unread, harg9.read_unread, harg10.read_unread, harg11.read_unread,
    harg12.read_unread, harg13.read_unread, View.ld_unit_zero (S := S8192x128) hz2CO, View.ld_unit_zero (S := S1x1x128) hz3CO]

/-- The pieces stored into output buffer 5 tile it. -/
theorem coverC_5 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) (y : S1x1x128.Idx) :
    ∃ pc ∈ (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.1, y ∈ pc.1.set :=
  View.cover_of_tiledL (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.1 S1x1x128.size (by sl_kernel_rfl) y

/-- Output buffer 5 receives the kept row just written. -/
theorem outC_5 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) :
    VO_5.read (Elt F) (VO_5.writes (Elt F) VO_5.junk (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.1) = k0_pay17 (k0_pay6 x0 y0) xs3 := by
  rw [View.read_writes_junk_eq_canon]
  unfold runC
  dsimp only
  sl_unfold_words
  rw [View.canon_unit_zero (S := S1x1x128) hz3CO, View.readCov_unit_zero (S := S1x1x128) _ hz3CO]
  simp only [View.readAt_eq_ld, harg2.read_unread, harg3.read_unread, harg9.read_unread, harg10.read_unread, harg11.read_unread,
    harg12.read_unread, harg13.read_unread, View.ld_unit_zero (S := S8192x128) hz2CO, View.ld_unit_zero (S := S1x1x128) hz3CO]

/-- The pieces stored into output buffer 6 tile it. -/
theorem coverC_6 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) (y : S1x1x128.Idx) :
    ∃ pc ∈ (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.2.1, y ∈ pc.1.set :=
  View.cover_of_tiledL (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.2.1 S1x1x128.size (by sl_kernel_rfl) y

/-- Output buffer 6 receives the kept row just written. -/
theorem outC_6 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) :
    VO_6.read (Elt F) (VO_6.writes (Elt F) VO_6.junk (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.2.1) = k0_pay13 (k0_pay18 (k0_pay7 y0) xs4) := by
  rw [View.read_writes_junk_eq_canon]
  unfold runC
  dsimp only
  sl_unfold_words
  rw [View.canon_unit_zero (S := S1x1x128) hz3CO, View.readCov_unit_zero (S := S1x1x128) _ hz3CO]
  simp only [View.readAt_eq_ld, harg2.read_unread, harg3.read_unread, harg9.read_unread, harg10.read_unread, harg11.read_unread,
    harg12.read_unread, harg13.read_unread, View.ld_unit_zero (S := S8192x128) hz2CO, View.ld_unit_zero (S := S1x1x128) hz3CO]

end Cert.Kernel.Hand

end
-- ==== Proof.KAccBits.lean ====
/-
  The five running partial results the kernel keeps across the sixteen steps of one core, as a recursion over the
  step: lane by lane the least entry, the greatest entry, the sum, the sum over zero-labelled entries and the
  number of zero labels of the rows seen so far. The first step writes the block's own column results; every
  later step combines the kept value with the block's column result (min, max, +, +, +).
-/
import proofs.«166070_j33698313404542_2_alg».proof.Proof.Gen.Kernel.Skeleton

noncomputable section

namespace Cert.Kernel.Acc

open Idealize.ShloMosaic Cert.Kernel Cert.Kernel.Gen

variable {F : FTy → Type} [FloatOps F]

/-- The five kept rows: min, max, total, zero-label total, zero-label count. -/
abbrev Acc (F : FTy → Type) [FloatOps F] : Type :=
  Vec F S1x1x128 .f32 × Vec F S1x1x128 .f32 × Vec F S1x1x128 .f32 × Vec F S1x1x128 .f32 × Vec F S1x1x128 .f32

/-- After the first step: the block's own column results. -/
def first (x0 : Vec F S8192x128 .f32) (y0 : Vec F S8192x128 .i32) : Acc F :=
  (k0_pay8 x0, k0_pay9 x0, k0_pay10 x0, k0_pay11 x0 y0, k0_pay12 y0)

/-- After a later step: the kept rows combined with the block's column results. -/
def next (a : Acc F) (x0 : Vec F S8192x128 .f32) (y0 : Vec F S8192x128 .i32) : Acc F :=
  (k0_pay14 (k0_pay3 x0) a.1, k0_pay15 (k0_pay4 x0) a.2.1, k0_pay16 (k0_pay5 x0) a.2.2.1,
   k0_pay17 (k0_pay6 x0 y0) a.2.2.2.1, k0_pay13 (k0_pay18 (k0_pay7 y0) a.2.2.2.2))

/-- The kept rows after step `n` of a core whose blocks are `bx j`, `by j`. -/
def run (bx : ℕ → Vec F S8192x128 .f32) (bl : ℕ → Vec F S8192x128 .i32) : ℕ → Acc F
  | 0 => first (bx 0) (bl 0)
  | n + 1 => next (run bx bl n) (bx (n + 1)) (bl (n + 1))

end Cert.Kernel.Acc

end
-- ==== Proof.KKeptBits.lean ====
/-
  The five kept rows after each grid point of a core's sweep, by recursion on the point: at the first step of a
  core (point ≡ 0 mod 16) the block's own column results, at every other point the rows the point before left
  combined with the block's column results.
-/
import proofs.«166070_j33698313404542_2_alg».proof.Proof.Gen.Kernel.Frame
import proofs.«166070_j33698313404542_2_alg».proof.Proof.KAccBits

noncomputable section

namespace Cert.Kernel.Hand

open Cert.Kernel Cert.Kernel.Gen Cert.Kernel.Acc
open Idealize.ShloMosaic Idealize.ShloMosaic.TcCoe Idealize.SL.Sem

variable {F : FTy → Type} [FloatOps F]
variable (m : (ℓ : Loc nD τ sig) → Buf (Elt F) ℓ)

/-- The two input blocks at a point, at their literal shapes. -/
abbrev bx (c : Dev nD) (t : Fin cfg0.N) : Vec F S8192x128 .f32 := iblk m c 0 t
abbrev bl (c : Dev nD) (t : Fin cfg0.N) : Vec F S8192x128 .i32 := iblk m c 1 t

/-- The kept rows after point `n`. -/
def keptAt (c : Dev nD) : (n : ℕ) → n < cfg0.N → Acc F
  | 0, hn => first (bx m c ⟨0, hn⟩) (bl m c ⟨0, hn⟩)
  | n + 1, hn =>
    if (n + 1) % 16 = 0 then first (bx m c ⟨n + 1, hn⟩) (bl m c ⟨n + 1, hn⟩)
    else next (keptAt c n (Nat.lt_of_succ_lt hn)) (bx m c ⟨n + 1, hn⟩) (bl m c ⟨n + 1, hn⟩)

/-- At the first step of a core. -/
theorem keptAt_first (c : Dev nD) (t : Fin cfg0.N) (h : t.val % 16 = 0) :
    keptAt m c t.val t.isLt = first (bx m c t) (bl m c t) := by
  obtain ⟨n, hn⟩ := t
  cases n with
  | zero => rfl
  | succ n => exact (if_pos h)

/-- At a later step. -/
theorem keptAt_next (c : Dev nD) (t : Fin cfg0.N) (h : ¬ t.val % 16 = 0) :
    keptAt m c t.val t.isLt
      = next (keptAt m c (t.val - 1) (Nat.lt_of_le_of_lt (Nat.sub_le _ _) t.isLt)) (bx m c t) (bl m c t) := by
  obtain ⟨n, hn⟩ := t
  cases n with
  | zero => exact absurd (Nat.zero_mod _) h
  | succ n => exact (if_neg h)

end Cert.Kernel.Hand

end
-- ==== Proof.KFrameBits.lean ====
/-
  The frame of the program: it runs to the end without a fault and leaves its two argument arrays unchanged.
  The region's invariant tracks the five kept rows: before the first grid point they hold anything; after point n
  they hold the running results of the core's sweep up to n (the recursion of the kept rows). At every point the
  body is one of three cases by the step index (first, middle, last), each run on the point's staging buffers; the
  output buffers are untouched except at a core's last step, where they receive the kept rows. The host lines
  after the region write no array of the pipeline.
-/
import proofs.«166070_j33698313404542_2_alg».proof.Proof.KPiecesABits
import proofs.«166070_j33698313404542_2_alg».proof.Proof.KPiecesBBits
import proofs.«166070_j33698313404542_2_alg».proof.Proof.KPiecesCBits
import proofs.«166070_j33698313404542_2_alg».proof.Proof.KPiecesCOBits
import proofs.«166070_j33698313404542_2_alg».proof.Proof.KKeptBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Acc

variable (m : (ℓ : Loc nD τ sig) → Buf (Elt F) ℓ) (ρ : Dev nD → PrngReg)

/-- The region's invariant before position `n`: before the first point the scratch rows at anything; afterwards
    each at what the point before left, and the generator register at some state. -/
def PhiS (c : Dev nD) : (n : ℕ) → n ≤ cfg0.N → sProp 𝕄
  | 0, _ => Pipeline.ΦA spec0 c
  | n + 1, hn => iprop(iprop(owns (c : Thread nD τ) scM_0 fullShare ((keptAt m c n hn).1) ∗ owns (c : Thread nD τ) scM_1 fullShare ((keptAt m c n hn).2.1) ∗ owns (c : Thread nD τ) scM_2 fullShare ((keptAt m c n hn).2.2.1) ∗ owns (c : Thread nD τ) scM_3 fullShare ((keptAt m c n hn).2.2.2.1) ∗ owns (c : Thread nD τ) scM_4 fullShare ((keptAt m c n hn).2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM_0 fullShare ((keptAt m c n hn).1) ∗ owns (c : Thread nD τ) scM_1 fullShare ((keptAt m c n hn).2.1) ∗ owns (c : Thread nD τ) scM_2 fullShare ((keptAt m c n hn).2.2.1) ∗ owns (c : Thread nD τ) scM_3 fullShare ((keptAt m c n hn).2.2.2.1) ∗ owns (c : Thread nD τ) scM_4 fullShare ((keptAt m c n hn).2.2.2.2)) ∗ (∃ r, prngReg c r)) := rfl

theorem PhiS_pos (c : Dev nD) (n : ℕ) (h : n ≤ cfg0.N) (hz : n ≠ 0) :
    PhiS m c n h = iprop(iprop(owns (c : Thread nD τ) scM_0 fullShare ((keptAt m c (n - 1) (by omega)).1) ∗ owns (c : Thread nD τ) scM_1 fullShare ((keptAt m c (n - 1) (by omega)).2.1) ∗ owns (c : Thread nD τ) scM_2 fullShare ((keptAt m c (n - 1) (by omega)).2.2.1) ∗ owns (c : Thread nD τ) scM_3 fullShare ((keptAt m c (n - 1) (by omega)).2.2.2.1) ∗ owns (c : Thread nD τ) scM_4 fullShare ((keptAt m c (n - 1) (by omega)).2.2.2.2)) ∗ (∃ r, prngReg c r)) := by
  cases n with
  | zero => exact absurd rfl hz
  | succ n => rfl

/-- The proof data: the arrays as the region finds them; after the body each input buffer at its block and each
    output buffer at the corresponding kept row; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (keptAt m c t.val t.isLt).1
    | ⟨3, _⟩ => (keptAt m c t.val t.isLt).2.1
    | ⟨4, _⟩ => (keptAt m c t.val t.isLt).2.2.1
    | ⟨5, _⟩ => (keptAt m c t.val t.isLt).2.2.2.1
    | ⟨6, _⟩ => (keptAt m c t.val t.isLt).2.2.2.2
    | ⟨n + 7, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (keptAt m c t.val t.isLt).1 := by dsimp only [dats]
theorem after_3 (c : Dev nD) (t : Fin cfg0.N) : (dats m 0 c).after 3 t = (keptAt m c t.val t.isLt).2.1 := by dsimp only [dats]
theorem after_4 (c : Dev nD) (t : Fin cfg0.N) : (dats m 0 c).after 4 t = (keptAt m c t.val t.isLt).2.2.1 := by dsimp only [dats]
theorem after_5 (c : Dev nD) (t : Fin cfg0.N) : (dats m 0 c).after 5 t = (keptAt m c t.val t.isLt).2.2.2.1 := by dsimp only [dats]
theorem after_6 (c : Dev nD) (t : Fin cfg0.N) : (dats m 0 c).after 6 t = (keptAt m c t.val t.isLt).2.2.2.2 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
/-- The body at any point, by the three cases of the step index. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms_0 t) fullShare ((dats m 0 c).after 0 t) from by
    unfold Dat.leavesExact; rw [live_0 t], after_0]
  rw [show (dats m 0 c).leavesExact 1 t = owns (c : Thread nD τ) (ms_1 t) fullShare ((dats m 0 c).after 1 t) from by
    unfold Dat.leavesExact; rw [live_1 t], after_1]
  by_cases h0 : t.val % 16 = 0
  · have h15 : ¬ t.val % 16 = 15 := by omega
    rw [Dat.leavesExact_idle (dats m 0 c) 2 t (idle_2 t h15) (noFlush_2 t h15)]
    rw [Dat.leavesExact_idle (dats m 0 c) 3 t (idle_3 t h15) (noFlush_3 t h15)]
    rw [Dat.leavesExact_idle (dats m 0 c) 4 t (idle_4 t h15) (noFlush_4 t h15)]
    rw [Dat.leavesExact_idle (dats m 0 c) 5 t (idle_5 t h15) (noFlush_5 t h15)]
    rw [Dat.leavesExact_idle (dats m 0 c) 6 t (idle_6 t h15) (noFlush_6 t h15)]
    rw [keptAt_first m c t h0]
    unfold first; dsimp only
    by_cases hz : t.val = 0
    · rw [PhiS_castSucc m c t, PhiS_zero m c _ _ hz, PhiA_eq]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
      iapply ((runA c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t)).2.2.2.2.2 _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, ⟨%es0, HS0⟩, ⟨%es1, HS1⟩, ⟨%es2, HS2⟩, ⟨%es3, HS3⟩, ⟨%es4, HS4⟩⟩
      isplitl [HS0 HS1 HS2 HS3 HS4 Hg]
      · isplitl [HS0 HS1 HS2 HS3 HS4]
        · isplitl [HS0]
          · unfold owns; iexists _; isplitr
            swap; · iexact HS0
            ipureintro; exact (View.read_writes_of_cover _ _ _ _ _ (scoverA_0 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t))).trans (valA_0 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t))
          isplitl [HS1]
          · unfold owns; iexists _; isplitr
            swap; · iexact HS1
            ipureintro; exact (View.read_writes_of_cover _ _ _ _ _ (scoverA_1 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t))).trans (valA_1 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t))
          isplitl [HS2]
          · unfold owns; iexists _; isplitr
            swap; · iexact HS2
            ipureintro; exact (View.read_writes_of_cover _ _ _ _ _ (scoverA_2 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t))).trans (valA_2 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t))
          isplitl [HS3]
          · unfold owns; iexists _; isplitr
            swap; · iexact HS3
            ipureintro; exact (View.read_writes_of_cover _ _ _ _ _ (scoverA_3 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t))).trans (valA_3 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t))
          unfold owns; iexists _; isplitr
          swap; · iexact HS4
          ipureintro; exact (View.read_writes_of_cover _ _ _ _ _ (scoverA_4 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t))).trans (valA_4 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t))
        iexact Hg
      isplitl [Ho]; · iexact Ho
      isplitl [H0]; · iexact H0
      isplitl [H1]; · iexact H1
      isplitl [H2]; · iexists _; iexact H2
      isplitl [H3]; · iexists _; iexact H3
      isplitl [H4]; · iexists _; iexact H4
      isplitl [H5]; · iexists _; iexact H5
      iexists _; iexact H6
    · rw [PhiS_castSucc m c t, PhiS_pos m c _ _ hz]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
      iapply ((runA c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t)).2.2.2.2.2 _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      isplitl [HS3]; · iexists _; iexact HS3
      isplitl [HS4]; · iexists _; iexact HS4
      iintro ⟨H0, H1, H2, H3, H4, H5, H6, ⟨%es0, HS0⟩, ⟨%es1, HS1⟩, ⟨%es2, HS2⟩, ⟨%es3, HS3⟩, ⟨%es4, HS4⟩⟩
      isplitl [HS0 HS1 HS2 HS3 HS4 Hg]
      · isplitl [HS0 HS1 HS2 HS3 HS4]
        · isplitl [HS0]
          · unfold owns; iexists _; isplitr
            swap; · iexact HS0
            ipureintro; exact (View.read_writes_of_cover _ _ _ _ _ (scoverA_0 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t))).trans (valA_0 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t))
          isplitl [HS1]
          · unfold owns; iexists _; isplitr
            swap; · iexact HS1
            ipureintro; exact (View.read_writes_of_cover _ _ _ _ _ (scoverA_1 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t))).trans (valA_1 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t))
          isplitl [HS2]
          · unfold owns; iexists _; isplitr
            swap; · iexact HS2
            ipureintro; exact (View.read_writes_of_cover _ _ _ _ _ (scoverA_2 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t))).trans (valA_2 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t))
          isplitl [HS3]
          · unfold owns; iexists _; isplitr
            swap; · iexact HS3
            ipureintro; exact (View.read_writes_of_cover _ _ _ _ _ (scoverA_3 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t))).trans (valA_3 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t))
          unfold owns; iexists _; isplitr
          swap; · iexact HS4
          ipureintro; exact (View.read_writes_of_cover _ _ _ _ _ (scoverA_4 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t))).trans (valA_4 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t))
        iexact Hg
      isplitl [Ho]; · iexact Ho
      isplitl [H0]; · iexact H0
      isplitl [H1]; · iexact H1
      isplitl [H2]; · iexists _; iexact H2
      isplitl [H3]; · iexists _; iexact H3
      isplitl [H4]; · iexists _; iexact H4
      isplitl [H5]; · iexists _; iexact H5
      iexists _; iexact H6
  · have hz : t.val ≠ 0 := fun h => h0 (by rw [h])
    rw [keptAt_next m c t h0]
    unfold next; dsimp only
    rw [PhiS_castSucc m c t, PhiS_pos m c _ _ hz]
    by_cases h15 : t.val % 16 = 15
    · rw [show (dats m 0 c).leavesExact 2 t = owns (c : Thread nD τ) (ms_2 t) fullShare ((dats m 0 c).after 2 t) from by
        unfold Dat.leavesExact; rw [live_2 t h15], after_2, keptAt_next m c t h0]
      rw [show (dats m 0 c).leavesExact 3 t = owns (c : Thread nD τ) (ms_3 t) fullShare ((dats m 0 c).after 3 t) from by
        unfold Dat.leavesExact; rw [live_3 t h15], after_3, keptAt_next m c t h0]
      rw [show (dats m 0 c).leavesExact 4 t = owns (c : Thread nD τ) (ms_4 t) fullShare ((dats m 0 c).after 4 t) from by
        unfold Dat.leavesExact; rw [live_4 t h15], after_4, keptAt_next m c t h0]
      rw [show (dats m 0 c).leavesExact 5 t = owns (c : Thread nD τ) (ms_5 t) fullShare ((dats m 0 c).after 5 t) from by
        unfold Dat.leavesExact; rw [live_5 t h15], after_5, keptAt_next m c t h0]
      rw [show (dats m 0 c).leavesExact 6 t = owns (c : Thread nD τ) (ms_6 t) fullShare ((dats m 0 c).after 6 t) from by
        unfold Dat.leavesExact; rw [live_6 t h15], after_6, keptAt_next m c t h0]
      unfold next; dsimp only
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
      iapply ((runC c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) ((hcond3 t).mpr h15) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2).2.2.2.2.2.2.2.2.2.2 Set.univ _)
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      isplitl [HS3]; · iexact HS3
      isplitl [HS4]; · iexact HS4
      iintro ⟨H0, H1, ⟨%e2, H2⟩, ⟨%e3, H3⟩, ⟨%e4, H4⟩, ⟨%e5, H5⟩, ⟨%e6, H6⟩, ⟨%es0, HS0⟩, ⟨%es1, HS1⟩, ⟨%es2, HS2⟩, ⟨%es3, HS3⟩, ⟨%es4, HS4⟩⟩
      isplitl [HS0 HS1 HS2 HS3 HS4 Hg]
      · isplitl [HS0 HS1 HS2 HS3 HS4]
        · isplitl [HS0]
          · unfold owns; iexists _; isplitr
            swap; · iexact HS0
            ipureintro; exact (View.read_writes_of_cover _ _ _ _ _ (scoverC_0 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) ((hcond3 t).mpr h15) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)).trans (valC_0 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) ((hcond3 t).mpr h15) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)
          isplitl [HS1]
          · unfold owns; iexists _; isplitr
            swap; · iexact HS1
            ipureintro; exact (View.read_writes_of_cover _ _ _ _ _ (scoverC_1 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) ((hcond3 t).mpr h15) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)).trans (valC_1 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) ((hcond3 t).mpr h15) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)
          isplitl [HS2]
          · unfold owns; iexists _; isplitr
            swap; · iexact HS2
            ipureintro; exact (View.read_writes_of_cover _ _ _ _ _ (scoverC_2 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) ((hcond3 t).mpr h15) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)).trans (valC_2 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) ((hcond3 t).mpr h15) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)
          isplitl [HS3]
          · unfold owns; iexists _; isplitr
            swap; · iexact HS3
            ipureintro; exact (View.read_writes_of_cover _ _ _ _ _ (scoverC_3 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) ((hcond3 t).mpr h15) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)).trans (valC_3 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) ((hcond3 t).mpr h15) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)
          unfold owns; iexists _; isplitr
          swap; · iexact HS4
          ipureintro; exact (View.read_writes_of_cover _ _ _ _ _ (scoverC_4 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) ((hcond3 t).mpr h15) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)).trans (valC_4 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) ((hcond3 t).mpr h15) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)
        iexact Hg
      isplitl [Ho]; · iexact Ho
      isplitl [H0]; · iexact H0
      isplitl [H1]; · iexact H1
      isplitl [H2]
      · unfold owns; iexists _; isplitr
        swap; · iexact H2
        ipureintro; exact (View.read_writes_of_cover _ _ _ _ _ (coverC_2 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) ((hcond3 t).mpr h15) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)).trans (outC_2 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) ((hcond3 t).mpr h15) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)
      isplitl [H3]
      · unfold owns; iexists _; isplitr
        swap; · iexact H3
        ipureintro; exact (View.read_writes_of_cover _ _ _ _ _ (coverC_3 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) ((hcond3 t).mpr h15) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)).trans (outC_3 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) ((hcond3 t).mpr h15) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)
      isplitl [H4]
      · unfold owns; iexists _; isplitr
        swap; · iexact H4
        ipureintro; exact (View.read_writes_of_cover _ _ _ _ _ (coverC_4 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) ((hcond3 t).mpr h15) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)).trans (outC_4 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) ((hcond3 t).mpr h15) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)
      isplitl [H5]
      · unfold owns; iexists _; isplitr
        swap; · iexact H5
        ipureintro; exact (View.read_writes_of_cover _ _ _ _ _ (coverC_5 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) ((hcond3 t).mpr h15) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)).trans (outC_5 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) ((hcond3 t).mpr h15) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)
      unfold owns; iexists _; isplitr
      swap; · iexact H6
      ipureintro; exact (View.read_writes_of_cover _ _ _ _ _ (coverC_6 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) ((hcond3 t).mpr h15) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)).trans (outC_6 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) ((hcond3 t).mpr h15) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)
    · rw [Dat.leavesExact_idle (dats m 0 c) 2 t (idle_2 t h15) (noFlush_2 t h15)]
      rw [Dat.leavesExact_idle (dats m 0 c) 3 t (idle_3 t h15) (noFlush_3 t h15)]
      rw [Dat.leavesExact_idle (dats m 0 c) 4 t (idle_4 t h15) (noFlush_4 t h15)]
      rw [Dat.leavesExact_idle (dats m 0 c) 5 t (idle_5 t h15) (noFlush_5 t h15)]
      rw [Dat.leavesExact_idle (dats m 0 c) 6 t (idle_6 t h15) (noFlush_6 t h15)]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
      iapply ((runB c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) (fun h => h15 ((hcond3 t).mp h)) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2).2.2.2.2.2 _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, ⟨%es0, HS0⟩, ⟨%es1, HS1⟩, ⟨%es2, HS2⟩, ⟨%es3, HS3⟩, ⟨%es4, HS4⟩⟩
      isplitl [HS0 HS1 HS2 HS3 HS4 Hg]
      · isplitl [HS0 HS1 HS2 HS3 HS4]
        · isplitl [HS0]
          · unfold owns; iexists _; isplitr
            swap; · iexact HS0
            ipureintro; exact (View.read_writes_of_cover _ _ _ _ _ (scoverB_0 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) (fun h => h15 ((hcond3 t).mp h)) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)).trans (valB_0 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) (fun h => h15 ((hcond3 t).mp h)) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)
          isplitl [HS1]
          · unfold owns; iexists _; isplitr
            swap; · iexact HS1
            ipureintro; exact (View.read_writes_of_cover _ _ _ _ _ (scoverB_1 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) (fun h => h15 ((hcond3 t).mp h)) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)).trans (valB_1 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) (fun h => h15 ((hcond3 t).mp h)) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)
          isplitl [HS2]
          · unfold owns; iexists _; isplitr
            swap; · iexact HS2
            ipureintro; exact (View.read_writes_of_cover _ _ _ _ _ (scoverB_2 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) (fun h => h15 ((hcond3 t).mp h)) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)).trans (valB_2 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) (fun h => h15 ((hcond3 t).mp h)) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)
          isplitl [HS3]
          · unfold owns; iexists _; isplitr
            swap; · iexact HS3
            ipureintro; exact (View.read_writes_of_cover _ _ _ _ _ (scoverB_3 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) (fun h => h15 ((hcond3 t).mp h)) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)).trans (valB_3 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) (fun h => h15 ((hcond3 t).mp h)) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)
          unfold owns; iexists _; isplitr
          swap; · iexact HS4
          ipureintro; exact (View.read_writes_of_cover _ _ _ _ _ (scoverB_4 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) (fun h => h15 ((hcond3 t).mp h)) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)).trans (valB_4 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) (fun h => h15 ((hcond3 t).mp h)) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)
        iexact Hg
      isplitl [Ho]; · iexact Ho
      isplitl [H0]; · iexact H0
      isplitl [H1]; · iexact H1
      isplitl [H2]; · iexists _; iexact H2
      isplitl [H3]; · iexists _; iexact H3
      isplitl [H4]; · iexists _; iexact H4
      isplitl [H5]; · iexists _; iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch's back: the kept rows' named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA_eq]
  iintro ⟨⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

set_option backward.isDefEq.respectTransparency.types false in
/-- Every weakly fair execution of @main terminates, and every final state has each array of the pipeline at what the
    proof data say and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KCases.lean ====
/-
  What the three cases of the kernel body share. The body branches on the step index j (the second grid
  coordinate, 0 ≤ j < 16): at j = 0 it writes the block's column results into the five kept rows, at j > 0 it
  combines them into the kept rows, and at j = 15 it also copies the kept rows to the five output blocks. Over the
  32 grid points (point t = 16·core + j) the three conditions are decided as facts about t mod 16; the output
  windows are idle and not written back except at the last step of a core.
-/
import proofs.«166070_j33698313404542_2_alg».proof.Proof.Gen.KernelIdeal.Frame
import proofs.«166070_j33698313404542_2_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first condition: the step index is zero. -/
abbrev cond1 (i : grid0.Coords) : Prop := (Scalar.cmpi .ne (Scalar.extui (Scalar.cmpi .eq (BitVec.ofNat 32 (i 1).val) 0#32)) 0#32) = 1#1
/-- The second: the step index is positive. -/
abbrev cond2 (i : grid0.Coords) : Prop := (Scalar.cmpi .ne (Scalar.extui (Scalar.cmpi .sgt (BitVec.ofNat 32 (i 1).val) 0#32)) 0#32) = 1#1
/-- The third: the step index is the last one, fifteen. -/
abbrev cond3 (i : grid0.Coords) : Prop := k0_cond3 i = 1#1

theorem hcond1 : ∀ t : Fin cfg0.N, cond1 (grid0.coords t) ↔ t.val % 16 = 0 :=
  (by decide +kernel : ∀ t : Fin grid0.N, cond1 (grid0.coords t) ↔ t.val % 16 = 0)
theorem hcond2 : ∀ t : Fin cfg0.N, cond2 (grid0.coords t) ↔ ¬ t.val % 16 = 0 :=
  (by decide +kernel : ∀ t : Fin grid0.N, cond2 (grid0.coords t) ↔ ¬ t.val % 16 = 0)
theorem hcond3 : ∀ t : Fin cfg0.N, cond3 (grid0.coords t) ↔ t.val % 16 = 15 :=
  (by decide +kernel : ∀ t : Fin grid0.N, cond3 (grid0.coords t) ↔ t.val % 16 = 15)

/-- The input windows are never idle. -/
theorem live_0 : ∀ t : Fin cfg0.N, cfg0.idle 0 (grid0.coords t) = false := by decide +kernel
theorem live_1 : ∀ t : Fin cfg0.N, cfg0.idle 1 (grid0.coords t) = false := by decide +kernel
/-- Output window 2 is idle, and not written back, except at the last step of a core; there it is live. -/
theorem idle_2 : ∀ t : Fin cfg0.N, ¬ t.val % 16 = 15 → cfg0.idle 2 (grid0.coords t) = true := by decide +kernel
theorem noFlush_2 : ∀ t : Fin cfg0.N, ¬ t.val % 16 = 15 → (cfg0.win 2).flush t = false := by decide +kernel
theorem live_2 : ∀ t : Fin cfg0.N, t.val % 16 = 15 → cfg0.idle 2 (grid0.coords t) = false := by decide +kernel
/-- Output window 3 is idle, and not written back, except at the last step of a core; there it is live. -/
theorem idle_3 : ∀ t : Fin cfg0.N, ¬ t.val % 16 = 15 → cfg0.idle 3 (grid0.coords t) = true := by decide +kernel
theorem noFlush_3 : ∀ t : Fin cfg0.N, ¬ t.val % 16 = 15 → (cfg0.win 3).flush t = false := by decide +kernel
theorem live_3 : ∀ t : Fin cfg0.N, t.val % 16 = 15 → cfg0.idle 3 (grid0.coords t) = false := by decide +kernel
/-- Output window 4 is idle, and not written back, except at the last step of a core; there it is live. -/
theorem idle_4 : ∀ t : Fin cfg0.N, ¬ t.val % 16 = 15 → cfg0.idle 4 (grid0.coords t) = true := by decide +kernel
theorem noFlush_4 : ∀ t : Fin cfg0.N, ¬ t.val % 16 = 15 → (cfg0.win 4).flush t = false := by decide +kernel
theorem live_4 : ∀ t : Fin cfg0.N, t.val % 16 = 15 → cfg0.idle 4 (grid0.coords t) = false := by decide +kernel
/-- Output window 5 is idle, and not written back, except at the last step of a core; there it is live. -/
theorem idle_5 : ∀ t : Fin cfg0.N, ¬ t.val % 16 = 15 → cfg0.idle 5 (grid0.coords t) = true := by decide +kernel
theorem noFlush_5 : ∀ t : Fin cfg0.N, ¬ t.val % 16 = 15 → (cfg0.win 5).flush t = false := by decide +kernel
theorem live_5 : ∀ t : Fin cfg0.N, t.val % 16 = 15 → cfg0.idle 5 (grid0.coords t) = false := by decide +kernel
/-- Output window 6 is idle, and not written back, except at the last step of a core; there it is live. -/
theorem idle_6 : ∀ t : Fin cfg0.N, ¬ t.val % 16 = 15 → cfg0.idle 6 (grid0.coords t) = true := by decide +kernel
theorem noFlush_6 : ∀ t : Fin cfg0.N, ¬ t.val % 16 = 15 → (cfg0.win 6).flush t = false := by decide +kernel
theorem live_6 : ∀ t : Fin cfg0.N, t.val % 16 = 15 → cfg0.idle 6 (grid0.coords t) = false := by decide +kernel

/-- One staging buffer per output window, through which its contents are stated. -/
abbrev VO_2 : View sig .tc .vmem S1x1x128 .f32 := (Memref.whole cc0_stg2_0 : Memref sig .tc .vmem S1x1x128 .f32).view
abbrev VO_3 : View sig .tc .vmem S1x1x128 .f32 := (Memref.whole cc0_stg3_0 : Memref sig .tc .vmem S1x1x128 .f32).view
abbrev VO_4 : View sig .tc .vmem S1x1x128 .f32 := (Memref.whole cc0_stg4_0 : Memref sig .tc .vmem S1x1x128 .f32).view
abbrev VO_5 : View sig .tc .vmem S1x1x128 .f32 := (Memref.whole cc0_stg5_0 : Memref sig .tc .vmem S1x1x128 .f32).view
abbrev VO_6 : View sig .tc .vmem S1x1x128 .f32 := (Memref.whole cc0_stg6_0 : Memref sig .tc .vmem S1x1x128 .f32).view
/-- The current staging memrefs at a point, and their wholeness. -/
abbrev ms_0 (t : Fin cfg0.N) : Memref sig .tc .vmem S8192x128 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S8192x128 .i32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x1x128 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x1x128 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1x1x128 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1x1x128 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S1x1x128 .f32 := win0_6.stage (cfg0.slots t 6)
abbrev hs_6 (t : Fin cfg0.N) : (ms_6 t).IsWhole := hstage0_6 ((cfg0.slots t 6).cast nbuf0_6)
/-- The five scratch rows the kernel keeps between points, as memrefs and as views. -/
abbrev scM_0 : Memref sig .tc .vmem S1x1x128 .f32 := Memref.whole cc0_scratch0
abbrev VS_0 : View sig .tc .vmem S1x1x128 .f32 := scM_0.view
abbrev scM_1 : Memref sig .tc .vmem S1x1x128 .f32 := Memref.whole cc0_scratch1
abbrev VS_1 : View sig .tc .vmem S1x1x128 .f32 := scM_1.view
abbrev scM_2 : Memref sig .tc .vmem S1x1x128 .f32 := Memref.whole cc0_scratch2
abbrev VS_2 : View sig .tc .vmem S1x1x128 .f32 := scM_2.view
abbrev scM_3 : Memref sig .tc .vmem S1x1x128 .f32 := Memref.whole cc0_scratch3
abbrev VS_3 : View sig .tc .vmem S1x1x128 .f32 := scM_3.view
abbrev scM_4 : Memref sig .tc .vmem S1x1x128 .f32 := Memref.whole cc0_scratch4
abbrev VS_4 : View sig .tc .vmem S1x1x128 .f32 := scM_4.view

/-- The region's invariant with the scratch rows as memrefs owned at some contents. -/
theorem PhiA_eq (c : Dev nD) :
    (Pipeline.ΦA spec0 c : sProp 𝕄)
      = iprop(iprop((∃ d, owns (c : Thread nD τ) scM_0 fullShare d) ∗ (∃ d, owns (c : Thread nD τ) scM_1 fullShare d) ∗ (∃ d, owns (c : Thread nD τ) scM_2 fullShare d) ∗ (∃ d, owns (c : Thread nD τ) scM_3 fullShare d) ∗ (∃ d, owns (c : Thread nD τ) scM_4 fullShare d)) ∗ (∃ r, prngReg c r)) := by
  unfold Pipeline.ΦA; rw [scopedRest0_eq]; simp only [scM_0, scM_1, scM_2, scM_3, scM_4, owns_whole]; try rfl

end Cert.KernelIdeal.Hand

end
-- ==== Proof.KRunA.lean ====
/-
  The kernel body run in its first case (step index 0: only the first branch is taken): on whole staging and scratch memrefs the body terminates without a fault,
  hands the two input blocks back as it found them, leaves the five output buffers untouched, and leaves in each kept row the
  pieces its stores wrote (found by running the body; read back in a later module).
-/
import proofs.«166070_j33698313404542_2_alg».proof.Proof.KCases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runA (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : cond1 i) (hc2 : ¬cond2 i) (hc3 : ¬cond3 i)
    (x0 : Vec F S8192x128 .f32) (y0 : Vec F S8192x128 .i32) :
    Σ' (LS0 : List (View.Piece (Elt F) S1x1x128 .f32)) (LS1 : List (View.Piece (Elt F) S1x1x128 .f32)) (LS2 : List (View.Piece (Elt F) S1x1x128 .f32)) (LS3 : List (View.Piece (Elt F) S1x1x128 .f32)), { LS4 : List (View.Piece (Elt F) S1x1x128 .f32) //
      ∀ (xi4 : Vec F S1x1x128 .f32) (xi5 : Vec F S1x1x128 .f32) (xi6 : Vec F S1x1x128 .f32) (xi7 : Vec F S1x1x128 .f32) (xi8 : Vec F S1x1x128 .f32) (E : Set ℕ) (K : PUnit → sProp 𝕄),
        iprop(owns (c : Thread nD τ) arg2 fullShare x0 ∗ owns (c : Thread nD τ) arg3 fullShare y0 ∗ owns (c : Thread nD τ) arg4 fullShare xi4 ∗ owns (c : Thread nD τ) arg5 fullShare xi5 ∗ owns (c : Thread nD τ) arg6 fullShare xi6 ∗ owns (c : Thread nD τ) arg7 fullShare xi7 ∗ owns (c : Thread nD τ) arg8 fullShare xi8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare y0 ∗ owns (c : Thread nD τ) arg4 fullShare xi4 ∗ owns (c : Thread nD τ) arg5 fullShare xi5 ∗ owns (c : Thread nD τ) arg6 fullShare xi6 ∗ owns (c : Thread nD τ) arg7 fullShare xi7 ∗ owns (c : Thread nD τ) arg8 fullShare xi8 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun xi4 xi5 xi6 xi7 xi8 E K => ?run⟩
  case run =>
    simp only [cc0__fused_kernel_eq_skeleton]; unfold cc0__fused_kernel_skel
    simp only [k0_part1_eq_skeleton]; unfold k0_part1_skel
    unfold owns
    iintro ⟨⟨%f0, %hf0, H0⟩, ⟨%f1, %hf1, H1⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1
    obtain rfl := harg4.eq_unread hf4; obtain rfl := harg5.eq_unread hf5; obtain rfl := harg6.eq_unread hf6; obtain rfl := harg7.eq_unread hf7; obtain rfl := harg8.eq_unread hf8
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [HS0]; · iexists _; iexact HS0
    isplitl [HS1]; · iexists _; iexact HS1
    isplitl [HS2]; · iexists _; iexact HS2
    isplitl [HS3]; · iexists _; iexact HS3
    iexists _; iexact HS4

end Cert.KernelIdeal.Hand

end
-- ==== Proof.KPiecesA.lean ====
/-
  What the body leaves, read back, at the first step of a core's sweep (the block's own column results are stored): the stored pieces tile each row,
  and the row they leave is the payload the store carried.
-/
import proofs.«166070_j33698313404542_2_alg».proof.Proof.KRunA
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-block access, rank 3 and rank 2. -/
theorem hz3 : (![0, 0, 0] : Fin 3 → Nat) = fun _ => 0 := funext fun a => by fin_cases a <;> rfl
theorem hz2 : (![0, 0] : Fin 2 → Nat) = fun _ => 0 := funext fun a => by fin_cases a <;> rfl

/-- The pieces stored into kept row 0 tile it. -/
theorem scoverA_0 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : cond1 i) (hc2 : ¬cond2 i) (hc3 : ¬cond3 i)
    (x0 : Vec F S8192x128 .f32) (y0 : Vec F S8192x128 .i32) (y : S1x1x128.Idx) :
    ∃ pc ∈ (runA c i arg2 harg2 arg3 harg3 arg4 harg4 arg5 harg5 arg6 harg6 arg7 harg7 arg8 harg8 arg9 harg9 arg10 harg10 arg11 harg11 arg12 harg12 arg13 harg13 hc1 hc2 hc3 x0 y0).1, y ∈ pc.1.set :=
  View.cover_of_tiledL (runA c i arg2 harg2 arg3 harg3 arg4 harg4 arg5 harg5 arg6 harg6 arg7 harg7 arg8 harg8 arg9 harg9 arg10 harg10 arg11 harg11 arg12 harg12 arg13 harg13 hc1 hc2 hc3 x0 y0).1 S1x1x128.size (by sl_kernel_rfl) y

/-- What they leave in kept row 0. -/
theorem valA_0 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : cond1 i) (hc2 : ¬cond2 i) (hc3 : ¬cond3 i)
    (x0 : Vec F S8192x128 .f32) (y0 : Vec F S8192x128 .i32) :
    VS_0.read (Elt F) (VS_0.writes (Elt F) VS_0.junk (runA c i arg2 harg2 arg3 harg3 arg4 harg4 arg5 harg5 arg6 harg6 arg7 harg7 arg8 harg8 arg9 harg9 arg10 harg10 arg11 harg11 arg12 harg12 arg13 harg13 hc1 hc2 hc3 x0 y0).1) = k0_pay8 x0 := by
  rw [View.read_writes_eq_canon _ _ _ (scoverA_0 c i arg2 harg2 arg3 harg3 arg4 harg4 arg5 harg5 arg6 harg6 arg7 harg7 arg8 harg8 arg9 harg9 arg10 harg10 arg11 harg11 arg12 harg12 arg13 harg13 hc1 hc2 hc3 x0 y0)]
  unfold runA
  dsimp only
  sl_unfold_words
  rw [View.canon_unit_zero (S := S1x1x128) hz3]
  simp only [View.readAt_eq_ld, harg2.read_unread, harg3.read_unread, View.ld_unit_zero (S := S8192x128) hz2]

/-- The pieces stored into kept row 1 tile it. -/
theorem scoverA_1 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : cond1 i) (hc2 : ¬cond2 i) (hc3 : ¬cond3 i)
    (x0 : Vec F S8192x128 .f32) (y0 : Vec F S8192x128 .i32) (y : S1x1x128.Idx) :
    ∃ pc ∈ (runA c i arg2 harg2 arg3 harg3 arg4 harg4 arg5 harg5 arg6 harg6 arg7 harg7 arg8 harg8 arg9 harg9 arg10 harg10 arg11 harg11 arg12 harg12 arg13 harg13 hc1 hc2 hc3 x0 y0).2.1, y ∈ pc.1.set :=
  View.cover_of_tiledL (runA c i arg2 harg2 arg3 harg3 arg4 harg4 arg5 harg5 arg6 harg6 arg7 harg7 arg8 harg8 arg9 harg9 arg10 harg10 arg11 harg11 arg12 harg12 arg13 harg13 hc1 hc2 hc3 x0 y0).2.1 S1x1x128.size (by sl_kernel_rfl) y

/-- What they leave in kept row 1. -/
theorem valA_1 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : cond1 i) (hc2 : ¬cond2 i) (hc3 : ¬cond3 i)
    (x0 : Vec F S8192x128 .f32) (y0 : Vec F S8192x128 .i32) :
    VS_1.read (Elt F) (VS_1.writes (Elt F) VS_1.junk (runA c i arg2 harg2 arg3 harg3 arg4 harg4 arg5 harg5 arg6 harg6 arg7 harg7 arg8 harg8 arg9 harg9 arg10 harg10 arg11 harg11 arg12 harg12 arg13 harg13 hc1 hc2 hc3 x0 y0).2.1) = k0_pay9 x0 := by
  rw [View.read_writes_eq_canon _ _ _ (scoverA_1 c i arg2 harg2 arg3 harg3 arg4 harg4 arg5 harg5 arg6 harg6 arg7 harg7 arg8 harg8 arg9 harg9 arg10 harg10 arg11 harg11 arg12 harg12 arg13 harg13 hc1 hc2 hc3 x0 y0)]
  unfold runA
  dsimp only
  sl_unfold_words
  rw [View.canon_unit_zero (S := S1x1x128) hz3]
  simp only [View.readAt_eq_ld, harg2.read_unread, harg3.read_unread, View.ld_unit_zero (S := S8192x128) hz2]

/-- The pieces stored into kept row 2 tile it. -/
theorem scoverA_2 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : cond1 i) (hc2 : ¬cond2 i) (hc3 : ¬cond3 i)
    (x0 : Vec F S8192x128 .f32) (y0 : Vec F S8192x128 .i32) (y : S1x1x128.Idx) :
    ∃ pc ∈ (runA c i arg2 harg2 arg3 harg3 arg4 harg4 arg5 harg5 arg6 harg6 arg7 harg7 arg8 harg8 arg9 harg9 arg10 harg10 arg11 harg11 arg12 harg12 arg13 harg13 hc1 hc2 hc3 x0 y0).2.2.1, y ∈ pc.1.set :=
  View.cover_of_tiledL (runA c i arg2 harg2 arg3 harg3 arg4 harg4 arg5 harg5 arg6 harg6 arg7 harg7 arg8 harg8 arg9 harg9 arg10 harg10 arg11 harg11 arg12 harg12 arg13 harg13 hc1 hc2 hc3 x0 y0).2.2.1 S1x1x128.size (by sl_kernel_rfl) y

/-- What they leave in kept row 2. -/
theorem valA_2 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : cond1 i) (hc2 : ¬cond2 i) (hc3 : ¬cond3 i)
    (x0 : Vec F S8192x128 .f32) (y0 : Vec F S8192x128 .i32) :
    VS_2.read (Elt F) (VS_2.writes (Elt F) VS_2.junk (runA c i arg2 harg2 arg3 harg3 arg4 harg4 arg5 harg5 arg6 harg6 arg7 harg7 arg8 harg8 arg9 harg9 arg10 harg10 arg11 harg11 arg12 harg12 arg13 harg13 hc1 hc2 hc3 x0 y0).2.2.1) = k0_pay10 x0 := by
  rw [View.read_writes_eq_canon _ _ _ (scoverA_2 c i arg2 harg2 arg3 harg3 arg4 harg4 arg5 harg5 arg6 harg6 arg7 harg7 arg8 harg8 arg9 harg9 arg10 harg10 arg11 harg11 arg12 harg12 arg13 harg13 hc1 hc2 hc3 x0 y0)]
  unfold runA
  dsimp only
  sl_unfold_words
  rw [View.canon_unit_zero (S := S1x1x128) hz3]
  simp only [View.readAt_eq_ld, harg2.read_unread, harg3.read_unread, View.ld_unit_zero (S := S8192x128) hz2]

/-- The pieces stored into kept row 3 tile it. -/
theorem scoverA_3 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : cond1 i) (hc2 : ¬cond2 i) (hc3 : ¬cond3 i)
    (x0 : Vec F S8192x128 .f32) (y0 : Vec F S8192x128 .i32) (y : S1x1x128.Idx) :
    ∃ pc ∈ (runA c i arg2 harg2 arg3 harg3 arg4 harg4 arg5 harg5 arg6 harg6 arg7 harg7 arg8 harg8 arg9 harg9 arg10 harg10 arg11 harg11 arg12 harg12 arg13 harg13 hc1 hc2 hc3 x0 y0).2.2.2.1, y ∈ pc.1.set :=
  View.cover_of_tiledL (runA c i arg2 harg2 arg3 harg3 arg4 harg4 arg5 harg5 arg6 harg6 arg7 harg7 arg8 harg8 arg9 harg9 arg10 harg10 arg11 harg11 arg12 harg12 arg13 harg13 hc1 hc2 hc3 x0 y0).2.2.2.1 S1x1x128.size (by sl_kernel_rfl) y

/-- What they leave in kept row 3. -/
theorem valA_3 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : cond1 i) (hc2 : ¬cond2 i) (hc3 : ¬cond3 i)
    (x0 : Vec F S8192x128 .f32) (y0 : Vec F S8192x128 .i32) :
    VS_3.read (Elt F) (VS_3.writes (Elt F) VS_3.junk (runA c i arg2 harg2 arg3 harg3 arg4 harg4 arg5 harg5 arg6 harg6 arg7 harg7 arg8 harg8 arg9 harg9 arg10 harg10 arg11 harg11 arg12 harg12 arg13 harg13 hc1 hc2 hc3 x0 y0).2.2.2.1) = k0_pay11 x0 y0 := by
  rw [View.read_writes_eq_canon _ _ _ (scoverA_3 c i arg2 harg2 arg3 harg3 arg4 harg4 arg5 harg5 arg6 harg6 arg7 harg7 arg8 harg8 arg9 harg9 arg10 harg10 arg11 harg11 arg12 harg12 arg13 harg13 hc1 hc2 hc3 x0 y0)]
  unfold runA
  dsimp only
  sl_unfold_words
  rw [View.canon_unit_zero (S := S1x1x128) hz3]
  simp only [View.readAt_eq_ld, harg2.read_unread, harg3.read_unread, View.ld_unit_zero (S := S8192x128) hz2]

/-- The pieces stored into kept row 4 tile it. -/
theorem scoverA_4 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : cond1 i) (hc2 : ¬cond2 i) (hc3 : ¬cond3 i)
    (x0 : Vec F S8192x128 .f32) (y0 : Vec F S8192x128 .i32) (y : S1x1x128.Idx) :
    ∃ pc ∈ (runA c i arg2 harg2 arg3 harg3 arg4 harg4 arg5 harg5 arg6 harg6 arg7 harg7 arg8 harg8 arg9 harg9 arg10 harg10 arg11 harg11 arg12 harg12 arg13 harg13 hc1 hc2 hc3 x0 y0).2.2.2.2.1, y ∈ pc.1.set :=
  View.cover_of_tiledL (runA c i arg2 harg2 arg3 harg3 arg4 harg4 arg5 harg5 arg6 harg6 arg7 harg7 arg8 harg8 arg9 harg9 arg10 harg10 arg11 harg11 arg12 harg12 arg13 harg13 hc1 hc2 hc3 x0 y0).2.2.2.2.1 S1x1x128.size (by sl_kernel_rfl) y

/-- What they leave in kept row 4. -/
theorem valA_4 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : cond1 i) (hc2 : ¬cond2 i) (hc3 : ¬cond3 i)
    (x0 : Vec F S8192x128 .f32) (y0 : Vec F S8192x128 .i32) :
    VS_4.read (Elt F) (VS_4.writes (Elt F) VS_4.junk (runA c i arg2 harg2 arg3 harg3 arg4 harg4 arg5 harg5 arg6 harg6 arg7 harg7 arg8 harg8 arg9 harg9 arg10 harg10 arg11 harg11 arg12 harg12 arg13 harg13 hc1 hc2 hc3 x0 y0).2.2.2.2.1) = k0_pay12 y0 := by
  rw [View.read_writes_eq_canon _ _ _ (scoverA_4 c i arg2 harg2 arg3 harg3 arg4 harg4 arg5 harg5 arg6 harg6 arg7 harg7 arg8 harg8 arg9 harg9 arg10 harg10 arg11 harg11 arg12 harg12 arg13 harg13 hc1 hc2 hc3 x0 y0)]
  unfold runA
  dsimp only
  sl_unfold_words
  rw [View.canon_unit_zero (S := S1x1x128) hz3]
  simp only [View.readAt_eq_ld, harg2.read_unread, harg3.read_unread, View.ld_unit_zero (S := S8192x128) hz2]

end Cert.KernelIdeal.Hand

end
-- ==== Proof.KRunB.lean ====
/-
  The kernel body run in its second case (step index between 1 and 14: only the second branch is taken): on whole staging and scratch memrefs the body terminates without a fault,
  hands the two input blocks back as it found them, leaves the five output buffers untouched, and leaves in each kept row the
  pieces its stores wrote (found by running the body; read back in a later module).
-/
import proofs.«166070_j33698313404542_2_alg».proof.Proof.KRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runB (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : ¬cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) :
    Σ' (LS0 : List (View.Piece (Elt F) S1x1x128 .f32)) (LS1 : List (View.Piece (Elt F) S1x1x128 .f32)) (LS2 : List (View.Piece (Elt F) S1x1x128 .f32)) (LS3 : List (View.Piece (Elt F) S1x1x128 .f32)), { LS4 : List (View.Piece (Elt F) S1x1x128 .f32) //
      ∀ (xi4 : Vec F S1x1x128 .f32) (xi5 : Vec F S1x1x128 .f32) (xi6 : Vec F S1x1x128 .f32) (xi7 : Vec F S1x1x128 .f32) (xi8 : Vec F S1x1x128 .f32) (E : Set ℕ) (K : PUnit → sProp 𝕄),
        iprop(owns (c : Thread nD τ) arg2 fullShare x0 ∗ owns (c : Thread nD τ) arg3 fullShare y0 ∗ owns (c : Thread nD τ) arg4 fullShare xi4 ∗ owns (c : Thread nD τ) arg5 fullShare xi5 ∗ owns (c : Thread nD τ) arg6 fullShare xi6 ∗ owns (c : Thread nD τ) arg7 fullShare xi7 ∗ owns (c : Thread nD τ) arg8 fullShare xi8 ∗ owns (c : Thread nD τ) arg9 fullShare xs0 ∗ owns (c : Thread nD τ) arg10 fullShare xs1 ∗ owns (c : Thread nD τ) arg11 fullShare xs2 ∗ owns (c : Thread nD τ) arg12 fullShare xs3 ∗ owns (c : Thread nD τ) arg13 fullShare xs4
            ∗ (iprop(owns (c : Thread nD τ) arg2 fullShare x0 ∗ owns (c : Thread nD τ) arg3 fullShare y0 ∗ owns (c : Thread nD τ) arg4 fullShare xi4 ∗ owns (c : Thread nD τ) arg5 fullShare xi5 ∗ owns (c : Thread nD τ) arg6 fullShare xi6 ∗ owns (c : Thread nD τ) arg7 fullShare xi7 ∗ owns (c : Thread nD τ) arg8 fullShare xi8 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun xi4 xi5 xi6 xi7 xi8 E K => ?run⟩
  case run =>
    simp only [cc0__fused_kernel_eq_skeleton]; unfold cc0__fused_kernel_skel
    simp only [k0_part1_eq_skeleton]; unfold k0_part1_skel
    unfold owns
    iintro ⟨⟨%f0, %hf0, H0⟩, ⟨%f1, %hf1, H1⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1
    obtain rfl := harg4.eq_unread hf4; obtain rfl := harg5.eq_unread hf5; obtain rfl := harg6.eq_unread hf6; obtain rfl := harg7.eq_unread hf7; obtain rfl := harg8.eq_unread hf8
    obtain rfl := harg9.eq_unread hfs0; obtain rfl := harg10.eq_unread hfs1; obtain rfl := harg11.eq_unread hfs2; obtain rfl := harg12.eq_unread hfs3; obtain rfl := harg13.eq_unread hfs4
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [HS0]; · iexists _; iexact HS0
    isplitl [HS1]; · iexists _; iexact HS1
    isplitl [HS2]; · iexists _; iexact HS2
    isplitl [HS3]; · iexists _; iexact HS3
    iexists _; iexact HS4

end Cert.KernelIdeal.Hand

end
-- ==== Proof.KPiecesB.lean ====
/-
  What the body leaves, read back, at a middle step (each kept row is combined with the block's column result and stored back): the stored pieces tile each row,
  and the row they leave is the payload the store carried.
-/
import proofs.«166070_j33698313404542_2_alg».proof.Proof.KRunB
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets, as the constant function. -/
theorem hz3B : (![0, 0, 0] : Fin 3 → Nat) = fun _ => 0 := funext fun a => by fin_cases a <;> rfl
theorem hz2B : (![0, 0] : Fin 2 → Nat) = fun _ => 0 := funext fun a => by fin_cases a <;> rfl

/-- The pieces stored into kept row 0 tile it. -/
theorem scoverB_0 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : ¬cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) (y : S1x1x128.Idx) :
    ∃ pc ∈ (runB c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).1, y ∈ pc.1.set :=
  View.cover_of_tiledL (runB c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).1 S1x1x128.size (by sl_kernel_rfl) y

/-- What they leave in kept row 0. -/
theorem valB_0 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : ¬cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) :
    VS_0.read (Elt F) (VS_0.writes (Elt F) VS_0.junk (runB c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).1) = k0_pay14 (k0_pay3 x0) xs0 := by
  rw [View.read_writes_eq_canon _ _ _ (scoverB_0 c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4)]
  unfold runB
  dsimp only
  rw [View.canon_unit_zero (S := S1x1x128) hz3B]
  simp only [View.readAt_eq_ld, harg2.read_unread, harg3.read_unread, harg9.read_unread, harg10.read_unread, harg11.read_unread, harg12.read_unread, harg13.read_unread, View.ld_unit_zero (S := S8192x128) hz2B, View.ld_unit_zero (S := S1x1x128) hz3B]

/-- The pieces stored into kept row 1 tile it. -/
theorem scoverB_1 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : ¬cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) (y : S1x1x128.Idx) :
    ∃ pc ∈ (runB c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.1, y ∈ pc.1.set :=
  View.cover_of_tiledL (runB c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.1 S1x1x128.size (by sl_kernel_rfl) y

/-- What they leave in kept row 1. -/
theorem valB_1 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : ¬cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) :
    VS_1.read (Elt F) (VS_1.writes (Elt F) VS_1.junk (runB c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.1) = k0_pay15 (k0_pay4 x0) xs1 := by
  rw [View.read_writes_eq_canon _ _ _ (scoverB_1 c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4)]
  unfold runB
  dsimp only
  rw [View.canon_unit_zero (S := S1x1x128) hz3B]
  simp only [View.readAt_eq_ld, harg2.read_unread, harg3.read_unread, harg9.read_unread, harg10.read_unread, harg11.read_unread, harg12.read_unread, harg13.read_unread, View.ld_unit_zero (S := S8192x128) hz2B, View.ld_unit_zero (S := S1x1x128) hz3B]

/-- The pieces stored into kept row 2 tile it. -/
theorem scoverB_2 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : ¬cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) (y : S1x1x128.Idx) :
    ∃ pc ∈ (runB c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.1, y ∈ pc.1.set :=
  View.cover_of_tiledL (runB c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.1 S1x1x128.size (by sl_kernel_rfl) y

/-- What they leave in kept row 2. -/
theorem valB_2 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : ¬cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) :
    VS_2.read (Elt F) (VS_2.writes (Elt F) VS_2.junk (runB c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.1) = k0_pay16 (k0_pay5 x0) xs2 := by
  rw [View.read_writes_eq_canon _ _ _ (scoverB_2 c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4)]
  unfold runB
  dsimp only
  rw [View.canon_unit_zero (S := S1x1x128) hz3B]
  simp only [View.readAt_eq_ld, harg2.read_unread, harg3.read_unread, harg9.read_unread, harg10.read_unread, harg11.read_unread, harg12.read_unread, harg13.read_unread, View.ld_unit_zero (S := S8192x128) hz2B, View.ld_unit_zero (S := S1x1x128) hz3B]

/-- The pieces stored into kept row 3 tile it. -/
theorem scoverB_3 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : ¬cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) (y : S1x1x128.Idx) :
    ∃ pc ∈ (runB c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.1, y ∈ pc.1.set :=
  View.cover_of_tiledL (runB c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.1 S1x1x128.size (by sl_kernel_rfl) y

/-- What they leave in kept row 3. -/
theorem valB_3 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : ¬cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) :
    VS_3.read (Elt F) (VS_3.writes (Elt F) VS_3.junk (runB c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.1) = k0_pay17 (k0_pay6 x0 y0) xs3 := by
  rw [View.read_writes_eq_canon _ _ _ (scoverB_3 c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4)]
  unfold runB
  dsimp only
  rw [View.canon_unit_zero (S := S1x1x128) hz3B]
  simp only [View.readAt_eq_ld, harg2.read_unread, harg3.read_unread, harg9.read_unread, harg10.read_unread, harg11.read_unread, harg12.read_unread, harg13.read_unread, View.ld_unit_zero (S := S8192x128) hz2B, View.ld_unit_zero (S := S1x1x128) hz3B]

/-- The pieces stored into kept row 4 tile it. -/
theorem scoverB_4 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : ¬cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) (y : S1x1x128.Idx) :
    ∃ pc ∈ (runB c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.2.1, y ∈ pc.1.set :=
  View.cover_of_tiledL (runB c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.2.1 S1x1x128.size (by sl_kernel_rfl) y

/-- What they leave in kept row 4. -/
theorem valB_4 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : ¬cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) :
    VS_4.read (Elt F) (VS_4.writes (Elt F) VS_4.junk (runB c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.2.1) = k0_pay13 (k0_pay18 (k0_pay7 y0) xs4) := by
  rw [View.read_writes_eq_canon _ _ _ (scoverB_4 c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4)]
  unfold runB
  dsimp only
  rw [View.canon_unit_zero (S := S1x1x128) hz3B]
  simp only [View.readAt_eq_ld, harg2.read_unread, harg3.read_unread, harg9.read_unread, harg10.read_unread, harg11.read_unread, harg12.read_unread, harg13.read_unread, View.ld_unit_zero (S := S8192x128) hz2B, View.ld_unit_zero (S := S1x1x128) hz3B]

end Cert.KernelIdeal.Hand

end
-- ==== Proof.KRunC.lean ====
/-
  The kernel body run in its third case (step index 15: the second and the third branch are taken): on whole staging and scratch memrefs the body terminates without a fault,
  hands the two input blocks back as it found them and leaves in each output buffer and each kept row the
  pieces its stores wrote (found by running the body; read back in a later module).
-/
import proofs.«166070_j33698313404542_2_alg».proof.Proof.KRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runC (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) :
    Σ' (L4 : List (View.Piece (Elt F) S1x1x128 .f32)) (L5 : List (View.Piece (Elt F) S1x1x128 .f32)) (L6 : List (View.Piece (Elt F) S1x1x128 .f32)) (L7 : List (View.Piece (Elt F) S1x1x128 .f32)) (L8 : List (View.Piece (Elt F) S1x1x128 .f32)) (LS0 : List (View.Piece (Elt F) S1x1x128 .f32)) (LS1 : List (View.Piece (Elt F) S1x1x128 .f32)) (LS2 : List (View.Piece (Elt F) S1x1x128 .f32)) (LS3 : List (View.Piece (Elt F) S1x1x128 .f32)), { LS4 : List (View.Piece (Elt F) S1x1x128 .f32) //
      ∀ (E : Set ℕ) (K : PUnit → sProp 𝕄),
        iprop(owns (c : Thread nD τ) arg2 fullShare x0 ∗ owns (c : Thread nD τ) arg3 fullShare y0 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3 ∗ owns (c : Thread nD τ) arg13 fullShare xs4
            ∗ (iprop(owns (c : Thread nD τ) arg2 fullShare x0 ∗ owns (c : Thread nD τ) arg3 fullShare y0 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, ?_, ?_, ?_, fun E K => ?run⟩
  case run =>
    simp only [cc0__fused_kernel_eq_skeleton]; unfold cc0__fused_kernel_skel
    simp only [k0_part1_eq_skeleton]; unfold k0_part1_skel
    unfold owns
    iintro ⟨⟨%f0, %hf0, H0⟩, ⟨%f1, %hf1, H1⟩, ⟨%d4, %f4, -, H4⟩, ⟨%d5, %f5, -, H5⟩, ⟨%d6, %f6, -, H6⟩, ⟨%d7, %f7, -, H7⟩, ⟨%d8, %f8, -, H8⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1
    obtain rfl := harg9.eq_unread hfs0; obtain rfl := harg10.eq_unread hfs1; obtain rfl := harg11.eq_unread hfs2; obtain rfl := harg12.eq_unread hfs3; obtain rfl := harg13.eq_unread hfs4
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H4]; · iexists _; iexact H4
    isplitl [H5]; · iexists _; iexact H5
    isplitl [H6]; · iexists _; iexact H6
    isplitl [H7]; · iexists _; iexact H7
    isplitl [H8]; · iexists _; iexact H8
    isplitl [HS0]; · iexists _; iexact HS0
    isplitl [HS1]; · iexists _; iexact HS1
    isplitl [HS2]; · iexists _; iexact HS2
    isplitl [HS3]; · iexists _; iexact HS3
    iexists _; iexact HS4

end Cert.KernelIdeal.Hand

end
-- ==== Proof.KPiecesC.lean ====
/-
  What the body leaves, read back, at the last step (the kept rows are combined and stored back, then copied to the output buffers): the stored pieces tile each row,
  and the row they leave is the payload the store carried.
-/
import proofs.«166070_j33698313404542_2_alg».proof.Proof.KRunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-3 and of a rank-2 whole-shape rectangle, as constant functions. -/
private theorem hzC3 : (![0, 0, 0] : Fin 3 → Nat) = fun _ => 0 := funext fun a => by fin_cases a <;> rfl
private theorem hzC2 : (![0, 0] : Fin 2 → Nat) = fun _ => 0 := funext fun a => by fin_cases a <;> rfl

/-- The pieces stored into kept row 0 tile it. -/
theorem scoverC_0 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) (y : S1x1x128.Idx) :
    ∃ pc ∈ (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.2.2.1, y ∈ pc.1.set :=
  View.cover_of_tiledL (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.2.2.1 S1x1x128.size (by sl_kernel_rfl) y

/-- What they leave in kept row 0. -/
theorem valC_0 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) :
    VS_0.read (Elt F) (VS_0.writes (Elt F) VS_0.junk (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.2.2.1) = k0_pay14 (k0_pay3 x0) xs0 := by
  rw [View.read_writes_eq_canon _ _ _ (scoverC_0 c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4)]
  unfold runC
  dsimp only
  sl_unfold_words
  rw [View.canon_unit_zero (S := S1x1x128) hzC3]
  simp only [View.readAt_eq_ld, harg2.read_unread, harg3.read_unread, harg9.read_unread, harg10.read_unread,
    harg11.read_unread, harg12.read_unread, harg13.read_unread, View.ld_unit_zero (S := S8192x128) hzC2,
    View.ld_unit_zero (S := S1x1x128) hzC3]

/-- The pieces stored into kept row 1 tile it. -/
theorem scoverC_1 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) (y : S1x1x128.Idx) :
    ∃ pc ∈ (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.2.2.2.1, y ∈ pc.1.set :=
  View.cover_of_tiledL (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.2.2.2.1 S1x1x128.size (by sl_kernel_rfl) y

/-- What they leave in kept row 1. -/
theorem valC_1 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) :
    VS_1.read (Elt F) (VS_1.writes (Elt F) VS_1.junk (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.2.2.2.1) = k0_pay15 (k0_pay4 x0) xs1 := by
  rw [View.read_writes_eq_canon _ _ _ (scoverC_1 c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4)]
  unfold runC
  dsimp only
  sl_unfold_words
  rw [View.canon_unit_zero (S := S1x1x128) hzC3]
  simp only [View.readAt_eq_ld, harg2.read_unread, harg3.read_unread, harg9.read_unread, harg10.read_unread,
    harg11.read_unread, harg12.read_unread, harg13.read_unread, View.ld_unit_zero (S := S8192x128) hzC2,
    View.ld_unit_zero (S := S1x1x128) hzC3]

/-- The pieces stored into kept row 2 tile it. -/
theorem scoverC_2 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) (y : S1x1x128.Idx) :
    ∃ pc ∈ (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.2.2.2.2.1, y ∈ pc.1.set :=
  View.cover_of_tiledL (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.2.2.2.2.1 S1x1x128.size (by sl_kernel_rfl) y

/-- What they leave in kept row 2. -/
theorem valC_2 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) :
    VS_2.read (Elt F) (VS_2.writes (Elt F) VS_2.junk (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.2.2.2.2.1) = k0_pay16 (k0_pay5 x0) xs2 := by
  rw [View.read_writes_eq_canon _ _ _ (scoverC_2 c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4)]
  unfold runC
  dsimp only
  sl_unfold_words
  rw [View.canon_unit_zero (S := S1x1x128) hzC3]
  simp only [View.readAt_eq_ld, harg2.read_unread, harg3.read_unread, harg9.read_unread, harg10.read_unread,
    harg11.read_unread, harg12.read_unread, harg13.read_unread, View.ld_unit_zero (S := S8192x128) hzC2,
    View.ld_unit_zero (S := S1x1x128) hzC3]

/-- The pieces stored into kept row 3 tile it. -/
theorem scoverC_3 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) (y : S1x1x128.Idx) :
    ∃ pc ∈ (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.2.2.2.2.2.1, y ∈ pc.1.set :=
  View.cover_of_tiledL (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.2.2.2.2.2.1 S1x1x128.size (by sl_kernel_rfl) y

/-- What they leave in kept row 3. -/
theorem valC_3 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) :
    VS_3.read (Elt F) (VS_3.writes (Elt F) VS_3.junk (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.2.2.2.2.2.1) = k0_pay17 (k0_pay6 x0 y0) xs3 := by
  rw [View.read_writes_eq_canon _ _ _ (scoverC_3 c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4)]
  unfold runC
  dsimp only
  sl_unfold_words
  rw [View.canon_unit_zero (S := S1x1x128) hzC3]
  simp only [View.readAt_eq_ld, harg2.read_unread, harg3.read_unread, harg9.read_unread, harg10.read_unread,
    harg11.read_unread, harg12.read_unread, harg13.read_unread, View.ld_unit_zero (S := S8192x128) hzC2,
    View.ld_unit_zero (S := S1x1x128) hzC3]

/-- The pieces stored into kept row 4 tile it. -/
theorem scoverC_4 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) (y : S1x1x128.Idx) :
    ∃ pc ∈ (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.2.2.2.2.2.2.1, y ∈ pc.1.set :=
  View.cover_of_tiledL (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.2.2.2.2.2.2.1 S1x1x128.size (by sl_kernel_rfl) y

/-- What they leave in kept row 4. -/
theorem valC_4 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) :
    VS_4.read (Elt F) (VS_4.writes (Elt F) VS_4.junk (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.2.2.2.2.2.2.1) = k0_pay13 (k0_pay18 (k0_pay7 y0) xs4) := by
  rw [View.read_writes_eq_canon _ _ _ (scoverC_4 c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4)]
  unfold runC
  dsimp only
  sl_unfold_words
  rw [View.canon_unit_zero (S := S1x1x128) hzC3]
  simp only [View.readAt_eq_ld, harg2.read_unread, harg3.read_unread, harg9.read_unread, harg10.read_unread,
    harg11.read_unread, harg12.read_unread, harg13.read_unread, View.ld_unit_zero (S := S8192x128) hzC2,
    View.ld_unit_zero (S := S1x1x128) hzC3]

end Cert.KernelIdeal.Hand

end
-- ==== Proof.KPiecesCO.lean ====
/-
  What the body leaves, read back, at the last step (the kept rows are combined and stored back, then copied to the output buffers — here the output buffers): the stored pieces tile each row,
  and the row they leave is the payload the store carried.
-/
import proofs.«166070_j33698313404542_2_alg».proof.Proof.KRunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-3 load or store, however spelt. -/
private theorem hz3CO : (![0, 0, 0] : Fin 3 → Nat) = fun _ => 0 := funext fun a => by fin_cases a <;> rfl
/-- The zero offsets of a rank-2 load or store, however spelt. -/
private theorem hz2CO : (![0, 0] : Fin 2 → Nat) = fun _ => 0 := funext fun a => by fin_cases a <;> rfl

/-- The pieces stored into output buffer 2 tile it. -/
theorem coverC_2 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) (y : S1x1x128.Idx) :
    ∃ pc ∈ (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).1, y ∈ pc.1.set :=
  View.cover_of_tiledL (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).1 S1x1x128.size (by sl_kernel_rfl) y

/-- Output buffer 2 receives the kept row just written. -/
theorem outC_2 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) :
    VO_2.read (Elt F) (VO_2.writes (Elt F) VO_2.junk (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).1) = k0_pay14 (k0_pay3 x0) xs0 := by
  rw [View.read_writes_junk_eq_canon]
  unfold runC
  dsimp only
  sl_unfold_words
  rw [View.canon_unit_zero (S := S1x1x128) hz3CO, View.readCov_unit_zero (S := S1x1x128) _ hz3CO]
  simp only [View.readAt_eq_ld, harg2.read_unread, harg3.read_unread, harg9.read_unread, harg10.read_unread, harg11.read_unread,
    harg12.read_unread, harg13.read_unread, View.ld_unit_zero (S := S8192x128) hz2CO, View.ld_unit_zero (S := S1x1x128) hz3CO]

/-- The pieces stored into output buffer 3 tile it. -/
theorem coverC_3 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) (y : S1x1x128.Idx) :
    ∃ pc ∈ (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.1, y ∈ pc.1.set :=
  View.cover_of_tiledL (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.1 S1x1x128.size (by sl_kernel_rfl) y

/-- Output buffer 3 receives the kept row just written. -/
theorem outC_3 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) :
    VO_3.read (Elt F) (VO_3.writes (Elt F) VO_3.junk (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.1) = k0_pay15 (k0_pay4 x0) xs1 := by
  rw [View.read_writes_junk_eq_canon]
  unfold runC
  dsimp only
  sl_unfold_words
  rw [View.canon_unit_zero (S := S1x1x128) hz3CO, View.readCov_unit_zero (S := S1x1x128) _ hz3CO]
  simp only [View.readAt_eq_ld, harg2.read_unread, harg3.read_unread, harg9.read_unread, harg10.read_unread, harg11.read_unread,
    harg12.read_unread, harg13.read_unread, View.ld_unit_zero (S := S8192x128) hz2CO, View.ld_unit_zero (S := S1x1x128) hz3CO]

/-- The pieces stored into output buffer 4 tile it. -/
theorem coverC_4 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) (y : S1x1x128.Idx) :
    ∃ pc ∈ (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.1, y ∈ pc.1.set :=
  View.cover_of_tiledL (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.1 S1x1x128.size (by sl_kernel_rfl) y

/-- Output buffer 4 receives the kept row just written. -/
theorem outC_4 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) :
    VO_4.read (Elt F) (VO_4.writes (Elt F) VO_4.junk (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.1) = k0_pay16 (k0_pay5 x0) xs2 := by
  rw [View.read_writes_junk_eq_canon]
  unfold runC
  dsimp only
  sl_unfold_words
  rw [View.canon_unit_zero (S := S1x1x128) hz3CO, View.readCov_unit_zero (S := S1x1x128) _ hz3CO]
  simp only [View.readAt_eq_ld, harg2.read_unread, harg3.read_unread, harg9.read_unread, harg10.read_unread, harg11.read_unread,
    harg12.read_unread, harg13.read_unread, View.ld_unit_zero (S := S8192x128) hz2CO, View.ld_unit_zero (S := S1x1x128) hz3CO]

/-- The pieces stored into output buffer 5 tile it. -/
theorem coverC_5 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) (y : S1x1x128.Idx) :
    ∃ pc ∈ (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.1, y ∈ pc.1.set :=
  View.cover_of_tiledL (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.1 S1x1x128.size (by sl_kernel_rfl) y

/-- Output buffer 5 receives the kept row just written. -/
theorem outC_5 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) :
    VO_5.read (Elt F) (VO_5.writes (Elt F) VO_5.junk (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.1) = k0_pay17 (k0_pay6 x0 y0) xs3 := by
  rw [View.read_writes_junk_eq_canon]
  unfold runC
  dsimp only
  sl_unfold_words
  rw [View.canon_unit_zero (S := S1x1x128) hz3CO, View.readCov_unit_zero (S := S1x1x128) _ hz3CO]
  simp only [View.readAt_eq_ld, harg2.read_unread, harg3.read_unread, harg9.read_unread, harg10.read_unread, harg11.read_unread,
    harg12.read_unread, harg13.read_unread, View.ld_unit_zero (S := S8192x128) hz2CO, View.ld_unit_zero (S := S1x1x128) hz3CO]

/-- The pieces stored into output buffer 6 tile it. -/
theorem coverC_6 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) (y : S1x1x128.Idx) :
    ∃ pc ∈ (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.2.1, y ∈ pc.1.set :=
  View.cover_of_tiledL (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.2.1 S1x1x128.size (by sl_kernel_rfl) y

/-- Output buffer 6 receives the kept row just written. -/
theorem outC_6 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (hc1 : ¬cond1 i) (hc2 : cond2 i) (hc3 : cond3 i)
    (x0 : Vec F S8192x128 .f32) (y0 : Vec F S8192x128 .i32) (xs0 : Vec F S1x1x128 .f32) (xs1 : Vec F S1x1x128 .f32) (xs2 : Vec F S1x1x128 .f32) (xs3 : Vec F S1x1x128 .f32) (xs4 : Vec F S1x1x128 .f32) :
    VO_6.read (Elt F) (VO_6.writes (Elt F) VO_6.junk (runC c i arg2 harg2 arg3 harg3 arg4 harg4 arg5 harg5 arg6 harg6 arg7 harg7 arg8 harg8 arg9 harg9 arg10 harg10 arg11 harg11 arg12 harg12 arg13 harg13 hc1 hc2 hc3 x0 y0 xs0 xs1 xs2 xs3 xs4).2.2.2.2.1) = k0_pay13 (k0_pay18 (k0_pay7 y0) xs4) := by
  rw [View.read_writes_junk_eq_canon]
  unfold runC
  dsimp only
  sl_unfold_words
  rw [View.canon_unit_zero (S := S1x1x128) hz3CO, View.readCov_unit_zero (S := S1x1x128) _ hz3CO]
  simp only [View.readAt_eq_ld, harg2.read_unread, harg3.read_unread, harg9.read_unread, harg10.read_unread, harg11.read_unread,
    harg12.read_unread, harg13.read_unread, View.ld_unit_zero (S := S8192x128) hz2CO, View.ld_unit_zero (S := S1x1x128) hz3CO]

end Cert.KernelIdeal.Hand

end
-- ==== Proof.KAcc.lean ====
/-
  The five running partial results the kernel keeps across the sixteen steps of one core, as a recursion over the
  step: lane by lane the least entry, the greatest entry, the sum, the sum over zero-labelled entries and the
  number of zero labels of the rows seen so far. The first step writes the block's own column results; every
  later step combines the kept value with the block's column result (min, max, +, +, +).
-/
import proofs.«166070_j33698313404542_2_alg».proof.Proof.Gen.KernelIdeal.Skeleton

noncomputable section

namespace Cert.KernelIdeal.Acc

open Idealize.ShloMosaic Cert.KernelIdeal Cert.KernelIdeal.Gen

variable {F : FTy → Type} [FloatOps F]

/-- The five kept rows: min, max, total, zero-label total, zero-label count. -/
abbrev Acc (F : FTy → Type) [FloatOps F] : Type :=
  Vec F S1x1x128 .f32 × Vec F S1x1x128 .f32 × Vec F S1x1x128 .f32 × Vec F S1x1x128 .f32 × Vec F S1x1x128 .f32

/-- After the first step: the block's own column results. -/
def first (x0 : Vec F S8192x128 .f32) (y0 : Vec F S8192x128 .i32) : Acc F :=
  (k0_pay8 x0, k0_pay9 x0, k0_pay10 x0, k0_pay11 x0 y0, k0_pay12 y0)

/-- After a later step: the kept rows combined with the block's column results. -/
def next (a : Acc F) (x0 : Vec F S8192x128 .f32) (y0 : Vec F S8192x128 .i32) : Acc F :=
  (k0_pay14 (k0_pay3 x0) a.1, k0_pay15 (k0_pay4 x0) a.2.1, k0_pay16 (k0_pay5 x0) a.2.2.1,
   k0_pay17 (k0_pay6 x0 y0) a.2.2.2.1, k0_pay13 (k0_pay18 (k0_pay7 y0) a.2.2.2.2))

/-- The kept rows after step `n` of a core whose blocks are `bx j`, `by j`. -/
def run (bx : ℕ → Vec F S8192x128 .f32) (bl : ℕ → Vec F S8192x128 .i32) : ℕ → Acc F
  | 0 => first (bx 0) (bl 0)
  | n + 1 => next (run bx bl n) (bx (n + 1)) (bl (n + 1))

end Cert.KernelIdeal.Acc

end
-- ==== Proof.KKept.lean ====
/-
  The five kept rows after each grid point of a core's sweep, by recursion on the point: at the first step of a
  core (point ≡ 0 mod 16) the block's own column results, at every other point the rows the point before left
  combined with the block's column results.
-/
import proofs.«166070_j33698313404542_2_alg».proof.Proof.Gen.KernelIdeal.Frame
import proofs.«166070_j33698313404542_2_alg».proof.Proof.KAcc

noncomputable section

namespace Cert.KernelIdeal.Hand

open Cert.KernelIdeal Cert.KernelIdeal.Gen Cert.KernelIdeal.Acc
open Idealize.ShloMosaic Idealize.ShloMosaic.TcCoe Idealize.SL.Sem

variable {F : FTy → Type} [FloatOps F]
variable (m : (ℓ : Loc nD τ sig) → Buf (Elt F) ℓ)

/-- The two input blocks at a point, at their literal shapes. -/
abbrev bx (c : Dev nD) (t : Fin cfg0.N) : Vec F S8192x128 .f32 := iblk m c 0 t
abbrev bl (c : Dev nD) (t : Fin cfg0.N) : Vec F S8192x128 .i32 := iblk m c 1 t

/-- The kept rows after point `n`. -/
def keptAt (c : Dev nD) : (n : ℕ) → n < cfg0.N → Acc F
  | 0, hn => first (bx m c ⟨0, hn⟩) (bl m c ⟨0, hn⟩)
  | n + 1, hn =>
    if (n + 1) % 16 = 0 then first (bx m c ⟨n + 1, hn⟩) (bl m c ⟨n + 1, hn⟩)
    else next (keptAt c n (Nat.lt_of_succ_lt hn)) (bx m c ⟨n + 1, hn⟩) (bl m c ⟨n + 1, hn⟩)

/-- At the first step of a core. -/
theorem keptAt_first (c : Dev nD) (t : Fin cfg0.N) (h : t.val % 16 = 0) :
    keptAt m c t.val t.isLt = first (bx m c t) (bl m c t) := by
  obtain ⟨n, hn⟩ := t
  cases n with
  | zero => rfl
  | succ n => exact (if_pos h)

/-- At a later step. -/
theorem keptAt_next (c : Dev nD) (t : Fin cfg0.N) (h : ¬ t.val % 16 = 0) :
    keptAt m c t.val t.isLt
      = next (keptAt m c (t.val - 1) (Nat.lt_of_le_of_lt (Nat.sub_le _ _) t.isLt)) (bx m c t) (bl m c t) := by
  obtain ⟨n, hn⟩ := t
  cases n with
  | zero => exact absurd (Nat.zero_mod _) h
  | succ n => exact (if_neg h)

end Cert.KernelIdeal.Hand

end
-- ==== Proof.KFrame.lean ====
/-
  The frame of the program: it runs to the end without a fault and leaves its two argument arrays unchanged.
  The region's invariant tracks the five kept rows: before the first grid point they hold anything; after point n
  they hold the running results of the core's sweep up to n (the recursion of the kept rows). At every point the
  body is one of three cases by the step index (first, middle, last), each run on the point's staging buffers; the
  output buffers are untouched except at a core's last step, where they receive the kept rows. The host lines
  after the region write no array of the pipeline.
-/
import proofs.«166070_j33698313404542_2_alg».proof.Proof.KPiecesA
import proofs.«166070_j33698313404542_2_alg».proof.Proof.KPiecesB
import proofs.«166070_j33698313404542_2_alg».proof.Proof.KPiecesC
import proofs.«166070_j33698313404542_2_alg».proof.Proof.KPiecesCO
import proofs.«166070_j33698313404542_2_alg».proof.Proof.KKept

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Acc

variable (m : (ℓ : Loc nD τ sig) → Buf (Elt F) ℓ) (ρ : Dev nD → PrngReg)

/-- The region's invariant before position `n`: before the first point the scratch rows at anything; afterwards
    each at what the point before left, and the generator register at some state. -/
def PhiS (c : Dev nD) : (n : ℕ) → n ≤ cfg0.N → sProp 𝕄
  | 0, _ => Pipeline.ΦA spec0 c
  | n + 1, hn => iprop(iprop(owns (c : Thread nD τ) scM_0 fullShare ((keptAt m c n hn).1) ∗ owns (c : Thread nD τ) scM_1 fullShare ((keptAt m c n hn).2.1) ∗ owns (c : Thread nD τ) scM_2 fullShare ((keptAt m c n hn).2.2.1) ∗ owns (c : Thread nD τ) scM_3 fullShare ((keptAt m c n hn).2.2.2.1) ∗ owns (c : Thread nD τ) scM_4 fullShare ((keptAt m c n hn).2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM_0 fullShare ((keptAt m c n hn).1) ∗ owns (c : Thread nD τ) scM_1 fullShare ((keptAt m c n hn).2.1) ∗ owns (c : Thread nD τ) scM_2 fullShare ((keptAt m c n hn).2.2.1) ∗ owns (c : Thread nD τ) scM_3 fullShare ((keptAt m c n hn).2.2.2.1) ∗ owns (c : Thread nD τ) scM_4 fullShare ((keptAt m c n hn).2.2.2.2)) ∗ (∃ r, prngReg c r)) := rfl

theorem PhiS_pos (c : Dev nD) (n : ℕ) (h : n ≤ cfg0.N) (hz : n ≠ 0) :
    PhiS m c n h = iprop(iprop(owns (c : Thread nD τ) scM_0 fullShare ((keptAt m c (n - 1) (by omega)).1) ∗ owns (c : Thread nD τ) scM_1 fullShare ((keptAt m c (n - 1) (by omega)).2.1) ∗ owns (c : Thread nD τ) scM_2 fullShare ((keptAt m c (n - 1) (by omega)).2.2.1) ∗ owns (c : Thread nD τ) scM_3 fullShare ((keptAt m c (n - 1) (by omega)).2.2.2.1) ∗ owns (c : Thread nD τ) scM_4 fullShare ((keptAt m c (n - 1) (by omega)).2.2.2.2)) ∗ (∃ r, prngReg c r)) := by
  cases n with
  | zero => exact absurd rfl hz
  | succ n => rfl

/-- The proof data: the arrays as the region finds them; after the body each input buffer at its block and each
    output buffer at the corresponding kept row; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (keptAt m c t.val t.isLt).1
    | ⟨3, _⟩ => (keptAt m c t.val t.isLt).2.1
    | ⟨4, _⟩ => (keptAt m c t.val t.isLt).2.2.1
    | ⟨5, _⟩ => (keptAt m c t.val t.isLt).2.2.2.1
    | ⟨6, _⟩ => (keptAt m c t.val t.isLt).2.2.2.2
    | ⟨n + 7, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (keptAt m c t.val t.isLt).1 := by dsimp only [dats]
theorem after_3 (c : Dev nD) (t : Fin cfg0.N) : (dats m 0 c).after 3 t = (keptAt m c t.val t.isLt).2.1 := by dsimp only [dats]
theorem after_4 (c : Dev nD) (t : Fin cfg0.N) : (dats m 0 c).after 4 t = (keptAt m c t.val t.isLt).2.2.1 := by dsimp only [dats]
theorem after_5 (c : Dev nD) (t : Fin cfg0.N) : (dats m 0 c).after 5 t = (keptAt m c t.val t.isLt).2.2.2.1 := by dsimp only [dats]
theorem after_6 (c : Dev nD) (t : Fin cfg0.N) : (dats m 0 c).after 6 t = (keptAt m c t.val t.isLt).2.2.2.2 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
/-- The body at any point, by the three cases of the step index. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms_0 t) fullShare ((dats m 0 c).after 0 t) from by
    unfold Dat.leavesExact; rw [live_0 t], after_0]
  rw [show (dats m 0 c).leavesExact 1 t = owns (c : Thread nD τ) (ms_1 t) fullShare ((dats m 0 c).after 1 t) from by
    unfold Dat.leavesExact; rw [live_1 t], after_1]
  by_cases h0 : t.val % 16 = 0
  · have h15 : ¬ t.val % 16 = 15 := by omega
    rw [Dat.leavesExact_idle (dats m 0 c) 2 t (idle_2 t h15) (noFlush_2 t h15)]
    rw [Dat.leavesExact_idle (dats m 0 c) 3 t (idle_3 t h15) (noFlush_3 t h15)]
    rw [Dat.leavesExact_idle (dats m 0 c) 4 t (idle_4 t h15) (noFlush_4 t h15)]
    rw [Dat.leavesExact_idle (dats m 0 c) 5 t (idle_5 t h15) (noFlush_5 t h15)]
    rw [Dat.leavesExact_idle (dats m 0 c) 6 t (idle_6 t h15) (noFlush_6 t h15)]
    rw [keptAt_first m c t h0]
    unfold first; dsimp only
    by_cases hz : t.val = 0
    · rw [PhiS_castSucc m c t, PhiS_zero m c _ _ hz, PhiA_eq]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
      iapply ((runA c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t)).2.2.2.2.2 _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, ⟨%es0, HS0⟩, ⟨%es1, HS1⟩, ⟨%es2, HS2⟩, ⟨%es3, HS3⟩, ⟨%es4, HS4⟩⟩
      isplitl [HS0 HS1 HS2 HS3 HS4 Hg]
      · isplitl [HS0 HS1 HS2 HS3 HS4]
        · isplitl [HS0]
          · unfold owns; iexists _; isplitr
            swap; · iexact HS0
            ipureintro; exact (View.read_writes_of_cover _ _ _ _ _ (scoverA_0 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t))).trans (valA_0 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t))
          isplitl [HS1]
          · unfold owns; iexists _; isplitr
            swap; · iexact HS1
            ipureintro; exact (View.read_writes_of_cover _ _ _ _ _ (scoverA_1 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t))).trans (valA_1 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t))
          isplitl [HS2]
          · unfold owns; iexists _; isplitr
            swap; · iexact HS2
            ipureintro; exact (View.read_writes_of_cover _ _ _ _ _ (scoverA_2 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t))).trans (valA_2 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t))
          isplitl [HS3]
          · unfold owns; iexists _; isplitr
            swap; · iexact HS3
            ipureintro; exact (View.read_writes_of_cover _ _ _ _ _ (scoverA_3 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t))).trans (valA_3 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t))
          unfold owns; iexists _; isplitr
          swap; · iexact HS4
          ipureintro; exact (View.read_writes_of_cover _ _ _ _ _ (scoverA_4 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t))).trans (valA_4 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t))
        iexact Hg
      isplitl [Ho]; · iexact Ho
      isplitl [H0]; · iexact H0
      isplitl [H1]; · iexact H1
      isplitl [H2]; · iexists _; iexact H2
      isplitl [H3]; · iexists _; iexact H3
      isplitl [H4]; · iexists _; iexact H4
      isplitl [H5]; · iexists _; iexact H5
      iexists _; iexact H6
    · rw [PhiS_castSucc m c t, PhiS_pos m c _ _ hz]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
      iapply ((runA c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t)).2.2.2.2.2 _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      isplitl [HS3]; · iexists _; iexact HS3
      isplitl [HS4]; · iexists _; iexact HS4
      iintro ⟨H0, H1, H2, H3, H4, H5, H6, ⟨%es0, HS0⟩, ⟨%es1, HS1⟩, ⟨%es2, HS2⟩, ⟨%es3, HS3⟩, ⟨%es4, HS4⟩⟩
      isplitl [HS0 HS1 HS2 HS3 HS4 Hg]
      · isplitl [HS0 HS1 HS2 HS3 HS4]
        · isplitl [HS0]
          · unfold owns; iexists _; isplitr
            swap; · iexact HS0
            ipureintro; exact (View.read_writes_of_cover _ _ _ _ _ (scoverA_0 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t))).trans (valA_0 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t))
          isplitl [HS1]
          · unfold owns; iexists _; isplitr
            swap; · iexact HS1
            ipureintro; exact (View.read_writes_of_cover _ _ _ _ _ (scoverA_1 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t))).trans (valA_1 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t))
          isplitl [HS2]
          · unfold owns; iexists _; isplitr
            swap; · iexact HS2
            ipureintro; exact (View.read_writes_of_cover _ _ _ _ _ (scoverA_2 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t))).trans (valA_2 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t))
          isplitl [HS3]
          · unfold owns; iexists _; isplitr
            swap; · iexact HS3
            ipureintro; exact (View.read_writes_of_cover _ _ _ _ _ (scoverA_3 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t))).trans (valA_3 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t))
          unfold owns; iexists _; isplitr
          swap; · iexact HS4
          ipureintro; exact (View.read_writes_of_cover _ _ _ _ _ (scoverA_4 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t))).trans (valA_4 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) ((hcond1 t).mpr h0) (fun h => ((hcond2 t).mp h) h0) (fun h => h15 ((hcond3 t).mp h)) (bx m c t) (bl m c t))
        iexact Hg
      isplitl [Ho]; · iexact Ho
      isplitl [H0]; · iexact H0
      isplitl [H1]; · iexact H1
      isplitl [H2]; · iexists _; iexact H2
      isplitl [H3]; · iexists _; iexact H3
      isplitl [H4]; · iexists _; iexact H4
      isplitl [H5]; · iexists _; iexact H5
      iexists _; iexact H6
  · have hz : t.val ≠ 0 := fun h => h0 (by rw [h])
    rw [keptAt_next m c t h0]
    unfold next; dsimp only
    rw [PhiS_castSucc m c t, PhiS_pos m c _ _ hz]
    by_cases h15 : t.val % 16 = 15
    · rw [show (dats m 0 c).leavesExact 2 t = owns (c : Thread nD τ) (ms_2 t) fullShare ((dats m 0 c).after 2 t) from by
        unfold Dat.leavesExact; rw [live_2 t h15], after_2, keptAt_next m c t h0]
      rw [show (dats m 0 c).leavesExact 3 t = owns (c : Thread nD τ) (ms_3 t) fullShare ((dats m 0 c).after 3 t) from by
        unfold Dat.leavesExact; rw [live_3 t h15], after_3, keptAt_next m c t h0]
      rw [show (dats m 0 c).leavesExact 4 t = owns (c : Thread nD τ) (ms_4 t) fullShare ((dats m 0 c).after 4 t) from by
        unfold Dat.leavesExact; rw [live_4 t h15], after_4, keptAt_next m c t h0]
      rw [show (dats m 0 c).leavesExact 5 t = owns (c : Thread nD τ) (ms_5 t) fullShare ((dats m 0 c).after 5 t) from by
        unfold Dat.leavesExact; rw [live_5 t h15], after_5, keptAt_next m c t h0]
      rw [show (dats m 0 c).leavesExact 6 t = owns (c : Thread nD τ) (ms_6 t) fullShare ((dats m 0 c).after 6 t) from by
        unfold Dat.leavesExact; rw [live_6 t h15], after_6, keptAt_next m c t h0]
      unfold next; dsimp only
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
      iapply ((runC c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) ((hcond3 t).mpr h15) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2).2.2.2.2.2.2.2.2.2.2 Set.univ _)
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      isplitl [HS3]; · iexact HS3
      isplitl [HS4]; · iexact HS4
      iintro ⟨H0, H1, ⟨%e2, H2⟩, ⟨%e3, H3⟩, ⟨%e4, H4⟩, ⟨%e5, H5⟩, ⟨%e6, H6⟩, ⟨%es0, HS0⟩, ⟨%es1, HS1⟩, ⟨%es2, HS2⟩, ⟨%es3, HS3⟩, ⟨%es4, HS4⟩⟩
      isplitl [HS0 HS1 HS2 HS3 HS4 Hg]
      · isplitl [HS0 HS1 HS2 HS3 HS4]
        · isplitl [HS0]
          · unfold owns; iexists _; isplitr
            swap; · iexact HS0
            ipureintro; exact (View.read_writes_of_cover _ _ _ _ _ (scoverC_0 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) ((hcond3 t).mpr h15) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)).trans (valC_0 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) ((hcond3 t).mpr h15) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)
          isplitl [HS1]
          · unfold owns; iexists _; isplitr
            swap; · iexact HS1
            ipureintro; exact (View.read_writes_of_cover _ _ _ _ _ (scoverC_1 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) ((hcond3 t).mpr h15) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)).trans (valC_1 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) ((hcond3 t).mpr h15) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)
          isplitl [HS2]
          · unfold owns; iexists _; isplitr
            swap; · iexact HS2
            ipureintro; exact (View.read_writes_of_cover _ _ _ _ _ (scoverC_2 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) ((hcond3 t).mpr h15) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)).trans (valC_2 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) ((hcond3 t).mpr h15) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)
          isplitl [HS3]
          · unfold owns; iexists _; isplitr
            swap; · iexact HS3
            ipureintro; exact (View.read_writes_of_cover _ _ _ _ _ (scoverC_3 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) ((hcond3 t).mpr h15) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)).trans (valC_3 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) ((hcond3 t).mpr h15) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)
          unfold owns; iexists _; isplitr
          swap; · iexact HS4
          ipureintro; exact (View.read_writes_of_cover _ _ _ _ _ (scoverC_4 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) ((hcond3 t).mpr h15) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)).trans (valC_4 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) ((hcond3 t).mpr h15) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)
        iexact Hg
      isplitl [Ho]; · iexact Ho
      isplitl [H0]; · iexact H0
      isplitl [H1]; · iexact H1
      isplitl [H2]
      · unfold owns; iexists _; isplitr
        swap; · iexact H2
        ipureintro; exact (View.read_writes_of_cover _ _ _ _ _ (coverC_2 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) ((hcond3 t).mpr h15) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)).trans (outC_2 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) ((hcond3 t).mpr h15) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)
      isplitl [H3]
      · unfold owns; iexists _; isplitr
        swap; · iexact H3
        ipureintro; exact (View.read_writes_of_cover _ _ _ _ _ (coverC_3 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) ((hcond3 t).mpr h15) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)).trans (outC_3 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) ((hcond3 t).mpr h15) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)
      isplitl [H4]
      · unfold owns; iexists _; isplitr
        swap; · iexact H4
        ipureintro; exact (View.read_writes_of_cover _ _ _ _ _ (coverC_4 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) ((hcond3 t).mpr h15) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)).trans (outC_4 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) ((hcond3 t).mpr h15) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)
      isplitl [H5]
      · unfold owns; iexists _; isplitr
        swap; · iexact H5
        ipureintro; exact (View.read_writes_of_cover _ _ _ _ _ (coverC_5 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) ((hcond3 t).mpr h15) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)).trans (outC_5 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) ((hcond3 t).mpr h15) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)
      unfold owns; iexists _; isplitr
      swap; · iexact H6
      ipureintro; exact (View.read_writes_of_cover _ _ _ _ _ (coverC_6 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) ((hcond3 t).mpr h15) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)).trans (outC_6 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) ((hcond3 t).mpr h15) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)
    · rw [Dat.leavesExact_idle (dats m 0 c) 2 t (idle_2 t h15) (noFlush_2 t h15)]
      rw [Dat.leavesExact_idle (dats m 0 c) 3 t (idle_3 t h15) (noFlush_3 t h15)]
      rw [Dat.leavesExact_idle (dats m 0 c) 4 t (idle_4 t h15) (noFlush_4 t h15)]
      rw [Dat.leavesExact_idle (dats m 0 c) 5 t (idle_5 t h15) (noFlush_5 t h15)]
      rw [Dat.leavesExact_idle (dats m 0 c) 6 t (idle_6 t h15) (noFlush_6 t h15)]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
      iapply ((runB c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) (fun h => h15 ((hcond3 t).mp h)) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2).2.2.2.2.2 _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, ⟨%es0, HS0⟩, ⟨%es1, HS1⟩, ⟨%es2, HS2⟩, ⟨%es3, HS3⟩, ⟨%es4, HS4⟩⟩
      isplitl [HS0 HS1 HS2 HS3 HS4 Hg]
      · isplitl [HS0 HS1 HS2 HS3 HS4]
        · isplitl [HS0]
          · unfold owns; iexists _; isplitr
            swap; · iexact HS0
            ipureintro; exact (View.read_writes_of_cover _ _ _ _ _ (scoverB_0 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) (fun h => h15 ((hcond3 t).mp h)) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)).trans (valB_0 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) (fun h => h15 ((hcond3 t).mp h)) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)
          isplitl [HS1]
          · unfold owns; iexists _; isplitr
            swap; · iexact HS1
            ipureintro; exact (View.read_writes_of_cover _ _ _ _ _ (scoverB_1 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) (fun h => h15 ((hcond3 t).mp h)) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)).trans (valB_1 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) (fun h => h15 ((hcond3 t).mp h)) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)
          isplitl [HS2]
          · unfold owns; iexists _; isplitr
            swap; · iexact HS2
            ipureintro; exact (View.read_writes_of_cover _ _ _ _ _ (scoverB_2 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) (fun h => h15 ((hcond3 t).mp h)) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)).trans (valB_2 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) (fun h => h15 ((hcond3 t).mp h)) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)
          isplitl [HS3]
          · unfold owns; iexists _; isplitr
            swap; · iexact HS3
            ipureintro; exact (View.read_writes_of_cover _ _ _ _ _ (scoverB_3 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) (fun h => h15 ((hcond3 t).mp h)) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)).trans (valB_3 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) (fun h => h15 ((hcond3 t).mp h)) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)
          unfold owns; iexists _; isplitr
          swap; · iexact HS4
          ipureintro; exact (View.read_writes_of_cover _ _ _ _ _ (scoverB_4 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) (fun h => h15 ((hcond3 t).mp h)) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)).trans (valB_4 c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) scM_4 (Memref.isWhole_whole _) (fun h => h0 ((hcond1 t).mp h)) ((hcond2 t).mpr h0) (fun h => h15 ((hcond3 t).mp h)) (bx m c t) (bl m c t) (keptAt m c (t.val - 1) (Nat.lt_of_le_of_lt (Nat.sub_le _ _) t.isLt)).1 (keptAt m c (t.val - 1) (Nat.lt_of_le_of_lt (Nat.sub_le _ _) t.isLt)).2.1 (keptAt m c (t.val - 1) (Nat.lt_of_le_of_lt (Nat.sub_le _ _) t.isLt)).2.2.1 (keptAt m c (t.val - 1) (Nat.lt_of_le_of_lt (Nat.sub_le _ _) t.isLt)).2.2.2.1 (keptAt m c (t.val - 1) (Nat.lt_of_le_of_lt (Nat.sub_le _ _) t.isLt)).2.2.2.2)
        iexact Hg
      isplitl [Ho]; · iexact Ho
      isplitl [H0]; · iexact H0
      isplitl [H1]; · iexact H1
      isplitl [H2]; · iexists _; iexact H2
      isplitl [H3]; · iexists _; iexact H3
      isplitl [H4]; · iexists _; iexact H4
      isplitl [H5]; · iexists _; iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch's back: the kept rows' named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA_eq]
  iintro ⟨⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

set_option backward.isDefEq.respectTransparency.types false in
/-- Every weakly fair execution of @main terminates, and every final state has each array of the pipeline at what the
    proof data say and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.Spec.lean ====
/-
  The specification both programs meet, as functions of the two argument arrays: x (33,554,432 extended reals)
  and y (33,554,432 32-bit labels).

  Five aggregates of the arrays: the least and the greatest entry of x, the sum of x, the sum of the entries of x
  whose label is zero, and the number of zero labels. From them one scalar: with rng = max - min and n1 = 2^25 - n0,
  the two group means of the normalised entries, lb = ((s0 - n0 * min) / rng) / n0 and
  lh = (((stot - s0) - n1 * min) / rng) / n1, and the result min lb lh - max lb lh.

  `G` is that scalar computed from the aggregates (the shape of the kernel's arithmetic); `refForm` is the same
  quantity computed entry by entry: each entry normalised first, (x i - min) / rng, then summed over the zero-labelled
  entries and over all entries (the shape of the reference's arithmetic). Division is the extended reals' division
  with its conventions at a zero divisor.
-/
import Idealize.ShloMosaic.PureOps.Ideal
import Idealize.ShloMosaic.Lib.ValueIdx

noncomputable section

namespace Cert.Spec

open Idealize.ShloMosaic

/-- The shape of both argument arrays. -/
abbrev SN : Shape := ⟨1, ![33554432]⟩

/-- The indicator of the label zero, as an extended real. -/
def ind (b : BitVec 32) : EReal := if b = 0#32 then 1 else 0

/-- The least entry. -/
def xmin (x : SN.Idx → EReal) : EReal := ⨅ i, x i
/-- The greatest entry. -/
def xmax (x : SN.Idx → EReal) : EReal := ⨆ i, x i
/-- The sum of all entries. -/
def stot (x : SN.Idx → EReal) : EReal := ∑ i, x i
/-- The sum of the entries whose label is zero. -/
def s0raw (x : SN.Idx → EReal) (y : SN.Idx → BitVec 32) : EReal := ∑ i, x i * ind (y i)
/-- The number of zero labels. -/
def n0 (y : SN.Idx → BitVec 32) : EReal := ∑ i, ind (y i)

/-- The number of entries, 2^25, as the f32 pattern both programs carry. -/
abbrev cntAll : EReal := Ideal.ofBits .f32 0x4C000000#32

/-- The scalar epilogue, from the five aggregates. -/
def epi (mn mx st s0 k0 : EReal) : EReal :=
  let rng := mx - mn
  let k1 := cntAll - k0
  let a := Ideal.div (s0 - k0 * mn) rng
  let b := Ideal.div ((st - s0) - k1 * mn) rng
  let lb := Ideal.div a k0
  let lh := Ideal.div b k1
  min lb lh - max lb lh

/-- The result from the aggregates. -/
def G (x : SN.Idx → EReal) (y : SN.Idx → BitVec 32) : EReal :=
  epi (xmin x) (xmax x) (stot x) (s0raw x y) (n0 y)

/-- The same quantity entry by entry: normalise, then sum by group. -/
def refForm (x : SN.Idx → EReal) (y : SN.Idx → BitVec 32) : EReal :=
  let mn := xmin x
  let rng := xmax x - mn
  let xn : SN.Idx → EReal := fun i => Ideal.div (x i - mn) rng
  let k0 := n0 y
  let k1 := cntAll - k0
  let s0 := ∑ i, (if y i = 0#32 then xn i else 0)
  let st := ∑ i, xn i
  let s1 := st - s0
  let lb := Ideal.div s0 k0
  let lh := Ideal.div s1 k1
  min lb lh - max lb lh

end Cert.Spec

end
-- ==== Proof.RegroupFold.lean ====
/-
  Folds over a finite index set as lattice operations, and the last-step splitting of an infimum or supremum
  over an initial segment of the naturals.

  For a finite index type and extended-real values, folding the family with the binary minimum from the top
  element is the infimum of the family, and folding with the binary maximum from the bottom element is its
  supremum (by induction on the finite set: inserting one element puts one more binary minimum in front).
  An infimum over the m+1 indices below m+1 is the binary minimum of the infimum over the first m indices and the
  value at the last index; the same for suprema and the binary maximum.
-/
import Mathlib.Order.CompleteLattice.Finset
import Mathlib.Data.EReal.Basic
import Mathlib.Order.Fin.Basic

namespace Cert.Regroup

/-! ## Folds with min / max are infima / suprema -/

/-- Folding the binary minimum over a finite set, from the top element, is the infimum over that set. -/
theorem fold_min_eq_biInf {ι : Type*} (s : Finset ι) (f : ι → EReal) :
    s.fold min ⊤ f = ⨅ i ∈ s, f i := by
  classical
  induction s using Finset.induction_on with
  | empty => simp
  | insert a s ha ih =>
    rw [Finset.fold_insert ha, ih, Finset.iInf_insert]

/-- Folding the binary maximum over a finite set, from the bottom element, is the supremum over that set. -/
theorem fold_max_eq_biSup {ι : Type*} (s : Finset ι) (f : ι → EReal) :
    s.fold max ⊥ f = ⨆ i ∈ s, f i := by
  classical
  induction s using Finset.induction_on with
  | empty => simp
  | insert a s ha ih =>
    rw [Finset.fold_insert ha, ih, Finset.iSup_insert]

/-- Folding the binary minimum over a whole finite type, from the top element, is the infimum of the family. -/
theorem fold_min_univ {ι : Type*} [Fintype ι] (f : ι → EReal) :
    Finset.univ.fold min ⊤ f = ⨅ i, f i := by
  rw [fold_min_eq_biInf]; simp

/-- Folding the binary maximum over a whole finite type, from the bottom element, is the supremum of the family. -/
theorem fold_max_univ {ι : Type*} [Fintype ι] (f : ι → EReal) :
    Finset.univ.fold max ⊥ f = ⨆ i, f i := by
  rw [fold_max_eq_biSup]; simp

/-- The same for a composite family. -/
theorem fold_min_univ_comp {ι κ : Type*} [Fintype ι] (f : κ → EReal) (g : ι → κ) :
    Finset.univ.fold min ⊤ (f ∘ g) = ⨅ i, f (g i) :=
  fold_min_univ (f ∘ g)

/-- The same for a composite family. -/
theorem fold_max_univ_comp {ι κ : Type*} [Fintype ι] (f : κ → EReal) (g : ι → κ) :
    Finset.univ.fold max ⊥ (f ∘ g) = ⨆ i, f (g i) :=
  fold_max_univ (f ∘ g)

/-! ## Splitting off the last index -/

/-- An infimum over the indices below m+1 is the minimum of the infimum over the first m and the last value. -/
theorem iInf_fin_succ_last {m : ℕ} (g : Fin (m + 1) → EReal) :
    ⨅ j, g j = min (⨅ j : Fin m, g j.castSucc) (g (Fin.last m)) := by
  apply le_antisymm
  · exact le_min (le_iInf fun j => iInf_le _ _) (iInf_le _ _)
  · refine le_iInf fun j => ?_
    induction j using Fin.lastCases with
    | last => exact min_le_right _ _
    | cast j => exact (min_le_left _ _).trans (iInf_le _ j)

/-- A supremum over the indices below m+1 is the maximum of the supremum over the first m and the last value. -/
theorem iSup_fin_succ_last {m : ℕ} (g : Fin (m + 1) → EReal) :
    ⨆ j, g j = max (⨆ j : Fin m, g j.castSucc) (g (Fin.last m)) := by
  apply le_antisymm
  · refine iSup_le fun j => ?_
    induction j using Fin.lastCases with
    | last => exact le_max_right _ _
    | cast j => exact (le_iSup (fun j : Fin m => g j.castSucc) j).trans (le_max_left _ _)
  · exact max_le (iSup_le fun j => le_iSup _ _) (le_iSup _ _)

/-- The infimum splitting at n+2 indices, as the step of an induction that starts from one index. -/
theorem iInf_fin_add_two {n : ℕ} (g : Fin (n + 2) → EReal) :
    ⨅ j : Fin (n + 2), g j = min (⨅ j : Fin (n + 1), g j.castSucc) (g (Fin.last (n + 1))) :=
  iInf_fin_succ_last (m := n + 1) g

/-- The supremum splitting at n+2 indices. -/
theorem iSup_fin_add_two {n : ℕ} (g : Fin (n + 2) → EReal) :
    ⨆ j : Fin (n + 2), g j = max (⨆ j : Fin (n + 1), g j.castSucc) (g (Fin.last (n + 1))) :=
  iSup_fin_succ_last (m := n + 1) g

/-- An infimum over a one-element index range is the one value. -/
theorem iInf_fin_one (g : Fin 1 → EReal) : ⨅ j, g j = g 0 := by
  simp [iInf_unique]

/-- A supremum over a one-element index range is the one value. -/
theorem iSup_fin_one (g : Fin 1 → EReal) : ⨆ j, g j = g 0 := by
  simp [iSup_unique]

end Cert.Regroup
-- ==== Proof.Regroup.lean ====
/-
  Regrouping a flat array of 33,554,432 entries as 2 x 16 x 8192 x 128, and a 2 x 1 x 128 array as 2 x 128.

  The flat position ((c*16 + j)*8192 + r)*128 + l, with c below 2, j below 16, r below 8192 and l below 128, runs
  through every position below 33,554,432 = 2*16*8192*128 exactly once: the inverse reads the four digits off by
  division and remainder. So an infimum, a supremum or a sum over all flat positions is the iterated infimum,
  supremum or sum over the four digits, in any nesting order; the order used here is c, l, j, r.
  A position of a 2 x 1 x 128 array is given by its first and last coordinates, the middle one being always zero,
  so an infimum, supremum or sum over it is the iterated one over those two coordinates.
-/
import proofs.«166070_j33698313404542_2_alg».proof.Proof.Spec
import proofs.«166070_j33698313404542_2_alg».proof.Proof.RegroupFold

noncomputable section

open scoped BigOperators

namespace Cert.Regroup

open Idealize.ShloMosaic Idealize.ShloMosaic.ValueIdx Cert.Spec

/-! ## The flat position of (core, step, row, lane) -/

/-- The four digits give a position below 2*16*8192*128. -/
theorem flat_lt (c : Fin 2) (j : Fin 16) (r : Fin 8192) (l : Fin 128) :
    ((c.val * 16 + j.val) * 8192 + r.val) * 128 + l.val < 33554432 := by
  have := c.isLt; have := j.isLt; have := r.isLt; have := l.isLt
  omega

/-- The flat index of core c, step j, row r, lane l. -/
def flat (c : Fin 2) (j : Fin 16) (r : Fin 8192) (l : Fin 128) : SN.Idx :=
  ix1 ⟨((c.val * 16 + j.val) * 8192 + r.val) * 128 + l.val, flat_lt c j r l⟩

theorem flat_val (c : Fin 2) (j : Fin 16) (r : Fin 8192) (l : Fin 128) :
    ((flat c j r l) 0).val = ((c.val * 16 + j.val) * 8192 + r.val) * 128 + l.val := rfl

/-- A flat index's position is below the extent, stated with the literal. -/
theorem idx_lt (i : SN.Idx) : (i 0).val < 33554432 := (i 0).isLt

/-- The digits of a flat index: core, lane, step, row. -/
def digits (i : SN.Idx) : Fin 2 × Fin 128 × Fin 16 × Fin 8192 :=
  (⟨(i 0).val / 16777216, by have := idx_lt i; omega⟩,
   ⟨(i 0).val % 128, Nat.mod_lt _ (by norm_num)⟩,
   ⟨(i 0).val / 1048576 % 16, Nat.mod_lt _ (by norm_num)⟩,
   ⟨(i 0).val / 128 % 8192, Nat.mod_lt _ (by norm_num)⟩)

/-- The flat positions are in bijection with the digit quadruples (core, lane, step, row). -/
def e : Fin 2 × Fin 128 × Fin 16 × Fin 8192 ≃ SN.Idx where
  toFun p := flat p.1 p.2.2.1 p.2.2.2 p.2.1
  invFun := digits
  left_inv := by
    rintro ⟨c, l, j, r⟩
    have := c.isLt; have := j.isLt; have := r.isLt; have := l.isLt
    refine Prod.ext (Fin.ext ?_) (Prod.ext (Fin.ext ?_) (Prod.ext (Fin.ext ?_) (Fin.ext ?_)))
    · show (((c.val * 16 + j.val) * 8192 + r.val) * 128 + l.val) / 16777216 = c.val
      omega
    · show (((c.val * 16 + j.val) * 8192 + r.val) * 128 + l.val) % 128 = l.val
      omega
    · show (((c.val * 16 + j.val) * 8192 + r.val) * 128 + l.val) / 1048576 % 16 = j.val
      omega
    · show (((c.val * 16 + j.val) * 8192 + r.val) * 128 + l.val) / 128 % 8192 = r.val
      omega
  right_inv := by
    intro i
    funext a
    match a with
    | ⟨0, _⟩ =>
      refine Fin.ext ?_
      show (((i 0).val / 16777216 * 16 + (i 0).val / 1048576 % 16) * 8192 + (i 0).val / 128 % 8192) * 128
          + (i 0).val % 128 = (i 0).val
      have := idx_lt i
      omega

@[simp] theorem e_apply (c : Fin 2) (l : Fin 128) (j : Fin 16) (r : Fin 8192) : e (c, l, j, r) = flat c j r l := rfl

/-! ## Infimum, supremum and sum over the flat positions, digit by digit -/

/-- An infimum over all flat positions is the iterated infimum over core, lane, step, row. -/
theorem iInf_flat (f : SN.Idx → EReal) :
    ⨅ i, f i = ⨅ (c : Fin 2) (l : Fin 128) (j : Fin 16) (r : Fin 8192), f (flat c j r l) := by
  rw [← e.iInf_comp (g := f)]
  simp only [iInf_prod, e_apply]

/-- A supremum over all flat positions is the iterated supremum over core, lane, step, row. -/
theorem iSup_flat (f : SN.Idx → EReal) :
    ⨆ i, f i = ⨆ (c : Fin 2) (l : Fin 128) (j : Fin 16) (r : Fin 8192), f (flat c j r l) := by
  rw [← e.iSup_comp (g := f)]
  simp only [iSup_prod, e_apply]

/-- A sum over all flat positions is the iterated sum over core, lane, step, row. -/
theorem sum_flat {M : Type*} [AddCommMonoid M] (f : SN.Idx → M) :
    ∑ i, f i = ∑ c : Fin 2, ∑ l : Fin 128, ∑ j : Fin 16, ∑ r : Fin 8192, f (flat c j r l) := by
  rw [← Equiv.sum_comp e f]
  simp only [Fintype.sum_prod_type, e_apply]

/-! ## A 2 x 1 x 128 array by its first and last coordinates -/

/-- The shape of the per-core, per-lane partial results. -/
abbrev S3 : Shape := ⟨3, ![2, 1, 128]⟩

/-- The positions of a 2 x 1 x 128 array are in bijection with the pairs (core, lane). -/
def e3 : Fin 2 × Fin 128 ≃ S3.Idx where
  toFun p := ix3 p.1 (0 : Fin 1) p.2
  invFun i := (i 0, i 2)
  left_inv _ := rfl
  right_inv i := by
    funext a
    match a with
    | ⟨0, _⟩ => rfl
    | ⟨1, _⟩ => exact Subsingleton.elim (α := Fin 1) _ _
    | ⟨2, _⟩ => rfl

@[simp] theorem e3_apply (c : Fin 2) (l : Fin 128) : e3 (c, l) = ix3 c (0 : Fin 1) l := rfl

/-- An infimum over a 2 x 1 x 128 array is the iterated infimum over core and lane. -/
theorem iInf_idx3 (A : S3.Idx → EReal) :
    ⨅ i, A i = ⨅ (c : Fin 2) (l : Fin 128), A (ix3 c (0 : Fin 1) l) := by
  rw [← e3.iInf_comp (g := A)]
  simp only [iInf_prod, e3_apply]

/-- A supremum over a 2 x 1 x 128 array is the iterated supremum over core and lane. -/
theorem iSup_idx3 (A : S3.Idx → EReal) :
    ⨆ i, A i = ⨆ (c : Fin 2) (l : Fin 128), A (ix3 c (0 : Fin 1) l) := by
  rw [← e3.iSup_comp (g := A)]
  simp only [iSup_prod, e3_apply]

/-- A sum over a 2 x 1 x 128 array is the iterated sum over core and lane. -/
theorem sum_idx3 {M : Type*} [AddCommMonoid M] (A : S3.Idx → M) :
    ∑ i, A i = ∑ c : Fin 2, ∑ l : Fin 128, A (ix3 c (0 : Fin 1) l) := by
  rw [← Equiv.sum_comp e3 A]
  simp only [Fintype.sum_prod_type, e3_apply]

/-! ## Per-core, per-lane partial results assemble to the whole -/

/-- If each entry of a 2 x 1 x 128 array is the infimum over the steps and rows of its core and lane, the infimum of
    the array is the infimum over all flat positions. -/
theorem iInf_idx3_eq_iInf_flat (f : SN.Idx → EReal) (A : S3.Idx → EReal)
    (h : ∀ (c : Fin 2) (l : Fin 128), A (ix3 c (0 : Fin 1) l) = ⨅ (j : Fin 16) (r : Fin 8192), f (flat c j r l)) :
    ⨅ i, A i = ⨅ i, f i := by
  rw [iInf_idx3, iInf_flat]
  simp only [h]

/-- If each entry of a 2 x 1 x 128 array is the supremum over the steps and rows of its core and lane, the supremum of
    the array is the supremum over all flat positions. -/
theorem iSup_idx3_eq_iSup_flat (f : SN.Idx → EReal) (A : S3.Idx → EReal)
    (h : ∀ (c : Fin 2) (l : Fin 128), A (ix3 c (0 : Fin 1) l) = ⨆ (j : Fin 16) (r : Fin 8192), f (flat c j r l)) :
    ⨆ i, A i = ⨆ i, f i := by
  rw [iSup_idx3, iSup_flat]
  simp only [h]

/-- If each entry of a 2 x 1 x 128 array is the sum over the steps and rows of its core and lane, the sum of the array
    is the sum over all flat positions. -/
theorem sum_idx3_eq_sum_flat {M : Type*} [AddCommMonoid M] (f : SN.Idx → M) (A : S3.Idx → M)
    (h : ∀ (c : Fin 2) (l : Fin 128), A (ix3 c (0 : Fin 1) l) = ∑ j : Fin 16, ∑ r : Fin 8192, f (flat c j r l)) :
    ∑ i, A i = ∑ i, f i := by
  rw [sum_idx3, sum_flat]
  simp only [h]

end Cert.Regroup

end
-- ==== Proof.KTail.lean ====
/-
  The kernel's host operations after the region, as one function of the five arrays the region writes.

  The region leaves five 2 x 1 x 128 arrays: lane by lane and core by core the partial minimum, maximum, total,
  zero-label total and zero-label count. The operations after it reduce each array over all of its axes (a minimum
  from +infinity, a maximum from -infinity, three sums from zero), compute from the five scalars
  rng = max - min, n1 = 2^25 - n0, a = (s0 - n0*min)/rng, b = ((st - s0) - n1*min)/rng, lb = a/n0, lh = b/n1 and
  min lb lh - max lb lh, and reshape the scalar to a one-element array.

  At the extended reals a minimum reduce from +infinity over all axes is the infimum of the array, a maximum reduce
  from -infinity its supremum, and a sum reduce from zero its sum; so the one entry of the result is the scalar
  epilogue of the five aggregates.
-/
import proofs.«166070_j33698313404542_2_alg».proof.Proof.Gen.KernelIdeal.Launch
import proofs.«166070_j33698313404542_2_alg».proof.Proof.Spec
import proofs.«166070_j33698313404542_2_alg».proof.Proof.Regroup
import Idealize.ShloMosaic.Lib.StableHlo.Run
import Idealize.ShloMosaic.Lib.IdealHost
import Idealize.ShloMosaic.PureOps.Ideal.Laws
import Idealize.ShloMosaic.PureOps.Reduce

noncomputable section

open scoped BigOperators

namespace Cert.KernelIdeal.Tail

open Idealize.ShloMosaic Idealize.ShloMosaic.ValueIdx Cert.KernelIdeal Cert.KernelIdeal.Facts₀

/-- A 2 x 1 x 128 array of extended reals. -/
abbrev Arr : Type := FVec Ideal S2x1x128 .f32
/-- A scalar (rank-0 array) of extended reals. -/
abbrev Scal : Type := FVec Ideal S_ .f32

/-! ## The five reductions -/

/-- The minimum reduce over all axes, from +infinity. -/
def redMin (A : Arr) : Scal :=
  Host.reduce (FloatOps.minimumf (F := Ideal) (φ := .f32)) A (constant (F := Ideal) S_ .f32 0x7F800000#32)
    reducesTo_S2x1x128_S_d0_1_2 h_S_
/-- The maximum reduce over all axes, from -infinity. -/
def redMax (A : Arr) : Scal :=
  Host.reduce (FloatOps.maximumf (F := Ideal) (φ := .f32)) A (constant (F := Ideal) S_ .f32 0xFF800000#32)
    reducesTo_S2x1x128_S_d0_1_2 h_S_
/-- The sum reduce over all axes, from zero. -/
def redAdd (A : Arr) : Scal :=
  Host.reduceAdd (F := Ideal) A (constant (F := Ideal) S_ .f32 0x00000000#32) reducesTo_S2x1x128_S_d0_1_2 h_S_

/-! ## The scalar arithmetic -/

/-- The scalar fix-up on rank-0 arrays, operation by operation as the program has it. -/
def tailS (v3 v4 v6 v7 v8 : Scal) : Scal :=
  let v5 : Scal := subf (F := Ideal) v4 v3
  let v9 : Scal := subf (F := Ideal) (constant (F := Ideal) S_ .f32 0x4C000000#32) v8
  let v10 : Scal := mulf (F := Ideal) v8 v3
  let v11 : Scal := subf (F := Ideal) v7 v10
  let v12 : Scal := Host.divf (F := Ideal) v11 v5
  let v13 : Scal := subf (F := Ideal) v6 v7
  let v14 : Scal := mulf (F := Ideal) v9 v3
  let v15 : Scal := subf (F := Ideal) v13 v14
  let v16 : Scal := Host.divf (F := Ideal) v15 v5
  let v17 : Scal := Host.divf (F := Ideal) v12 v8
  let v18 : Scal := Host.divf (F := Ideal) v16 v9
  let v19 : Scal := minimumf (F := Ideal) v17 v18
  let v20 : Scal := maximumf (F := Ideal) v17 v18
  subf (F := Ideal) v19 v20

/-- The whole tail: the five reductions, the scalar arithmetic, the reshape to one element. -/
def tailFn (A0 A1 A2 A3 A4 : Arr) : FVec Ideal S1 .f32 :=
  shapeCast S1 (tailS (redMin A0) (redMax A1) (redAdd A2) (redAdd A3) (redAdd A4)) shapeCasts_S_S1

/-! ## The tail of the program is that function of the five arrays -/

set_option maxHeartbeats 2000000 in
/-- After the host operations that follow the region, the result buffer holds the tail function of the five arrays
    the region wrote, whatever else the buffers held. -/
theorem tail_after (W : Valuation τ sig (Elt Ideal)) :
    StableHlo.after (Gen.hostOps1 (F := Ideal)) W (Proc.devRef .tc main_v22)
      = tailFn (W (Proc.devRef .tc main_v2_0)) (W (Proc.devRef .tc main_v2_1)) (W (Proc.devRef .tc main_v2_2))
          (W (Proc.devRef .tc main_v2_3)) (W (Proc.devRef .tc main_v2_4)) := by
  after_results_simp
  rfl

/-! ## The reductions at the extended reals -/

/-- The minimum reduce from +infinity over all axes is the infimum of the array. -/
theorem redMin_apply (A : Arr) (k : S_.Idx) : redMin A k = ⨅ i, A i := by
  unfold redMin
  refine (Host.reduce_eq_fold _ A _ reducesTo_S2x1x128_S_d0_1_2 h_S_ k).trans ?_
  rw [Finset.filter_true_of_mem fun i _ => funext fun b => b.elim0]
  have h0 : (constant (F := Ideal) S_ .f32 0x7F800000#32) (Shape.Idx.first h_S_) = (⊤ : EReal) := by
    show Ideal.ofBits .f32 0x7F800000#32 = ⊤
    simp [Ideal.ofBits, Ideal.ieee]
  rw [h0]
  exact Cert.Regroup.fold_min_univ A

/-- The maximum reduce from -infinity over all axes is the supremum of the array. -/
theorem redMax_apply (A : Arr) (k : S_.Idx) : redMax A k = ⨆ i, A i := by
  unfold redMax
  refine (Host.reduce_eq_fold _ A _ reducesTo_S2x1x128_S_d0_1_2 h_S_ k).trans ?_
  rw [Finset.filter_true_of_mem fun i _ => funext fun b => b.elim0]
  have h0 : (constant (F := Ideal) S_ .f32 0xFF800000#32) (Shape.Idx.first h_S_) = (⊥ : EReal) := by
    show Ideal.ofBits .f32 0xFF800000#32 = ⊥
    simp [Ideal.ofBits, Ideal.ieee]
  rw [h0]
  exact Cert.Regroup.fold_max_univ A

/-- The sum reduce from zero over all axes is the sum of the array. -/
theorem redAdd_apply (A : Arr) (k : S_.Idx) : redAdd A k = ∑ i, A i := by
  unfold redAdd
  refine (hostReduceAdd_apply (φ := .f32) A _ reducesTo_S2x1x128_S_d0_1_2 h_S_ k).trans ?_
  refine (Ideal.hostReduceAdd_total reducesTo_S2x1x128_S_d0_1_2 (fun b => b.elim0) A _ k).trans ?_
  show Ideal.ofBits .f32 0x00000000#32 + _ = _
  rw [Ideal.ofBits_zero_f32, zero_add]

/-! ## The one entry of the result -/

/-- The tail's one entry is the scalar epilogue of the infimum of the first array, the supremum of the second and
    the sums of the other three. -/
theorem tailFn_apply (A0 A1 A2 A3 A4 : Arr) (i : S1.Idx) :
    tailFn A0 A1 A2 A3 A4 i
      = Cert.Spec.epi (⨅ k, A0 k) (⨆ k, A1 k) (∑ k, A2 k) (∑ k, A3 k) (∑ k, A4 k) := by
  have key : tailFn A0 A1 A2 A3 A4 i
      = Cert.Spec.epi (redMin A0 ix0) (redMax A1 ix0) (redAdd A2 ix0) (redAdd A3 ix0) (redAdd A4 ix0) := by
    have hk : Shape.reshapeEquiv shapeCasts_S_S1 i = ix0 := funext fun a => a.elim0
    show tailS _ _ _ _ _ (Shape.reshapeEquiv shapeCasts_S_S1 i) = _
    rw [hk]
    rfl
  rw [key, redMin_apply, redMax_apply, redAdd_apply, redAdd_apply, redAdd_apply]

end Cert.KernelIdeal.Tail

end
-- ==== Proof.KValueAux.lean ====
/-
  The kernel's result from its run, given what the five output arrays hold.

  The run leaves every output array of the region as the library computes it from the proof data, and every other
  buffer as the host operations after the region leave it. The result buffer is written by those operations: it
  holds the tail function of the five output arrays, whose one entry is the scalar epilogue of the infimum of the
  first array, the supremum of the second and the sums of the other three. If each array's entry at core q and lane l
  is the corresponding kept row after the last step of core q at lane l, and the epilogue of such arrays is the
  specification's scalar, the result buffer holds that scalar; the two argument buffers are as launched.
-/
import proofs.«166070_j33698313404542_2_alg».proof.Proof.Gen.KernelIdeal.Frame
import proofs.«166070_j33698313404542_2_alg».proof.Proof.KKept
import proofs.«166070_j33698313404542_2_alg».proof.Proof.KTail
import proofs.«166070_j33698313404542_2_alg».proof.Proof.Spec
import proofs.«166070_j33698313404542_2_alg».proof.Proof.Regroup

noncomputable section

namespace Cert.KernelIdeal.Value'

open Cert.KernelIdeal Cert.KernelIdeal.Gen Cert.KernelIdeal.Acc Cert.KernelIdeal.Hand
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The last point of core q is a grid point. -/
theorem last_lt (q : Fin 2) : 16 * q.val + 15 < cfg0.N := by
  have h : cfg0.N = 32 := N_0
  have := q.isLt
  omega

/-- The specification's scalar at core c's arguments. -/
abbrev Gc (c : Dev nD) : EReal :=
  Cert.Spec.G (m ((c.tc : Thread nD τ).loc main_arg0)) (m ((c.tc : Thread nD τ).loc main_arg1))

/-- What is assumed of the five output arrays: entry (q, 0, l) is the kept row after core q's last step at lane l. -/
def ArrsKept (dats : (p : Fin 1) → (c : Dev nD) → Dat τ (Elt Ideal) Unit ℕ (UR sig nD τ) ℕ (cfgs p) c) : Prop :=
  ∀ (c : Dev nD) (q : Fin 2) (l : Fin 128),
    (dats 0 c).arrAt 2 cfg0.N (ix3 q (0 : Fin 1) l) = (keptAt m c (16 * q.val + 15) (last_lt q)).1 (ix3 (0 : Fin 1) (0 : Fin 1) l)
    ∧ (dats 0 c).arrAt 3 cfg0.N (ix3 q (0 : Fin 1) l) = (keptAt m c (16 * q.val + 15) (last_lt q)).2.1 (ix3 (0 : Fin 1) (0 : Fin 1) l)
    ∧ (dats 0 c).arrAt 4 cfg0.N (ix3 q (0 : Fin 1) l) = (keptAt m c (16 * q.val + 15) (last_lt q)).2.2.1 (ix3 (0 : Fin 1) (0 : Fin 1) l)
    ∧ (dats 0 c).arrAt 5 cfg0.N (ix3 q (0 : Fin 1) l) = (keptAt m c (16 * q.val + 15) (last_lt q)).2.2.2.1 (ix3 (0 : Fin 1) (0 : Fin 1) l)
    ∧ (dats 0 c).arrAt 6 cfg0.N (ix3 q (0 : Fin 1) l) = (keptAt m c (16 * q.val + 15) (last_lt q)).2.2.2.2 (ix3 (0 : Fin 1) (0 : Fin 1) l)

/-- What is assumed of the scalar arithmetic: the epilogue of arrays with those entries is the specification's scalar. -/
def EpiKept : Prop :=
  ∀ (c : Dev nD) (A0 A1 A2 A3 A4 : Cert.Regroup.S3.Idx → EReal),
    (∀ (q : Fin 2) (l : Fin 128), A0 (ix3 q (0 : Fin 1) l) = (keptAt m c (16 * q.val + 15) (last_lt q)).1 (ix3 (0 : Fin 1) (0 : Fin 1) l)) →
    (∀ (q : Fin 2) (l : Fin 128), A1 (ix3 q (0 : Fin 1) l) = (keptAt m c (16 * q.val + 15) (last_lt q)).2.1 (ix3 (0 : Fin 1) (0 : Fin 1) l)) →
    (∀ (q : Fin 2) (l : Fin 128), A2 (ix3 q (0 : Fin 1) l) = (keptAt m c (16 * q.val + 15) (last_lt q)).2.2.1 (ix3 (0 : Fin 1) (0 : Fin 1) l)) →
    (∀ (q : Fin 2) (l : Fin 128), A3 (ix3 q (0 : Fin 1) l) = (keptAt m c (16 * q.val + 15) (last_lt q)).2.2.2.1 (ix3 (0 : Fin 1) (0 : Fin 1) l)) →
    (∀ (q : Fin 2) (l : Fin 128), A4 (ix3 q (0 : Fin 1) l) = (keptAt m c (16 * q.val + 15) (last_lt q)).2.2.2.2 (ix3 (0 : Fin 1) (0 : Fin 1) l)) →
    Cert.Spec.epi (⨅ k, A0 k) (⨆ k, A1 k) (∑ k, A2 k) (∑ k, A3 k) (∑ k, A4 k) = Gc m c

/-- The result buffer after the host operations that follow the region. -/
theorem W_main_v22 (dats : (p : Fin 1) → (c : Dev nD) → Dat τ (Elt Ideal) Unit ℕ (UR sig nD τ) ℕ (cfgs p) c)
    (hArr : ArrsKept m dats) (hG : EpiKept m) (c : Dev nD) :
    Pipeline.afterTail₀ cfgs dats 0 (V0 m) [hostOps1] c main_v22 = fun _ => Gc m c := by
  unfold Pipeline.afterTail₀
  show StableHlo.after hostOps1 _ (Proc.devRef .tc main_v22) = _
  refine (Tail.tail_after _).trans ?_
  funext i
  refine (Tail.tailFn_apply _ _ _ _ _ i).trans ?_
  refine hG c _ _ _ _ _ (fun q l => ?_) (fun q l => ?_) (fun q l => ?_) (fun q l => ?_) (fun q l => ?_)
  · exact (congrFun (Pipeline.withArrays_arr spec0 launch0.win.arr_inj c _ _ 2) _).trans (hArr c q l).1
  · exact (congrFun (Pipeline.withArrays_arr spec0 launch0.win.arr_inj c _ _ 3) _).trans (hArr c q l).2.1
  · exact (congrFun (Pipeline.withArrays_arr spec0 launch0.win.arr_inj c _ _ 4) _).trans (hArr c q l).2.2.1
  · exact (congrFun (Pipeline.withArrays_arr spec0 launch0.win.arr_inj c _ _ 5) _).trans (hArr c q l).2.2.2.1
  · exact (congrFun (Pipeline.withArrays_arr spec0 launch0.win.arr_inj c _ _ 6) _).trans (hArr c q l).2.2.2.2

/-- The kernel's run ends with the specification's scalar in the result buffer and the arguments as launched, for any
    proof data whose five output arrays hold the kept rows, given the scalar arithmetic. -/
theorem value_of_aux (dats : (p : Fin 1) → (c : Dev nD) → Dat τ (Elt Ideal) Unit ℕ (UR sig nD τ) ℕ (cfgs p) c)
    (hArr : ArrsKept m dats) (hG : EpiKept m)
    (h : θ_run defs (onTc (τ := τ) (main (F := Ideal))) (s₀ m ρ)
      (Pipeline.FramePost cfgs dats 0 (Pipeline.afterTail₀ cfgs dats 0 (V0 m) [hostOps1]))) :
    θ_run defs (onTc (τ := τ) (main (F := Ideal))) ⟨m, fun _ => 0, ρ⟩ (fun r => ∀ c : Dev nD,
      r.2.mem ((c.tc : Thread nD τ).loc main_v22) = (fun _ => Gc m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v22 (Pipeline.mem_restRefs_of main_v22 (by decide) (by decide))).trans (W_main_v22 m dats hArr hG c),
     ((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

end Cert.KernelIdeal.Value'

end
-- ==== Proof.KOutArr.lean ====
/-
  The five output arrays after the run, from what the staging buffers hold at the two points that write them back.

  Each output array has shape 2 x 1 x 128 and is written back one 1 x 1 x 128 block at a time: block (q, 0, 0) at the
  last point of core q, t = 16 q + 15, and at no other point. The two blocks tile the array. So if the staging buffer
  holds K q after point 16 q + 15, the array ends with row q equal to K q: entry (q, 0, l) is K q at (0, 0, l).
-/
import proofs.«166070_j33698313404542_2_alg».proof.Proof.Gen.KernelIdeal.Frame
import Idealize.ShloMosaic.Lib.Pipeline.Value
import Idealize.ShloMosaic.Lib.Tactic
import Idealize.ShloMosaic.Lib.ValueIdx

noncomputable section

open Idealize.ShloMosaic Idealize.ShloMosaic.TcCoe Idealize.SL.Sem
open Idealize.ShloMosaic.Pipeline (Dat)

namespace Cert.KernelIdeal.OutArr

open Cert.KernelIdeal Cert.KernelIdeal.Gen

variable {F : FTy → Type} [FloatOps F]

/-- The 2 x 1 x 128 array whose row q is K q. -/
def rows (K : Fin 2 → Vec F S1x1x128 .f32) : S2x1x128.Idx → Elt F .f32 :=
  fun i => K (i 0) (ValueIdx.ix3 (0 : Fin 1) (0 : Fin 1) (i 2))

theorem rows_apply (K : Fin 2 → Vec F S1x1x128 .f32) (q : Fin 2) (l : Fin 128) :
    rows K (ValueIdx.ix3 q (0 : Fin 1) l) = K q (ValueIdx.ix3 (0 : Fin 1) (0 : Fin 1) l) := rfl

/-- The printed index map of output window 2 over the 32 grid points: block (t / 16, 0, 0). -/
theorem idx_facts2 : ∀ t : Fin cfg0.N, win0_2.index t (0 : Fin 3) = t.val / 16 ∧ win0_2.index t (1 : Fin 3) = 0
    ∧ win0_2.index t (2 : Fin 3) = 0 :=
  (by decide +kernel : ∀ t : Fin grid0.N, _)

/-- Output window 2: the array after the run, as one function. -/
theorem arr2_eq {c : Dev nD} (dat : Dat τ (Elt F) Unit ℕ (UR sig nD τ) ℕ cfg0 c) (K : Fin 2 → Vec F S1x1x128 .f32)
    (h : ∀ (t : Fin cfg0.N) (q : Fin 2), t.val = 16 * q.val + 15 → dat.after 2 t = K q) :
    dat.arrAt 2 cfg0.N = rows K := by
  have hN : cfg0.N = 32 := N_0
  · refine dat.arrAt_eq_of_cover 2 (rows K) (fun t hf => ?_) (fun i => ?_)
    · have ht := (flush0_2 t).mp hf
      have htl : t.val < 32 := lt_of_lt_of_eq t.isLt hN
      obtain ⟨e0, e1, e2⟩ := idx_facts2 t
      funext y
      rw [View.read_apply]
      show dat.after 2 t ((cfg0.win 2).xinj (grid0.coords t) y) = rows K (((cfg0.win 2).blk t).view.emb y)
      have hq : t.val / 16 < 2 := by omega
      rw [h t ⟨t.val / 16, hq⟩ (by show t.val = 16 * (t.val / 16) + 15; omega)]
      have y0 : (y 0).val < 1 := (y 0).isLt
      have y1 : (y 1).val < 1 := (y 1).isLt
      have a0 : ((((cfg0.win 2).blk t).view.emb y) 0 : Fin 2) = (⟨t.val / 16, hq⟩ : Fin 2) := Fin.ext (by
        show win0_2.index t (0 : Fin 3) * 1 + 1 * (y 0).val = t.val / 16
        rw [e0]; omega)
      have a2 : ValueIdx.ix3 (0 : Fin 1) (0 : Fin 1) ((((cfg0.win 2).blk t).view.emb y) 2 : Fin 128)
          = (cfg0.win 2).xinj (grid0.coords t) y := by
        funext a; apply Fin.ext
        match a with
        | ⟨0, _⟩ => show 0 = (y 0).val; omega
        | ⟨1, _⟩ => show 0 = (y 1).val; omega
        | ⟨2, _⟩ => show win0_2.index t (2 : Fin 3) * 128 + 1 * (y 2).val = (y 2).val; rw [e2]; omega
      show _ = K ((((cfg0.win 2).blk t).view.emb y) 0)
        (ValueIdx.ix3 (0 : Fin 1) (0 : Fin 1) ((((cfg0.win 2).blk t).view.emb y) 2))
      rw [a0]
      exact congrArg (K ⟨t.val / 16, hq⟩) a2.symm
    · have i0 : (i 0).val < 2 := (i 0).isLt
      have i1 : (i 1).val < 1 := (i 1).isLt
      have i2 : (i 2).val < 128 := (i 2).isLt
      obtain ⟨t, htv⟩ : ∃ t : Fin cfg0.N, t.val = 16 * (i 0).val + 15 :=
        ⟨⟨16 * (i 0).val + 15, by rw [hN]; omega⟩, rfl⟩
      obtain ⟨e0, e1, e2⟩ := idx_facts2 t
      refine ⟨t, (flush0_2 t).mpr (by rw [htv]; omega), ?_⟩
      show i ∈ ((View.whole main_v2_0).slice (win0_2.rect t)).set
      rw [View.set_slice_whole, Rect.mem_set_unit]
      intro a
      match a with
      | ⟨0, _⟩ =>
        show win0_2.index t (0 : Fin 3) * 1 ≤ (i 0).val ∧ (i 0).val < win0_2.index t (0 : Fin 3) * 1 + 1
        rw [e0, htv]; omega
      | ⟨1, _⟩ =>
        show win0_2.index t (1 : Fin 3) * 1 ≤ (i 1).val ∧ (i 1).val < win0_2.index t (1 : Fin 3) * 1 + 1
        rw [e1]; omega
      | ⟨2, _⟩ =>
        show win0_2.index t (2 : Fin 3) * 128 ≤ (i 2).val ∧ (i 2).val < win0_2.index t (2 : Fin 3) * 128 + 128
        rw [e2]; omega

/-- Output window 2: the array after the run, entry by entry. -/
theorem arr2 {c : Dev nD} (dat : Dat τ (Elt F) Unit ℕ (UR sig nD τ) ℕ cfg0 c) (K : Fin 2 → Vec F S1x1x128 .f32)
    (h : ∀ (t : Fin cfg0.N) (q : Fin 2), t.val = 16 * q.val + 15 → dat.after 2 t = K q) (q : Fin 2) (l : Fin 128) :
    dat.arrAt 2 cfg0.N (ValueIdx.ix3 q (0 : Fin 1) l) = K q (ValueIdx.ix3 (0 : Fin 1) (0 : Fin 1) l) := by
  rw [arr2_eq dat K h]
  rfl

/-- The printed index map of output window 3 over the 32 grid points: block (t / 16, 0, 0). -/
theorem idx_facts3 : ∀ t : Fin cfg0.N, win0_3.index t (0 : Fin 3) = t.val / 16 ∧ win0_3.index t (1 : Fin 3) = 0
    ∧ win0_3.index t (2 : Fin 3) = 0 :=
  (by decide +kernel : ∀ t : Fin grid0.N, _)

/-- Output window 3: the array after the run, as one function. -/
theorem arr3_eq {c : Dev nD} (dat : Dat τ (Elt F) Unit ℕ (UR sig nD τ) ℕ cfg0 c) (K : Fin 2 → Vec F S1x1x128 .f32)
    (h : ∀ (t : Fin cfg0.N) (q : Fin 2), t.val = 16 * q.val + 15 → dat.after 3 t = K q) :
    dat.arrAt 3 cfg0.N = rows K := by
  have hN : cfg0.N = 32 := N_0
  · refine dat.arrAt_eq_of_cover 3 (rows K) (fun t hf => ?_) (fun i => ?_)
    · have ht := (flush0_3 t).mp hf
      have htl : t.val < 32 := lt_of_lt_of_eq t.isLt hN
      obtain ⟨e0, e1, e2⟩ := idx_facts3 t
      funext y
      rw [View.read_apply]
      show dat.after 3 t ((cfg0.win 3).xinj (grid0.coords t) y) = rows K (((cfg0.win 3).blk t).view.emb y)
      have hq : t.val / 16 < 2 := by omega
      rw [h t ⟨t.val / 16, hq⟩ (by show t.val = 16 * (t.val / 16) + 15; omega)]
      have y0 : (y 0).val < 1 := (y 0).isLt
      have y1 : (y 1).val < 1 := (y 1).isLt
      have a0 : ((((cfg0.win 3).blk t).view.emb y) 0 : Fin 2) = (⟨t.val / 16, hq⟩ : Fin 2) := Fin.ext (by
        show win0_3.index t (0 : Fin 3) * 1 + 1 * (y 0).val = t.val / 16
        rw [e0]; omega)
      have a2 : ValueIdx.ix3 (0 : Fin 1) (0 : Fin 1) ((((cfg0.win 3).blk t).view.emb y) 2 : Fin 128)
          = (cfg0.win 3).xinj (grid0.coords t) y := by
        funext a; apply Fin.ext
        match a with
        | ⟨0, _⟩ => show 0 = (y 0).val; omega
        | ⟨1, _⟩ => show 0 = (y 1).val; omega
        | ⟨2, _⟩ => show win0_3.index t (2 : Fin 3) * 128 + 1 * (y 2).val = (y 2).val; rw [e2]; omega
      show _ = K ((((cfg0.win 3).blk t).view.emb y) 0)
        (ValueIdx.ix3 (0 : Fin 1) (0 : Fin 1) ((((cfg0.win 3).blk t).view.emb y) 2))
      rw [a0]
      exact congrArg (K ⟨t.val / 16, hq⟩) a2.symm
    · have i0 : (i 0).val < 2 := (i 0).isLt
      have i1 : (i 1).val < 1 := (i 1).isLt
      have i2 : (i 2).val < 128 := (i 2).isLt
      obtain ⟨t, htv⟩ : ∃ t : Fin cfg0.N, t.val = 16 * (i 0).val + 15 :=
        ⟨⟨16 * (i 0).val + 15, by rw [hN]; omega⟩, rfl⟩
      obtain ⟨e0, e1, e2⟩ := idx_facts3 t
      refine ⟨t, (flush0_3 t).mpr (by rw [htv]; omega), ?_⟩
      show i ∈ ((View.whole main_v2_1).slice (win0_3.rect t)).set
      rw [View.set_slice_whole, Rect.mem_set_unit]
      intro a
      match a with
      | ⟨0, _⟩ =>
        show win0_3.index t (0 : Fin 3) * 1 ≤ (i 0).val ∧ (i 0).val < win0_3.index t (0 : Fin 3) * 1 + 1
        rw [e0, htv]; omega
      | ⟨1, _⟩ =>
        show win0_3.index t (1 : Fin 3) * 1 ≤ (i 1).val ∧ (i 1).val < win0_3.index t (1 : Fin 3) * 1 + 1
        rw [e1]; omega
      | ⟨2, _⟩ =>
        show win0_3.index t (2 : Fin 3) * 128 ≤ (i 2).val ∧ (i 2).val < win0_3.index t (2 : Fin 3) * 128 + 128
        rw [e2]; omega

/-- Output window 3: the array after the run, entry by entry. -/
theorem arr3 {c : Dev nD} (dat : Dat τ (Elt F) Unit ℕ (UR sig nD τ) ℕ cfg0 c) (K : Fin 2 → Vec F S1x1x128 .f32)
    (h : ∀ (t : Fin cfg0.N) (q : Fin 2), t.val = 16 * q.val + 15 → dat.after 3 t = K q) (q : Fin 2) (l : Fin 128) :
    dat.arrAt 3 cfg0.N (ValueIdx.ix3 q (0 : Fin 1) l) = K q (ValueIdx.ix3 (0 : Fin 1) (0 : Fin 1) l) := by
  rw [arr3_eq dat K h]
  rfl

/-- The printed index map of output window 4 over the 32 grid points: block (t / 16, 0, 0). -/
theorem idx_facts4 : ∀ t : Fin cfg0.N, win0_4.index t (0 : Fin 3) = t.val / 16 ∧ win0_4.index t (1 : Fin 3) = 0
    ∧ win0_4.index t (2 : Fin 3) = 0 :=
  (by decide +kernel : ∀ t : Fin grid0.N, _)

/-- Output window 4: the array after the run, as one function. -/
theorem arr4_eq {c : Dev nD} (dat : Dat τ (Elt F) Unit ℕ (UR sig nD τ) ℕ cfg0 c) (K : Fin 2 → Vec F S1x1x128 .f32)
    (h : ∀ (t : Fin cfg0.N) (q : Fin 2), t.val = 16 * q.val + 15 → dat.after 4 t = K q) :
    dat.arrAt 4 cfg0.N = rows K := by
  have hN : cfg0.N = 32 := N_0
  · refine dat.arrAt_eq_of_cover 4 (rows K) (fun t hf => ?_) (fun i => ?_)
    · have ht := (flush0_4 t).mp hf
      have htl : t.val < 32 := lt_of_lt_of_eq t.isLt hN
      obtain ⟨e0, e1, e2⟩ := idx_facts4 t
      funext y
      rw [View.read_apply]
      show dat.after 4 t ((cfg0.win 4).xinj (grid0.coords t) y) = rows K (((cfg0.win 4).blk t).view.emb y)
      have hq : t.val / 16 < 2 := by omega
      rw [h t ⟨t.val / 16, hq⟩ (by show t.val = 16 * (t.val / 16) + 15; omega)]
      have y0 : (y 0).val < 1 := (y 0).isLt
      have y1 : (y 1).val < 1 := (y 1).isLt
      have a0 : ((((cfg0.win 4).blk t).view.emb y) 0 : Fin 2) = (⟨t.val / 16, hq⟩ : Fin 2) := Fin.ext (by
        show win0_4.index t (0 : Fin 3) * 1 + 1 * (y 0).val = t.val / 16
        rw [e0]; omega)
      have a2 : ValueIdx.ix3 (0 : Fin 1) (0 : Fin 1) ((((cfg0.win 4).blk t).view.emb y) 2 : Fin 128)
          = (cfg0.win 4).xinj (grid0.coords t) y := by
        funext a; apply Fin.ext
        match a with
        | ⟨0, _⟩ => show 0 = (y 0).val; omega
        | ⟨1, _⟩ => show 0 = (y 1).val; omega
        | ⟨2, _⟩ => show win0_4.index t (2 : Fin 3) * 128 + 1 * (y 2).val = (y 2).val; rw [e2]; omega
      show _ = K ((((cfg0.win 4).blk t).view.emb y) 0)
        (ValueIdx.ix3 (0 : Fin 1) (0 : Fin 1) ((((cfg0.win 4).blk t).view.emb y) 2))
      rw [a0]
      exact congrArg (K ⟨t.val / 16, hq⟩) a2.symm
    · have i0 : (i 0).val < 2 := (i 0).isLt
      have i1 : (i 1).val < 1 := (i 1).isLt
      have i2 : (i 2).val < 128 := (i 2).isLt
      obtain ⟨t, htv⟩ : ∃ t : Fin cfg0.N, t.val = 16 * (i 0).val + 15 :=
        ⟨⟨16 * (i 0).val + 15, by rw [hN]; omega⟩, rfl⟩
      obtain ⟨e0, e1, e2⟩ := idx_facts4 t
      refine ⟨t, (flush0_4 t).mpr (by rw [htv]; omega), ?_⟩
      show i ∈ ((View.whole main_v2_2).slice (win0_4.rect t)).set
      rw [View.set_slice_whole, Rect.mem_set_unit]
      intro a
      match a with
      | ⟨0, _⟩ =>
        show win0_4.index t (0 : Fin 3) * 1 ≤ (i 0).val ∧ (i 0).val < win0_4.index t (0 : Fin 3) * 1 + 1
        rw [e0, htv]; omega
      | ⟨1, _⟩ =>
        show win0_4.index t (1 : Fin 3) * 1 ≤ (i 1).val ∧ (i 1).val < win0_4.index t (1 : Fin 3) * 1 + 1
        rw [e1]; omega
      | ⟨2, _⟩ =>
        show win0_4.index t (2 : Fin 3) * 128 ≤ (i 2).val ∧ (i 2).val < win0_4.index t (2 : Fin 3) * 128 + 128
        rw [e2]; omega

/-- Output window 4: the array after the run, entry by entry. -/
theorem arr4 {c : Dev nD} (dat : Dat τ (Elt F) Unit ℕ (UR sig nD τ) ℕ cfg0 c) (K : Fin 2 → Vec F S1x1x128 .f32)
    (h : ∀ (t : Fin cfg0.N) (q : Fin 2), t.val = 16 * q.val + 15 → dat.after 4 t = K q) (q : Fin 2) (l : Fin 128) :
    dat.arrAt 4 cfg0.N (ValueIdx.ix3 q (0 : Fin 1) l) = K q (ValueIdx.ix3 (0 : Fin 1) (0 : Fin 1) l) := by
  rw [arr4_eq dat K h]
  rfl

/-- The printed index map of output window 5 over the 32 grid points: block (t / 16, 0, 0). -/
theorem idx_facts5 : ∀ t : Fin cfg0.N, win0_5.index t (0 : Fin 3) = t.val / 16 ∧ win0_5.index t (1 : Fin 3) = 0
    ∧ win0_5.index t (2 : Fin 3) = 0 :=
  (by decide +kernel : ∀ t : Fin grid0.N, _)

/-- Output window 5: the array after the run, as one function. -/
theorem arr5_eq {c : Dev nD} (dat : Dat τ (Elt F) Unit ℕ (UR sig nD τ) ℕ cfg0 c) (K : Fin 2 → Vec F S1x1x128 .f32)
    (h : ∀ (t : Fin cfg0.N) (q : Fin 2), t.val = 16 * q.val + 15 → dat.after 5 t = K q) :
    dat.arrAt 5 cfg0.N = rows K := by
  have hN : cfg0.N = 32 := N_0
  · refine dat.arrAt_eq_of_cover 5 (rows K) (fun t hf => ?_) (fun i => ?_)
    · have ht := (flush0_5 t).mp hf
      have htl : t.val < 32 := lt_of_lt_of_eq t.isLt hN
      obtain ⟨e0, e1, e2⟩ := idx_facts5 t
      funext y
      rw [View.read_apply]
      show dat.after 5 t ((cfg0.win 5).xinj (grid0.coords t) y) = rows K (((cfg0.win 5).blk t).view.emb y)
      have hq : t.val / 16 < 2 := by omega
      rw [h t ⟨t.val / 16, hq⟩ (by show t.val = 16 * (t.val / 16) + 15; omega)]
      have y0 : (y 0).val < 1 := (y 0).isLt
      have y1 : (y 1).val < 1 := (y 1).isLt
      have a0 : ((((cfg0.win 5).blk t).view.emb y) 0 : Fin 2) = (⟨t.val / 16, hq⟩ : Fin 2) := Fin.ext (by
        show win0_5.index t (0 : Fin 3) * 1 + 1 * (y 0).val = t.val / 16
        rw [e0]; omega)
      have a2 : ValueIdx.ix3 (0 : Fin 1) (0 : Fin 1) ((((cfg0.win 5).blk t).view.emb y) 2 : Fin 128)
          = (cfg0.win 5).xinj (grid0.coords t) y := by
        funext a; apply Fin.ext
        match a with
        | ⟨0, _⟩ => show 0 = (y 0).val; omega
        | ⟨1, _⟩ => show 0 = (y 1).val; omega
        | ⟨2, _⟩ => show win0_5.index t (2 : Fin 3) * 128 + 1 * (y 2).val = (y 2).val; rw [e2]; omega
      show _ = K ((((cfg0.win 5).blk t).view.emb y) 0)
        (ValueIdx.ix3 (0 : Fin 1) (0 : Fin 1) ((((cfg0.win 5).blk t).view.emb y) 2))
      rw [a0]
      exact congrArg (K ⟨t.val / 16, hq⟩) a2.symm
    · have i0 : (i 0).val < 2 := (i 0).isLt
      have i1 : (i 1).val < 1 := (i 1).isLt
      have i2 : (i 2).val < 128 := (i 2).isLt
      obtain ⟨t, htv⟩ : ∃ t : Fin cfg0.N, t.val = 16 * (i 0).val + 15 :=
        ⟨⟨16 * (i 0).val + 15, by rw [hN]; omega⟩, rfl⟩
      obtain ⟨e0, e1, e2⟩ := idx_facts5 t
      refine ⟨t, (flush0_5 t).mpr (by rw [htv]; omega), ?_⟩
      show i ∈ ((View.whole main_v2_3).slice (win0_5.rect t)).set
      rw [View.set_slice_whole, Rect.mem_set_unit]
      intro a
      match a with
      | ⟨0, _⟩ =>
        show win0_5.index t (0 : Fin 3) * 1 ≤ (i 0).val ∧ (i 0).val < win0_5.index t (0 : Fin 3) * 1 + 1
        rw [e0, htv]; omega
      | ⟨1, _⟩ =>
        show win0_5.index t (1 : Fin 3) * 1 ≤ (i 1).val ∧ (i 1).val < win0_5.index t (1 : Fin 3) * 1 + 1
        rw [e1]; omega
      | ⟨2, _⟩ =>
        show win0_5.index t (2 : Fin 3) * 128 ≤ (i 2).val ∧ (i 2).val < win0_5.index t (2 : Fin 3) * 128 + 128
        rw [e2]; omega

/-- Output window 5: the array after the run, entry by entry. -/
theorem arr5 {c : Dev nD} (dat : Dat τ (Elt F) Unit ℕ (UR sig nD τ) ℕ cfg0 c) (K : Fin 2 → Vec F S1x1x128 .f32)
    (h : ∀ (t : Fin cfg0.N) (q : Fin 2), t.val = 16 * q.val + 15 → dat.after 5 t = K q) (q : Fin 2) (l : Fin 128) :
    dat.arrAt 5 cfg0.N (ValueIdx.ix3 q (0 : Fin 1) l) = K q (ValueIdx.ix3 (0 : Fin 1) (0 : Fin 1) l) := by
  rw [arr5_eq dat K h]
  rfl

/-- The printed index map of output window 6 over the 32 grid points: block (t / 16, 0, 0). -/
theorem idx_facts6 : ∀ t : Fin cfg0.N, win0_6.index t (0 : Fin 3) = t.val / 16 ∧ win0_6.index t (1 : Fin 3) = 0
    ∧ win0_6.index t (2 : Fin 3) = 0 :=
  (by decide +kernel : ∀ t : Fin grid0.N, _)

/-- Output window 6: the array after the run, as one function. -/
theorem arr6_eq {c : Dev nD} (dat : Dat τ (Elt F) Unit ℕ (UR sig nD τ) ℕ cfg0 c) (K : Fin 2 → Vec F S1x1x128 .f32)
    (h : ∀ (t : Fin cfg0.N) (q : Fin 2), t.val = 16 * q.val + 15 → dat.after 6 t = K q) :
    dat.arrAt 6 cfg0.N = rows K := by
  have hN : cfg0.N = 32 := N_0
  · refine dat.arrAt_eq_of_cover 6 (rows K) (fun t hf => ?_) (fun i => ?_)
    · have ht := (flush0_6 t).mp hf
      have htl : t.val < 32 := lt_of_lt_of_eq t.isLt hN
      obtain ⟨e0, e1, e2⟩ := idx_facts6 t
      funext y
      rw [View.read_apply]
      show dat.after 6 t ((cfg0.win 6).xinj (grid0.coords t) y) = rows K (((cfg0.win 6).blk t).view.emb y)
      have hq : t.val / 16 < 2 := by omega
      rw [h t ⟨t.val / 16, hq⟩ (by show t.val = 16 * (t.val / 16) + 15; omega)]
      have y0 : (y 0).val < 1 := (y 0).isLt
      have y1 : (y 1).val < 1 := (y 1).isLt
      have a0 : ((((cfg0.win 6).blk t).view.emb y) 0 : Fin 2) = (⟨t.val / 16, hq⟩ : Fin 2) := Fin.ext (by
        show win0_6.index t (0 : Fin 3) * 1 + 1 * (y 0).val = t.val / 16
        rw [e0]; omega)
      have a2 : ValueIdx.ix3 (0 : Fin 1) (0 : Fin 1) ((((cfg0.win 6).blk t).view.emb y) 2 : Fin 128)
          = (cfg0.win 6).xinj (grid0.coords t) y := by
        funext a; apply Fin.ext
        match a with
        | ⟨0, _⟩ => show 0 = (y 0).val; omega
        | ⟨1, _⟩ => show 0 = (y 1).val; omega
        | ⟨2, _⟩ => show win0_6.index t (2 : Fin 3) * 128 + 1 * (y 2).val = (y 2).val; rw [e2]; omega
      show _ = K ((((cfg0.win 6).blk t).view.emb y) 0)
        (ValueIdx.ix3 (0 : Fin 1) (0 : Fin 1) ((((cfg0.win 6).blk t).view.emb y) 2))
      rw [a0]
      exact congrArg (K ⟨t.val / 16, hq⟩) a2.symm
    · have i0 : (i 0).val < 2 := (i 0).isLt
      have i1 : (i 1).val < 1 := (i 1).isLt
      have i2 : (i 2).val < 128 := (i 2).isLt
      obtain ⟨t, htv⟩ : ∃ t : Fin cfg0.N, t.val = 16 * (i 0).val + 15 :=
        ⟨⟨16 * (i 0).val + 15, by rw [hN]; omega⟩, rfl⟩
      obtain ⟨e0, e1, e2⟩ := idx_facts6 t
      refine ⟨t, (flush0_6 t).mpr (by rw [htv]; omega), ?_⟩
      show i ∈ ((View.whole main_v2_4).slice (win0_6.rect t)).set
      rw [View.set_slice_whole, Rect.mem_set_unit]
      intro a
      match a with
      | ⟨0, _⟩ =>
        show win0_6.index t (0 : Fin 3) * 1 ≤ (i 0).val ∧ (i 0).val < win0_6.index t (0 : Fin 3) * 1 + 1
        rw [e0, htv]; omega
      | ⟨1, _⟩ =>
        show win0_6.index t (1 : Fin 3) * 1 ≤ (i 1).val ∧ (i 1).val < win0_6.index t (1 : Fin 3) * 1 + 1
        rw [e1]; omega
      | ⟨2, _⟩ =>
        show win0_6.index t (2 : Fin 3) * 128 ≤ (i 2).val ∧ (i 2).val < win0_6.index t (2 : Fin 3) * 128 + 128
        rw [e2]; omega

/-- Output window 6: the array after the run, entry by entry. -/
theorem arr6 {c : Dev nD} (dat : Dat τ (Elt F) Unit ℕ (UR sig nD τ) ℕ cfg0 c) (K : Fin 2 → Vec F S1x1x128 .f32)
    (h : ∀ (t : Fin cfg0.N) (q : Fin 2), t.val = 16 * q.val + 15 → dat.after 6 t = K q) (q : Fin 2) (l : Fin 128) :
    dat.arrAt 6 cfg0.N (ValueIdx.ix3 q (0 : Fin 1) l) = K q (ValueIdx.ix3 (0 : Fin 1) (0 : Fin 1) l) := by
  rw [arr6_eq dat K h]
  rfl

end Cert.KernelIdeal.OutArr

end
-- ==== Proof.KPay.lean ====
/-
  The kernel's per-step arithmetic read at a lane.

  One step of the kernel takes a block of 8192 rows by 128 lanes of entries, and the block of their labels, and
  forms for every lane five column results: the least entry, the greatest entry, the sum of the entries, the sum
  of the entries whose label is zero and the number of zero labels. The label test is carried as a float: the
  comparison bit of "label = 0", widened to 32 bits and converted, is the indicator 1 or 0. A column minimum is a
  fold of min from +infinity, hence the infimum over the rows; a column maximum is a fold of max from -infinity,
  hence the supremum; the column sums are sums over the rows. The results travel between the shapes [128],
  [1,128] and [1,1,128], which only relabels the lane. On every later step the kept row is combined with the
  block's column result, kept row first: min, max, and three additions.
-/
import proofs.«166070_j33698313404542_2_alg».proof.Proof.KAcc
import proofs.«166070_j33698313404542_2_alg».proof.Proof.Spec
import Idealize.ShloMosaic.Lib.ValueIdx
import Idealize.ShloMosaic.Lib.ValueLayout
import Idealize.ShloMosaic.Lib.Pipeline.Value
import Idealize.ShloMosaic.PureOps.Ideal.Laws
import proofs.«166070_j33698313404542_2_alg».proof.Proof.RegroupFold

noncomputable section

open scoped BigOperators

namespace Cert.KernelIdeal.AccValue

open Idealize.ShloMosaic Idealize.ShloMosaic.ValueIdx Cert.KernelIdeal Cert.KernelIdeal.Gen Cert.Spec

/-! ## The two infinities as f32 patterns -/

/-- The f32 pattern of +infinity denotes the top element. -/
theorem ofBits_pos_inf : Ideal.ofBits .f32 0x7F800000#32 = (⊤ : EReal) := by simp [Ideal.ofBits, Ideal.ieee]

/-- The f32 pattern of -infinity denotes the bottom element. -/
theorem ofBits_neg_inf : Ideal.ofBits .f32 0xFF800000#32 = (⊥ : EReal) := by simp [Ideal.ofBits, Ideal.ieee]

/-! ## The label test as a float -/

/-- A signed integer converted to a float is, at the extended reals, the integer itself. -/
theorem sitofp_ideal {w : Nat} (b : BitVec w) : FloatOps.sitofp (F := Ideal) .f32 b = ((b.toInt : ℝ) : EReal) := rfl

/-- The comparison bit of "v = 0", widened to 32 bits and converted, is the indicator of v = 0. -/
theorem ind_elem (v : BitVec 32) :
    FloatOps.sitofp (F := Ideal) .f32 ((IntOp.cmpi .eq v 0#32).setWidth 32) = ind v := by
  rw [sitofp_ideal]
  unfold ind
  by_cases h : v = 0#32
  · subst h; simp [IntOp.cmpi]
  · rw [if_neg h]
    have hb : (v == 0#32) = false := by simpa using h
    simp [IntOp.cmpi, hb]

/-! ## A reduction over the rows, read at a lane -/

/-- The row index over lane l with row r inserted is (r, l). -/
theorem lift_rows (h : S8192x128.Reduces [0] S128) (l : Fin 128) (k : Fin 8192) :
    h.lift (ix1 l) k = ix2 k l := by
  funext c
  apply Fin.ext
  refine (h.lift_val _ _ _).trans ?_
  match c with
  | ⟨0, _⟩ => simp [Shape.Reduces.liftVal]
  | ⟨1, _⟩ => simp [Shape.Reduces.liftVal]

/-- A minimum reduction over one axis is the fold of min from the accumulator's value over that axis's
    coordinates. -/
theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The column minimum from +infinity at lane l is the infimum over the rows. -/
theorem colmin_apply (src : FVec Ideal S8192x128 .f32) (h : S8192x128.Reduces [0] S128) (hφ : FKind.Formats .f32)
    (hacc : (0x7F800000#32 : BitVec 32) = FKind.minimumf.neutral .f32 hφ) (l : Fin 128) :
    multiReduction .minimumf [0] S128 src 0x7F800000#32 h hφ hacc (ix1 l) = ⨅ r : Fin 8192, src (ix2 r l) := by
  refine (multiReduction_minimumf_single src _ h hφ hacc (ix1 l)).trans ?_
  have e : (src ∘ h.lift (ix1 l)) = fun r : Fin 8192 => src (ix2 r l) :=
    funext fun r => congrArg src (lift_rows h l r)
  rw [e]
  show (Finset.univ : Finset (Fin 8192)).fold min (Ideal.ofBits .f32 0x7F800000#32) _ = _
  rw [ofBits_pos_inf]
  exact Cert.Regroup.fold_min_univ _

/-- The column maximum from -infinity at lane l is the supremum over the rows. -/
theorem colmax_apply (src : FVec Ideal S8192x128 .f32) (h : S8192x128.Reduces [0] S128) (hφ : FKind.Formats .f32)
    (hacc : (0xFF800000#32 : BitVec 32) = FKind.maximumf.neutral .f32 hφ) (l : Fin 128) :
    multiReduction .maximumf [0] S128 src 0xFF800000#32 h hφ hacc (ix1 l) = ⨆ r : Fin 8192, src (ix2 r l) := by
  refine (Ideal.multiReduction_maximumf_single src _ h hφ hacc (ix1 l)).trans ?_
  have e : (src ∘ h.lift (ix1 l)) = fun r : Fin 8192 => src (ix2 r l) :=
    funext fun r => congrArg src (lift_rows h l r)
  rw [e]
  show (Finset.univ : Finset (Fin 8192)).fold max (Ideal.ofBits .f32 0xFF800000#32) _ = _
  rw [ofBits_neg_inf]
  exact Cert.Regroup.fold_max_univ _

/-- The column sum from zero at lane l is the sum over the rows. -/
theorem colsum_apply (src : FVec Ideal S8192x128 .f32) (h : S8192x128.Reduces [0] S128) (hφ : FKind.Formats .f32)
    (hacc : (0x00000000#32 : BitVec 32) = FKind.add.neutral .f32 hφ) (l : Fin 128) :
    multiReduction .add [0] S128 src 0x00000000#32 h hφ hacc (ix1 l) = ∑ r : Fin 8192, src (ix2 r l) := by
  refine (Ideal.multiReduction_add_single src _ h hφ hacc (ix1 l)).trans ?_
  exact Finset.sum_congr rfl (fun r _ => congrArg src (lift_rows h l r))

/-! ## The block and its label indicator -/

/-- The first cast of the entry block is the block itself. -/
theorem pay1_eq (x0 : Vec Ideal S8192x128 .f32) : k0_pay1 x0 = x0 := by
  unfold k0_pay1
  exact shapeCast_self _ _

/-- The label block's float indicator at an index is the indicator of the label there. -/
theorem pay2_apply (y0 : Vec Ideal S8192x128 .i32) (j : S8192x128.Idx) : k0_pay2 y0 j = ind (y0 j) := by
  unfold k0_pay2
  rw [shapeCast_self]
  exact ind_elem (y0 j)

/-! ## The block's column results as rows [1,128] -/

theorem pay3_apply (x0 : Vec Ideal S8192x128 .f32) (l : Fin 128) :
    k0_pay3 x0 (ix2 (0 : Fin 1) l) = ⨅ r : Fin 8192, x0 (ix2 r l) := by
  unfold k0_pay3
  refine (shapeCast_a_1a_apply _ _ (0 : Fin 1) l).trans ?_
  refine (colmin_apply _ _ _ _ l).trans ?_
  rw [pay1_eq]

theorem pay4_apply (x0 : Vec Ideal S8192x128 .f32) (l : Fin 128) :
    k0_pay4 x0 (ix2 (0 : Fin 1) l) = ⨆ r : Fin 8192, x0 (ix2 r l) := by
  unfold k0_pay4
  refine (shapeCast_a_1a_apply _ _ (0 : Fin 1) l).trans ?_
  refine (colmax_apply _ _ _ _ l).trans ?_
  rw [pay1_eq]

theorem pay5_apply (x0 : Vec Ideal S8192x128 .f32) (l : Fin 128) :
    k0_pay5 x0 (ix2 (0 : Fin 1) l) = ∑ r : Fin 8192, x0 (ix2 r l) := by
  unfold k0_pay5
  refine (shapeCast_a_1a_apply _ _ (0 : Fin 1) l).trans ?_
  refine (colsum_apply _ _ _ _ l).trans ?_
  rw [pay1_eq]

theorem pay6_apply (x0 : Vec Ideal S8192x128 .f32) (y0 : Vec Ideal S8192x128 .i32) (l : Fin 128) :
    k0_pay6 x0 y0 (ix2 (0 : Fin 1) l) = ∑ r : Fin 8192, x0 (ix2 r l) * ind (y0 (ix2 r l)) := by
  unfold k0_pay6
  refine (shapeCast_a_1a_apply _ _ (0 : Fin 1) l).trans ?_
  refine (colsum_apply _ _ _ _ l).trans ?_
  refine Finset.sum_congr rfl (fun r _ => ?_)
  rw [mulf_apply, pay1_eq, pay2_apply]

theorem pay7_apply (y0 : Vec Ideal S8192x128 .i32) (l : Fin 128) :
    k0_pay7 y0 (ix2 (0 : Fin 1) l) = ∑ r : Fin 8192, ind (y0 (ix2 r l)) := by
  unfold k0_pay7
  refine (shapeCast_a_1a_apply _ _ (0 : Fin 1) l).trans ?_
  refine (colsum_apply _ _ _ _ l).trans ?_
  exact Finset.sum_congr rfl (fun r _ => pay2_apply y0 _)

/-! ## The first step's rows [1,1,128] -/

/-- The least entry of lane l of the block. -/
theorem pay8_apply (x0 : Vec Ideal S8192x128 .f32) (l : Fin 128) :
    k0_pay8 x0 (ix3 (0 : Fin 1) (0 : Fin 1) l) = ⨅ r : Fin 8192, x0 (ix2 r l) := by
  unfold k0_pay8
  exact (shapeCast_ab_1ab_apply _ _ (0 : Fin 1) (0 : Fin 1) l).trans (pay3_apply x0 l)

/-- The greatest entry of lane l of the block. -/
theorem pay9_apply (x0 : Vec Ideal S8192x128 .f32) (l : Fin 128) :
    k0_pay9 x0 (ix3 (0 : Fin 1) (0 : Fin 1) l) = ⨆ r : Fin 8192, x0 (ix2 r l) := by
  unfold k0_pay9
  exact (shapeCast_ab_1ab_apply _ _ (0 : Fin 1) (0 : Fin 1) l).trans (pay4_apply x0 l)

/-- The sum of lane l of the block. -/
theorem pay10_apply (x0 : Vec Ideal S8192x128 .f32) (l : Fin 128) :
    k0_pay10 x0 (ix3 (0 : Fin 1) (0 : Fin 1) l) = ∑ r : Fin 8192, x0 (ix2 r l) := by
  unfold k0_pay10
  exact (shapeCast_ab_1ab_apply _ _ (0 : Fin 1) (0 : Fin 1) l).trans (pay5_apply x0 l)

/-- The sum of the zero-labelled entries of lane l of the block. -/
theorem pay11_apply (x0 : Vec Ideal S8192x128 .f32) (y0 : Vec Ideal S8192x128 .i32) (l : Fin 128) :
    k0_pay11 x0 y0 (ix3 (0 : Fin 1) (0 : Fin 1) l) = ∑ r : Fin 8192, x0 (ix2 r l) * ind (y0 (ix2 r l)) := by
  unfold k0_pay11
  exact (shapeCast_ab_1ab_apply _ _ (0 : Fin 1) (0 : Fin 1) l).trans (pay6_apply x0 y0 l)

/-- The number of zero labels of lane l of the block. -/
theorem pay12_apply (y0 : Vec Ideal S8192x128 .i32) (l : Fin 128) :
    k0_pay12 y0 (ix3 (0 : Fin 1) (0 : Fin 1) l) = ∑ r : Fin 8192, ind (y0 (ix2 r l)) := by
  unfold k0_pay12
  exact (shapeCast_ab_1ab_apply _ _ (0 : Fin 1) (0 : Fin 1) l).trans (pay7_apply y0 l)

/-! ## A later step: the kept row combined with the block's column result -/

/-- The kept minimum and the block's column minimum. -/
theorem pay14_apply (x0 : Vec Ideal S8192x128 .f32) (a : Vec Ideal S1x1x128 .f32) (l : Fin 128) :
    k0_pay14 (k0_pay3 x0) a (ix3 (0 : Fin 1) (0 : Fin 1) l)
      = min (a (ix3 (0 : Fin 1) (0 : Fin 1) l)) (⨅ r : Fin 8192, x0 (ix2 r l)) := by
  unfold k0_pay14
  refine (shapeCast_ab_1ab_apply _ _ (0 : Fin 1) (0 : Fin 1) l).trans ?_
  rw [minimumf_apply, pay3_apply]
  exact congrArg (fun v => min v _) (shapeCast_1ab_ab_apply _ _ (0 : Fin 1) l)

/-- The kept maximum and the block's column maximum. -/
theorem pay15_apply (x0 : Vec Ideal S8192x128 .f32) (a : Vec Ideal S1x1x128 .f32) (l : Fin 128) :
    k0_pay15 (k0_pay4 x0) a (ix3 (0 : Fin 1) (0 : Fin 1) l)
      = max (a (ix3 (0 : Fin 1) (0 : Fin 1) l)) (⨆ r : Fin 8192, x0 (ix2 r l)) := by
  unfold k0_pay15
  refine (shapeCast_ab_1ab_apply _ _ (0 : Fin 1) (0 : Fin 1) l).trans ?_
  rw [maximumf_apply, pay4_apply]
  exact congrArg (fun v => max v _) (shapeCast_1ab_ab_apply _ _ (0 : Fin 1) l)

/-- The kept sum plus the block's column sum. -/
theorem pay16_apply (x0 : Vec Ideal S8192x128 .f32) (a : Vec Ideal S1x1x128 .f32) (l : Fin 128) :
    k0_pay16 (k0_pay5 x0) a (ix3 (0 : Fin 1) (0 : Fin 1) l)
      = a (ix3 (0 : Fin 1) (0 : Fin 1) l) + ∑ r : Fin 8192, x0 (ix2 r l) := by
  unfold k0_pay16
  refine (shapeCast_ab_1ab_apply _ _ (0 : Fin 1) (0 : Fin 1) l).trans ?_
  rw [addf_apply, pay5_apply]
  exact congrArg (fun v => v + _) (shapeCast_1ab_ab_apply _ _ (0 : Fin 1) l)

/-- The kept zero-label sum plus the block's. -/
theorem pay17_apply (x0 : Vec Ideal S8192x128 .f32) (y0 : Vec Ideal S8192x128 .i32) (a : Vec Ideal S1x1x128 .f32)
    (l : Fin 128) :
    k0_pay17 (k0_pay6 x0 y0) a (ix3 (0 : Fin 1) (0 : Fin 1) l)
      = a (ix3 (0 : Fin 1) (0 : Fin 1) l) + ∑ r : Fin 8192, x0 (ix2 r l) * ind (y0 (ix2 r l)) := by
  unfold k0_pay17
  refine (shapeCast_ab_1ab_apply _ _ (0 : Fin 1) (0 : Fin 1) l).trans ?_
  rw [addf_apply, pay6_apply]
  exact congrArg (fun v => v + _) (shapeCast_1ab_ab_apply _ _ (0 : Fin 1) l)

/-- The kept zero-label count plus the block's. -/
theorem pay13_18_apply (y0 : Vec Ideal S8192x128 .i32) (a : Vec Ideal S1x1x128 .f32) (l : Fin 128) :
    k0_pay13 (k0_pay18 (k0_pay7 y0) a) (ix3 (0 : Fin 1) (0 : Fin 1) l)
      = a (ix3 (0 : Fin 1) (0 : Fin 1) l) + ∑ r : Fin 8192, ind (y0 (ix2 r l)) := by
  unfold k0_pay13 k0_pay18
  refine (shapeCast_ab_1ab_apply _ _ (0 : Fin 1) (0 : Fin 1) l).trans ?_
  rw [addf_apply, pay7_apply]
  exact congrArg (fun v => v + _) (shapeCast_1ab_ab_apply _ _ (0 : Fin 1) l)

end Cert.KernelIdeal.AccValue

end
-- ==== Proof.KAccValue.lean ====
/-
  The five kept rows after a number of steps, in closed form.

  The kernel's kept rows follow a recursion over the step: the first step stores the block's own column results,
  every later step combines the kept row with the block's column result (min, max, and three sums). Read at a lane,
  after step n the rows therefore hold, over the blocks 0..n and their 8192 rows: the infimum of the entries, the
  supremum of the entries, the sum of the entries, the sum of the entries whose label is zero, and the number of
  zero labels. Each is proved by induction on the step: the infimum (supremum) over n+2 blocks is the min (max) of
  the one over the first n+1 and the last block's; a sum over n+2 blocks is the sum over the first n+1 plus the last.
-/
import proofs.«166070_j33698313404542_2_alg».proof.Proof.KPay

noncomputable section

open scoped BigOperators

namespace Cert.KernelIdeal.AccValue

open Idealize.ShloMosaic Idealize.ShloMosaic.ValueIdx Cert.KernelIdeal Cert.KernelIdeal.Gen Cert.Spec
open Cert.KernelIdeal.Acc

variable (bx : ℕ → Vec Ideal S8192x128 .f32) (bl : ℕ → Vec Ideal S8192x128 .i32)

/-- The first step's rows. -/
theorem run_zero : run bx bl 0 = first (bx 0) (bl 0) := rfl

/-- A later step's rows. -/
theorem run_succ (n : ℕ) : run bx bl (n + 1) = next (run bx bl n) (bx (n + 1)) (bl (n + 1)) := rfl

/-- The first step's rows, spelt as a tuple. -/
theorem first_eq {F : FTy → Type} [FloatOps F] (x0 : Vec F S8192x128 .f32) (y0 : Vec F S8192x128 .i32) :
    first x0 y0 = (k0_pay8 x0, k0_pay9 x0, k0_pay10 x0, k0_pay11 x0 y0, k0_pay12 y0) := rfl

/-- A later step's rows, spelt as a tuple. -/
theorem next_eq {F : FTy → Type} [FloatOps F] (a : Acc F) (x0 : Vec F S8192x128 .f32) (y0 : Vec F S8192x128 .i32) :
    next a x0 y0 = (k0_pay14 (k0_pay3 x0) a.1, k0_pay15 (k0_pay4 x0) a.2.1, k0_pay16 (k0_pay5 x0) a.2.2.1,
      k0_pay17 (k0_pay6 x0 y0) a.2.2.2.1, k0_pay13 (k0_pay18 (k0_pay7 y0) a.2.2.2.2)) := rfl

/-! ## The rows of the first step and of a later step, one by one.
    Each is read off the tuple; no payload is unfolded. -/

theorem run_zero_1 : (run bx bl 0).1 = k0_pay8 (bx 0) := by rw [run_zero, first_eq]
theorem run_zero_2 : (run bx bl 0).2.1 = k0_pay9 (bx 0) := by rw [run_zero, first_eq]
theorem run_zero_3 : (run bx bl 0).2.2.1 = k0_pay10 (bx 0) := by rw [run_zero, first_eq]
theorem run_zero_4 : (run bx bl 0).2.2.2.1 = k0_pay11 (bx 0) (bl 0) := by rw [run_zero, first_eq]
theorem run_zero_5 : (run bx bl 0).2.2.2.2 = k0_pay12 (bl 0) := by rw [run_zero, first_eq]

theorem run_succ_1 (n : ℕ) : (run bx bl (n + 1)).1 = k0_pay14 (k0_pay3 (bx (n + 1))) (run bx bl n).1 := by
  rw [run_succ, next_eq]
theorem run_succ_2 (n : ℕ) : (run bx bl (n + 1)).2.1 = k0_pay15 (k0_pay4 (bx (n + 1))) (run bx bl n).2.1 := by
  rw [run_succ, next_eq]
theorem run_succ_3 (n : ℕ) : (run bx bl (n + 1)).2.2.1 = k0_pay16 (k0_pay5 (bx (n + 1))) (run bx bl n).2.2.1 := by
  rw [run_succ, next_eq]
theorem run_succ_4 (n : ℕ) :
    (run bx bl (n + 1)).2.2.2.1 = k0_pay17 (k0_pay6 (bx (n + 1)) (bl (n + 1))) (run bx bl n).2.2.2.1 := by
  rw [run_succ, next_eq]
theorem run_succ_5 (n : ℕ) :
    (run bx bl (n + 1)).2.2.2.2 = k0_pay13 (k0_pay18 (k0_pay7 (bl (n + 1))) (run bx bl n).2.2.2.2) := by
  rw [run_succ, next_eq]

/-! ## The closed forms -/

/-- The kept minimum after step n: the least entry of lane l over the blocks 0..n. -/
theorem run_min (n : ℕ) (l : Fin 128) :
    (run bx bl n).1 (ix3 (0 : Fin 1) (0 : Fin 1) l)
      = ⨅ j : Fin (n + 1), ⨅ r : Fin 8192, bx j (ix2 r l) := by
  induction n with
  | zero =>
    rw [run_zero_1, pay8_apply]
    exact (Cert.Regroup.iInf_fin_one (fun j : Fin 1 => ⨅ r : Fin 8192, bx j (ix2 r l))).symm
  | succ n ih =>
    rw [run_succ_1, pay14_apply, ih]
    exact (Cert.Regroup.iInf_fin_add_two (fun j : Fin (n + 2) => ⨅ r : Fin 8192, bx j (ix2 r l))).symm

/-- The kept maximum after step n: the greatest entry of lane l over the blocks 0..n. -/
theorem run_max (n : ℕ) (l : Fin 128) :
    (run bx bl n).2.1 (ix3 (0 : Fin 1) (0 : Fin 1) l)
      = ⨆ j : Fin (n + 1), ⨆ r : Fin 8192, bx j (ix2 r l) := by
  induction n with
  | zero =>
    rw [run_zero_2, pay9_apply]
    exact (Cert.Regroup.iSup_fin_one (fun j : Fin 1 => ⨆ r : Fin 8192, bx j (ix2 r l))).symm
  | succ n ih =>
    rw [run_succ_2, pay15_apply, ih]
    exact (Cert.Regroup.iSup_fin_add_two (fun j : Fin (n + 2) => ⨆ r : Fin 8192, bx j (ix2 r l))).symm

/-- The kept sum after step n: the sum of lane l over the blocks 0..n. -/
theorem run_sum (n : ℕ) (l : Fin 128) :
    (run bx bl n).2.2.1 (ix3 (0 : Fin 1) (0 : Fin 1) l)
      = ∑ j : Fin (n + 1), ∑ r : Fin 8192, bx j (ix2 r l) := by
  induction n with
  | zero =>
    rw [run_zero_3, pay10_apply]
    exact (Fin.sum_univ_one (fun j : Fin 1 => ∑ r : Fin 8192, bx j (ix2 r l))).symm
  | succ n ih =>
    rw [run_succ_3, pay16_apply, ih]
    exact (Fin.sum_univ_castSucc (fun j : Fin (n + 2) => ∑ r : Fin 8192, bx j (ix2 r l))).symm

/-- The kept zero-label sum after step n: the sum of the zero-labelled entries of lane l over the blocks 0..n. -/
theorem run_sum0 (n : ℕ) (l : Fin 128) :
    (run bx bl n).2.2.2.1 (ix3 (0 : Fin 1) (0 : Fin 1) l)
      = ∑ j : Fin (n + 1), ∑ r : Fin 8192, bx j (ix2 r l) * ind (bl j (ix2 r l)) := by
  induction n with
  | zero =>
    rw [run_zero_4, pay11_apply]
    exact (Fin.sum_univ_one (fun j : Fin 1 => ∑ r : Fin 8192, bx j (ix2 r l) * ind (bl j (ix2 r l)))).symm
  | succ n ih =>
    rw [run_succ_4, pay17_apply, ih]
    exact (Fin.sum_univ_castSucc (fun j : Fin (n + 2) => ∑ r : Fin 8192, bx j (ix2 r l) * ind (bl j (ix2 r l)))).symm

/-- The kept zero-label count after step n: the number of zero labels of lane l over the blocks 0..n. -/
theorem run_cnt0 (n : ℕ) (l : Fin 128) :
    (run bx bl n).2.2.2.2 (ix3 (0 : Fin 1) (0 : Fin 1) l)
      = ∑ j : Fin (n + 1), ∑ r : Fin 8192, ind (bl j (ix2 r l)) := by
  induction n with
  | zero =>
    rw [run_zero_5, pay12_apply]
    exact (Fin.sum_univ_one (fun j : Fin 1 => ∑ r : Fin 8192, ind (bl j (ix2 r l)))).symm
  | succ n ih =>
    rw [run_succ_5, pay13_18_apply, ih]
    exact (Fin.sum_univ_castSucc (fun j : Fin (n + 2) => ∑ r : Fin 8192, ind (bl j (ix2 r l)))).symm

end Cert.KernelIdeal.AccValue

end
-- ==== Proof.KBlocks.lean ====
/-
  The two input windows' blocks are rows of the argument arrays.

  Each argument array of 33,554,432 entries is staged as a 262,144 x 128 array with the same entries in row-major
  order, and the block of grid point t (of 32) is its rows 8192 t .. 8192 t + 8191. With t = 16 q + j, entry (r, l) of
  that block is the argument's entry at the flat position ((16 q + j) 8192 + r) 128 + l.
-/
import proofs.«166070_j33698313404542_2_alg».proof.Proof.Gen.KernelIdeal.Frame
import proofs.«166070_j33698313404542_2_alg».proof.Proof.Regroup
import Idealize.ShloMosaic.Lib.Pipeline.Value
import Idealize.ShloMosaic.Lib.Tactic
import Idealize.ShloMosaic.Lib.ValueIdx

noncomputable section

open Idealize.ShloMosaic Idealize.ShloMosaic.TcCoe Idealize.SL.Sem

namespace Cert.KernelIdeal.Blocks

open Cert.KernelIdeal Cert.KernelIdeal.Gen

variable {F : FTy → Type} [FloatOps F]
variable (m : (ℓ : Loc nD τ sig) → Buf (Elt F) ℓ)

/-- The staged array 0 is the first argument under the 262,144 x 128 shape. -/
theorem V_v0 (c : Dev nD) :
    (V m c main_v0 : S262144x128.Idx → Elt F .f32)
      = shapeCast S262144x128 (m ((c : Thread nD τ).loc main_arg0) : S33554432.Idx → Elt F .f32)
          shapeCasts_S33554432_S262144x128 := by
  show StableHlo.after hostOps0 (fun b => m (c, b)) (Proc.devRef .tc main_v0) = _
  after_results
  rfl

/-- The staged array 1 is the second argument under the 262,144 x 128 shape. -/
theorem V_v1 (c : Dev nD) :
    (V m c main_v1 : S262144x128.Idx → Elt F .i32)
      = shapeCast S262144x128 (m ((c : Thread nD τ).loc main_arg1) : S33554432.Idx → Elt F .i32)
          shapeCasts_S33554432_S262144x128 := by
  show StableHlo.after hostOps0 (fun b => m (c, b)) (Proc.devRef .tc main_v1) = _
  after_results
  rfl

/-- The printed index maps over the 32 grid points: block row t, block column 0, for both input windows. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Entry (r, l) of input window 0's block at point t = 16 q + j is the first argument's entry at the flat
    position ((16 q + j) 8192 + r) 128 + l. -/
theorem iblk0_apply (c : Dev nD) (t : Fin cfg0.N) (q : Fin 2) (j : Fin 16) (ht : t.val = 16 * q.val + j.val)
    (r : Fin 8192) (l : Fin 128) :
    (iblk m c 0 t : Vec F S8192x128 .f32) (ValueIdx.ix2 r l)
      = (m ((c : Thread nD τ).loc main_arg0) : S33554432.Idx → Elt F .f32) (Cert.Regroup.flat q j r l) := by
  obtain ⟨h0, h1, -, -⟩ := idx_facts t
  unfold iblk
  rw [View.read_apply]
  show V m c main_v0 _ = _
  rw [V_v0]
  refine shapeCast_apply _ _ _ _ ?_
  show ((⟨1, ![33554432]⟩ : Shape).rowMajor (Cert.Regroup.flat q j r l)).val
    = ((⟨2, ![262144, 128]⟩ : Shape).rowMajor _).val
  rw [Shape.rowMajor_val_one, Shape.rowMajor_val_two, Cert.Regroup.flat_val]
  show _ = (win0_0.index t (0 : Fin 2) * 8192 + 1 * r.val) * 128 + (win0_0.index t (1 : Fin 2) * 128 + 1 * l.val)
  rw [h0, h1, ht]
  omega

/-- Entry (r, l) of input window 1's block at point t = 16 q + j is the second argument's entry at the flat
    position ((16 q + j) 8192 + r) 128 + l. -/
theorem iblk1_apply (c : Dev nD) (t : Fin cfg0.N) (q : Fin 2) (j : Fin 16) (ht : t.val = 16 * q.val + j.val)
    (r : Fin 8192) (l : Fin 128) :
    (iblk m c 1 t : IVec S8192x128 32) (ValueIdx.ix2 r l)
      = (m ((c : Thread nD τ).loc main_arg1) : S33554432.Idx → Elt F .i32) (Cert.Regroup.flat q j r l) := by
  obtain ⟨-, -, h0, h1⟩ := idx_facts t
  unfold iblk
  rw [View.read_apply]
  show V m c main_v1 _ = _
  rw [V_v1]
  refine shapeCast_apply _ _ _ _ ?_
  show ((⟨1, ![33554432]⟩ : Shape).rowMajor (Cert.Regroup.flat q j r l)).val
    = ((⟨2, ![262144, 128]⟩ : Shape).rowMajor _).val
  rw [Shape.rowMajor_val_one, Shape.rowMajor_val_two, Cert.Regroup.flat_val]
  show _ = (win0_1.index t (0 : Fin 2) * 8192 + 1 * r.val) * 128 + (win0_1.index t (1 : Fin 2) * 128 + 1 * l.val)
  rw [h0, h1, ht]
  omega

end Cert.KernelIdeal.Blocks

end
-- ==== Proof.KKeptValue.lean ====
/-
  The kernel's five lane values after a core's sweep, and the final scalar.

  A core q (of two) sweeps sixteen blocks, the grid points 16 q .. 16 q + 15. The kept rows after point 16 q + j are
  the recursion over the step run for j steps on that core's blocks (induction on j: the point 16 q is a first step,
  every other point of the core is a later step). After the core's last point the rows therefore hold, lane by lane,
  the infimum, the supremum and the sum of the entries, the sum of the zero-labelled entries and the number of zero
  labels, over the core's sixteen blocks and their 8192 rows. An entry (r, l) of block j of core q is the entry of
  the flat argument at position ((16 q + j) 8192 + r) 128 + l, and those positions, over both cores, all lanes, steps
  and rows, are all positions of the argument exactly once. Hence the five aggregates over the 2 x 1 x 128 arrays of
  lane values are the five aggregates of the whole arguments, and the scalar formed from them is the specification's.
-/
import proofs.«166070_j33698313404542_2_alg».proof.Proof.KKept
import proofs.«166070_j33698313404542_2_alg».proof.Proof.KAccValue
import proofs.«166070_j33698313404542_2_alg».proof.Proof.KBlocks
import proofs.«166070_j33698313404542_2_alg».proof.Proof.Regroup
import proofs.«166070_j33698313404542_2_alg».proof.Proof.Spec

noncomputable section

open scoped BigOperators

namespace Cert.KernelIdeal.KeptValue

open Idealize.ShloMosaic Idealize.ShloMosaic.TcCoe Idealize.SL.Sem Idealize.ShloMosaic.ValueIdx
open Cert.KernelIdeal Cert.KernelIdeal.Gen Cert.KernelIdeal.Acc Cert.KernelIdeal.Hand Cert.KernelIdeal.AccValue
open Cert.Spec Cert.Regroup

variable (m : (ℓ : Loc nD τ sig) → Buf (Elt Ideal) ℓ) (c : Dev nD)

/-! ## The grid points of a core -/

/-- The sweep has 32 points. -/
theorem N_eq : cfg0.N = 32 := N_0

/-- Point 16 q + k, for a step k below 16, is a point of the sweep. -/
theorem pt_lt (q : Fin 2) (k : ℕ) (hk : k < 16) : 16 * q.val + k < cfg0.N := by
  have := q.isLt
  rw [N_eq]
  omega

/-- The same with the step taken mod 16. -/
theorem core_lt (q : Fin 2) (k : ℕ) : 16 * q.val + k % 16 < cfg0.N :=
  pt_lt q (k % 16) (Nat.mod_lt _ (by norm_num))

/-- The last point of core q. -/
theorem last_lt (q : Fin 2) : 16 * q.val + 15 < cfg0.N := pt_lt q 15 (by norm_num)

/-- The entry blocks of core q by step (the step taken mod 16). -/
abbrev coreX (q : Fin 2) : ℕ → Vec Ideal S8192x128 .f32 := fun k => bx m c ⟨16 * q.val + k % 16, core_lt q k⟩

/-- The label blocks of core q by step (the step taken mod 16). -/
abbrev coreL (q : Fin 2) : ℕ → Vec Ideal S8192x128 .i32 := fun k => bl m c ⟨16 * q.val + k % 16, core_lt q k⟩

/-- The first argument as a flat array of extended reals. -/
abbrev X : SN.Idx → EReal := (m ((c : Thread nD τ).loc main_arg0) : S33554432.Idx → Elt Ideal .f32)

/-- The second argument as a flat array of labels. -/
abbrev Y : SN.Idx → BitVec 32 := (m ((c : Thread nD τ).loc main_arg1) : S33554432.Idx → Elt Ideal .i32)

/-! ## The kept rows of a core are the recursion run on its blocks -/

/-- The kept rows depend on the point only. -/
theorem keptAt_congr {n n' : ℕ} (e : n = n') (h : n < cfg0.N) (h' : n' < cfg0.N) :
    keptAt m c n h = keptAt m c n' h' := by
  subst e; rfl

/-- After point 16 q + j the kept rows are the recursion run for j steps on core q's blocks. -/
theorem keptAt_eq_run_nat (q : Fin 2) (j : ℕ) (hj : j < 16) :
    keptAt m c (16 * q.val + j) (pt_lt q j hj) = run (coreX m c q) (coreL m c q) j := by
  induction j with
  | zero =>
    rw [run_zero]
    have h0 := keptAt_first m c ⟨16 * q.val + 0, pt_lt q 0 hj⟩ (by show (16 * q.val + 0) % 16 = 0; omega)
    refine h0.trans ?_
    have e : (⟨16 * q.val + 0, pt_lt q 0 hj⟩ : Fin cfg0.N) = ⟨16 * q.val + 0 % 16, core_lt q 0⟩ :=
      Fin.ext (by show 16 * q.val + 0 = 16 * q.val + 0 % 16; omega)
    rw [e]
  | succ j ih =>
    rw [run_succ]
    have hj' : j < 16 := by omega
    have h1 := keptAt_next m c ⟨16 * q.val + (j + 1), pt_lt q (j + 1) hj⟩
      (by show ¬ (16 * q.val + (j + 1)) % 16 = 0; omega)
    refine h1.trans ?_
    have e : (⟨16 * q.val + (j + 1), pt_lt q (j + 1) hj⟩ : Fin cfg0.N)
        = ⟨16 * q.val + (j + 1) % 16, core_lt q (j + 1)⟩ :=
      Fin.ext (by show 16 * q.val + (j + 1) = 16 * q.val + (j + 1) % 16; omega)
    have ek := (keptAt_congr m c (show 16 * q.val + (j + 1) - 1 = 16 * q.val + j by omega)
      (Nat.lt_of_le_of_lt (Nat.sub_le _ _) (pt_lt q (j + 1) hj)) (pt_lt q j hj')).trans (ih hj')
    exact congr (congr (congrArg next ek) (congrArg (bx m c) e)) (congrArg (bl m c) e)

/-- The same, the step as an element of Fin 16. -/
theorem keptAt_eq_run (q : Fin 2) (j : Fin 16) :
    keptAt m c (16 * q.val + j.val) (pt_lt q j.val j.isLt) = run (coreX m c q) (coreL m c q) j.val :=
  keptAt_eq_run_nat m c q j.val j.isLt

/-- After the core's last point: the recursion run for fifteen further steps. -/
theorem keptAt_last (q : Fin 2) :
    keptAt m c (16 * q.val + 15) (last_lt q) = run (coreX m c q) (coreL m c q) 15 :=
  keptAt_eq_run_nat m c q 15 (by norm_num)

/-! ## The blocks of a core are stretches of the flat arguments -/

theorem coreX_apply (q : Fin 2) (j : Fin 16) (r : Fin 8192) (l : Fin 128) :
    coreX m c q j.val (ix2 r l) = X m c (flat q j r l) :=
  Blocks.iblk0_apply m c ⟨16 * q.val + j.val % 16, core_lt q j.val⟩ q j
    (by show 16 * q.val + j.val % 16 = 16 * q.val + j.val; have := j.isLt; omega) r l

theorem coreL_apply (q : Fin 2) (j : Fin 16) (r : Fin 8192) (l : Fin 128) :
    coreL m c q j.val (ix2 r l) = Y m c (flat q j r l) :=
  Blocks.iblk1_apply m c ⟨16 * q.val + j.val % 16, core_lt q j.val⟩ q j
    (by show 16 * q.val + j.val % 16 = 16 * q.val + j.val; have := j.isLt; omega) r l

/-! ## The five lane values after a core's last point -/

/-- The least entry of lane l over core q's sweep. -/
theorem lane_min (q : Fin 2) (l : Fin 128) :
    (keptAt m c (16 * q.val + 15) (last_lt q)).1 (ix3 (0 : Fin 1) (0 : Fin 1) l)
      = ⨅ (j : Fin 16) (r : Fin 8192), X m c (flat q j r l) := by
  rw [keptAt_last, run_min]
  exact iInf_congr fun j => iInf_congr fun r => coreX_apply m c q j r l

/-- The greatest entry of lane l over core q's sweep. -/
theorem lane_max (q : Fin 2) (l : Fin 128) :
    (keptAt m c (16 * q.val + 15) (last_lt q)).2.1 (ix3 (0 : Fin 1) (0 : Fin 1) l)
      = ⨆ (j : Fin 16) (r : Fin 8192), X m c (flat q j r l) := by
  rw [keptAt_last, run_max]
  exact iSup_congr fun j => iSup_congr fun r => coreX_apply m c q j r l

/-- The sum of lane l over core q's sweep. -/
theorem lane_sum (q : Fin 2) (l : Fin 128) :
    (keptAt m c (16 * q.val + 15) (last_lt q)).2.2.1 (ix3 (0 : Fin 1) (0 : Fin 1) l)
      = ∑ j : Fin 16, ∑ r : Fin 8192, X m c (flat q j r l) := by
  rw [keptAt_last, run_sum]
  exact Finset.sum_congr rfl fun j _ => Finset.sum_congr rfl fun r _ => coreX_apply m c q j r l

/-- The sum of the zero-labelled entries of lane l over core q's sweep. -/
theorem lane_sum0 (q : Fin 2) (l : Fin 128) :
    (keptAt m c (16 * q.val + 15) (last_lt q)).2.2.2.1 (ix3 (0 : Fin 1) (0 : Fin 1) l)
      = ∑ j : Fin 16, ∑ r : Fin 8192, X m c (flat q j r l) * ind (Y m c (flat q j r l)) := by
  rw [keptAt_last, run_sum0]
  refine Finset.sum_congr rfl fun j _ => Finset.sum_congr rfl fun r _ => ?_
  rw [coreX_apply m c q j r l, coreL_apply m c q j r l]

/-- The number of zero labels of lane l over core q's sweep. -/
theorem lane_cnt0 (q : Fin 2) (l : Fin 128) :
    (keptAt m c (16 * q.val + 15) (last_lt q)).2.2.2.2 (ix3 (0 : Fin 1) (0 : Fin 1) l)
      = ∑ j : Fin 16, ∑ r : Fin 8192, ind (Y m c (flat q j r l)) := by
  rw [keptAt_last, run_cnt0]
  exact Finset.sum_congr rfl fun j _ => Finset.sum_congr rfl fun r _ =>
    congrArg ind (coreL_apply m c q j r l)

/-! ## The scalar -/

/-- If five 2 x 1 x 128 arrays hold, at (q, 0, l), the five lane values of core q, the scalar formed from their
    infimum, supremum and sums is the specification's scalar of the two arguments. -/
theorem epi_eq_G (A0 A1 A2 A3 A4 : S3.Idx → EReal)
    (hA0 : ∀ (q : Fin 2) (l : Fin 128), A0 (ix3 q (0 : Fin 1) l)
      = (keptAt m c (16 * q.val + 15) (last_lt q)).1 (ix3 (0 : Fin 1) (0 : Fin 1) l))
    (hA1 : ∀ (q : Fin 2) (l : Fin 128), A1 (ix3 q (0 : Fin 1) l)
      = (keptAt m c (16 * q.val + 15) (last_lt q)).2.1 (ix3 (0 : Fin 1) (0 : Fin 1) l))
    (hA2 : ∀ (q : Fin 2) (l : Fin 128), A2 (ix3 q (0 : Fin 1) l)
      = (keptAt m c (16 * q.val + 15) (last_lt q)).2.2.1 (ix3 (0 : Fin 1) (0 : Fin 1) l))
    (hA3 : ∀ (q : Fin 2) (l : Fin 128), A3 (ix3 q (0 : Fin 1) l)
      = (keptAt m c (16 * q.val + 15) (last_lt q)).2.2.2.1 (ix3 (0 : Fin 1) (0 : Fin 1) l))
    (hA4 : ∀ (q : Fin 2) (l : Fin 128), A4 (ix3 q (0 : Fin 1) l)
      = (keptAt m c (16 * q.val + 15) (last_lt q)).2.2.2.2 (ix3 (0 : Fin 1) (0 : Fin 1) l)) :
    epi (⨅ k, A0 k) (⨆ k, A1 k) (∑ k, A2 k) (∑ k, A3 k) (∑ k, A4 k) = G (X m c) (Y m c) := by
  have e0 : ⨅ k, A0 k = xmin (X m c) :=
    iInf_idx3_eq_iInf_flat (X m c) A0 fun q l => (hA0 q l).trans (lane_min m c q l)
  have e1 : ⨆ k, A1 k = xmax (X m c) :=
    iSup_idx3_eq_iSup_flat (X m c) A1 fun q l => (hA1 q l).trans (lane_max m c q l)
  have e2 : ∑ k, A2 k = stot (X m c) :=
    sum_idx3_eq_sum_flat (X m c) A2 fun q l => (hA2 q l).trans (lane_sum m c q l)
  have e3 : ∑ k, A3 k = s0raw (X m c) (Y m c) :=
    sum_idx3_eq_sum_flat (fun i => X m c i * ind (Y m c i)) A3 fun q l => (hA3 q l).trans (lane_sum0 m c q l)
  have e4 : ∑ k, A4 k = n0 (Y m c) :=
    sum_idx3_eq_sum_flat (fun i => ind (Y m c i)) A4 fun q l => (hA4 q l).trans (lane_cnt0 m c q l)
  rw [e0, e1, e2, e3, e4]
  rfl

end Cert.KernelIdeal.KeptValue

end
-- ==== Proof.KValue.lean ====
/-
  The kernel's value: its run ends with the specification's scalar in the result buffer.

  For any proof data whose staging buffers of the five output windows hold, after the last step of each core, the five
  kept rows of that core, each output array ends with row q equal to core q's kept row (the two write-backs tile the
  array), and the scalar epilogue of arrays with those rows is the specification's scalar of the two arguments. So the
  run ends with that scalar in the result buffer and the two arguments as launched.
-/
import proofs.«166070_j33698313404542_2_alg».proof.Proof.KValueAux
import proofs.«166070_j33698313404542_2_alg».proof.Proof.KOutArr
import proofs.«166070_j33698313404542_2_alg».proof.Proof.KKeptValue

noncomputable section

namespace Cert.KernelIdeal.Value'

open Cert.KernelIdeal Cert.KernelIdeal.Gen Cert.KernelIdeal.Acc Cert.KernelIdeal.Hand
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The kept rows after a point whose number is 16 q + 15 are those after the last point of core q. -/
theorem keptAt_at_last (c : Dev nD) (t : Fin cfg0.N) (q : Fin 2) (ht : t.val = 16 * q.val + 15) :
    keptAt m c t.val t.isLt = keptAt m c (16 * q.val + 15) (last_lt q) := by
  obtain ⟨n, hn⟩ := t
  have e : n = 16 * q.val + 15 := ht
  subst e
  rfl

/-- What the staging buffers of the five output windows hold after the last step of each core. -/
def AfterKept (dats : (p : Fin 1) → (c : Dev nD) → Dat τ (Elt Ideal) Unit ℕ (UR sig nD τ) ℕ (cfgs p) c) : Prop :=
  ∀ (c : Dev nD) (t : Fin cfg0.N) (q : Fin 2), t.val = 16 * q.val + 15 →
    (dats 0 c).after 2 t = (keptAt m c t.val t.isLt).1
    ∧ (dats 0 c).after 3 t = (keptAt m c t.val t.isLt).2.1
    ∧ (dats 0 c).after 4 t = (keptAt m c t.val t.isLt).2.2.1
    ∧ (dats 0 c).after 5 t = (keptAt m c t.val t.isLt).2.2.2.1
    ∧ (dats 0 c).after 6 t = (keptAt m c t.val t.isLt).2.2.2.2

/-- From the staging buffers to the arrays: each output array's row q is core q's kept row. -/
theorem arrsKept_of (dats : (p : Fin 1) → (c : Dev nD) → Dat τ (Elt Ideal) Unit ℕ (UR sig nD τ) ℕ (cfgs p) c)
    (hafter : AfterKept m dats) : ArrsKept m dats := fun c q l =>
  ⟨OutArr.arr2 (dats 0 c) (fun q => (keptAt m c (16 * q.val + 15) (last_lt q)).1)
      (fun t q ht => (hafter c t q ht).1.trans (congrArg (fun a : Acc Ideal => a.1) (keptAt_at_last m c t q ht))) q l,
   OutArr.arr3 (dats 0 c) (fun q => (keptAt m c (16 * q.val + 15) (last_lt q)).2.1)
      (fun t q ht => (hafter c t q ht).2.1.trans (congrArg (fun a : Acc Ideal => a.2.1) (keptAt_at_last m c t q ht))) q l,
   OutArr.arr4 (dats 0 c) (fun q => (keptAt m c (16 * q.val + 15) (last_lt q)).2.2.1)
      (fun t q ht => (hafter c t q ht).2.2.1.trans (congrArg (fun a : Acc Ideal => a.2.2.1) (keptAt_at_last m c t q ht))) q l,
   OutArr.arr5 (dats 0 c) (fun q => (keptAt m c (16 * q.val + 15) (last_lt q)).2.2.2.1)
      (fun t q ht => (hafter c t q ht).2.2.2.1.trans (congrArg (fun a : Acc Ideal => a.2.2.2.1) (keptAt_at_last m c t q ht))) q l,
   OutArr.arr6 (dats 0 c) (fun q => (keptAt m c (16 * q.val + 15) (last_lt q)).2.2.2.2)
      (fun t q ht => (hafter c t q ht).2.2.2.2.trans (congrArg (fun a : Acc Ideal => a.2.2.2.2) (keptAt_at_last m c t q ht))) q l⟩

/-- The scalar arithmetic: the epilogue of arrays whose rows are the kept rows is the specification's scalar. -/
theorem epiKept : EpiKept m := fun c A0 A1 A2 A3 A4 h0 h1 h2 h3 h4 =>
  KeptValue.epi_eq_G m c A0 A1 A2 A3 A4 h0 h1 h2 h3 h4

/-- THE KERNEL'S VALUE from a frame run: for any proof data whose arrays are the region-entry contents and whose
    output staging buffers hold the kept rows after each core's last step, the run ends with the specification's
    scalar in the result buffer and the arguments as launched. -/
theorem value_of (dats : (p : Fin 1) → (c : Dev nD) → Dat τ (Elt Ideal) Unit ℕ (UR sig nD τ) ℕ (cfgs p) c)
    (hA : ∀ c w, (dats 0 c).A w = V m c (Pipeline.arrRef spec0 w))
    (hafter : ∀ (c : Dev nD) (t : Fin cfg0.N) (q : Fin 2), t.val = 16 * q.val + 15 →
      (dats 0 c).after 2 t = (keptAt m c t.val t.isLt).1
      ∧ (dats 0 c).after 3 t = (keptAt m c t.val t.isLt).2.1
      ∧ (dats 0 c).after 4 t = (keptAt m c t.val t.isLt).2.2.1
      ∧ (dats 0 c).after 5 t = (keptAt m c t.val t.isLt).2.2.2.1
      ∧ (dats 0 c).after 6 t = (keptAt m c t.val t.isLt).2.2.2.2)
    (h : θ_run defs (onTc (τ := τ) (main (F := Ideal))) (s₀ m ρ)
      (Pipeline.FramePost cfgs dats 0 (Pipeline.afterTail₀ cfgs dats 0 (V0 m) [hostOps1]))) :
    θ_run defs (onTc (τ := τ) (main (F := Ideal))) ⟨m, fun _ => 0, ρ⟩ (fun r => ∀ c : Dev nD,
      r.2.mem ((c.tc : Thread nD τ).loc main_v22)
        = (fun _ => Cert.Spec.G (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  value_of_aux m ρ dats (arrsKept_of m dats hafter) (epiKept m) h

end Cert.KernelIdeal.Value'

end
-- ==== Proof.RefFrame.lean ====
/-
  The reference runs to completion, nothing faulting, and leaves its two argument arrays as they were: read off the
  generated run of its operations, which states the arguments unchanged beside the result.
-/
import proofs.«166070_j33698313404542_2_alg».proof.Defs
import proofs.«166070_j33698313404542_2_alg».proof.Proof.Gen.ReferenceIdeal.Run

noncomputable section

open Idealize.ShloMosaic Idealize.ShloMosaic.TcCoe Idealize.SL.Sem

namespace Cert.ReferenceIdeal.RefFrame

/-- The reference terminates from any memory and ends with both argument arrays unchanged. -/
theorem frame_ri [hReferenceIdeal : Cert.ReferenceIdeal.Facts] [hPre_finite_inputs : Cert.Pre_finite_inputs.Facts] :
    Cert.frame_ReferenceIdeal := fun m ρ _ =>
  (θ_run Cert.ReferenceIdeal.defs _ _).mono (fun _ h c => (h c).2) (Cert.ReferenceIdeal.Value.run (F := Ideal) m ρ)

end Cert.ReferenceIdeal.RefFrame

end
-- ==== Proof.Count.lean ====
/-
  Facts about folds over a finite index set, used to read the reference's three reductions that are not sums
  of extended reals.

  * The fold of the binary minimum from the top element over a finite set is the infimum over the set, and the fold
    of the binary maximum from the bottom element is the supremum.
  * Counting with 32-bit words: if every word is 1 where a property holds and 0 elsewhere, the wrapping 32-bit sum of
    the words over a set of fewer than 2^31 indices does not wrap; read as a signed integer it is the number of
    indices with the property, which is also the sum, in the extended reals, of the indicators.
-/
import Idealize.ShloMosaic.PureOps.Reduce
import Idealize.ShloMosaic.PureOps.Ideal

noncomputable section

namespace Cert.Count

open Idealize.ShloMosaic

variable {ι : Type}

/-! ## Minimum and maximum -/

/-- A fold of the binary minimum from the top element is the infimum over the set. -/
theorem fold_min [DecidableEq ι] (op : EReal → EReal → EReal) [Std.Commutative op] [Std.Associative op]
    (hop : ∀ a b, op a b = min a b) (f : ι → EReal) (s : Finset ι) :
    s.fold op ⊤ f = ⨅ i ∈ s, f i := by
  induction s using Finset.induction_on with
  | empty => simp
  | insert a s ha ih => rw [Finset.fold_insert ha, ih, hop, Finset.iInf_insert]

/-- A fold of the binary maximum from the bottom element is the supremum over the set. -/
theorem fold_max [DecidableEq ι] (op : EReal → EReal → EReal) [Std.Commutative op] [Std.Associative op]
    (hop : ∀ a b, op a b = max a b) (f : ι → EReal) (s : Finset ι) :
    s.fold op ⊥ f = ⨆ i ∈ s, f i := by
  induction s using Finset.induction_on with
  | empty => simp
  | insert a s ha ih => rw [Finset.fold_insert ha, ih, hop, Finset.iSup_insert]

/-- Over the whole index type. -/
theorem fold_min_univ [Fintype ι] [DecidableEq ι] (op : EReal → EReal → EReal) [Std.Commutative op]
    [Std.Associative op] (hop : ∀ a b, op a b = min a b) (f : ι → EReal) :
    Finset.univ.fold op ⊤ f = ⨅ i, f i := by
  rw [fold_min op hop]; simp

theorem fold_max_univ [Fintype ι] [DecidableEq ι] (op : EReal → EReal → EReal) [Std.Commutative op]
    [Std.Associative op] (hop : ∀ a b, op a b = max a b) (f : ι → EReal) :
    Finset.univ.fold op ⊥ f = ⨆ i, f i := by
  rw [fold_max op hop]; simp

/-! ## Counting with 32-bit words -/

/-- The wrapping sum of indicator words over fewer than 2^32 indices is the count. -/
theorem fold_addi_toNat [DecidableEq ι] (p : ι → Prop) [DecidablePred p] (w : ι → BitVec 32)
    (hw : ∀ i, w i = if p i then 1#32 else 0#32) (s : Finset ι) (hs : s.card < 2 ^ 32) :
    (s.fold IntOp.addi 0#32 w).toNat = (s.filter p).card := by
  induction s using Finset.induction_on with
  | empty => simp
  | insert a s ha ih =>
    rw [Finset.card_insert_of_notMem ha] at hs
    have ih' := ih (by omega)
    have hle : (s.filter p).card ≤ s.card := Finset.card_filter_le _ _
    rw [Finset.fold_insert ha, Finset.filter_insert]
    show (w a + s.fold IntOp.addi 0#32 w).toNat = _
    rw [BitVec.toNat_add, ih', hw a]
    by_cases hp : p a
    · rw [if_pos hp, if_pos hp, Finset.card_insert_of_notMem (by simp [ha])]
      simp only [BitVec.toNat_ofNat]; omega
    · rw [if_neg hp, if_neg hp]
      simp only [BitVec.toNat_ofNat]; omega

/-- The sum of the indicators, in the extended reals, is the count. -/
theorem sum_ind [DecidableEq ι] (p : ι → Prop) [DecidablePred p] (s : Finset ι) :
    (∑ i ∈ s, (if p i then (1 : EReal) else 0)) = (((s.filter p).card : ℝ) : EReal) := by
  induction s using Finset.induction_on with
  | empty => simp
  | insert a s ha ih =>
    rw [Finset.sum_insert ha, ih, Finset.filter_insert]
    by_cases hp : p a
    · rw [if_pos hp, if_pos hp, Finset.card_insert_of_notMem (by simp [ha])]
      rw [← EReal.coe_one, ← EReal.coe_add]; push_cast; exact add_comm _ _
    · rw [if_neg hp, if_neg hp, zero_add]

/-- The signed reading of the wrapping sum of indicator words over fewer than 2^31 indices, as an extended real, is
    the sum of the indicators. -/
theorem toInt_fold_addi [DecidableEq ι] (p : ι → Prop) [DecidablePred p] (w : ι → BitVec 32)
    (hw : ∀ i, w i = if p i then 1#32 else 0#32) (s : Finset ι) (hs : s.card < 2 ^ 31) :
    ((((s.fold IntOp.addi 0#32 w).toInt : ℤ) : ℝ) : EReal) = ∑ i ∈ s, (if p i then (1 : EReal) else 0) := by
  have h1 := fold_addi_toNat p w hw s (by omega)
  have hle : (s.filter p).card ≤ s.card := Finset.card_filter_le _ _
  have h2 : (s.fold IntOp.addi 0#32 w).toInt = ((s.filter p).card : ℤ) := by
    rw [BitVec.toInt_eq_toNat_of_lt (by omega), h1]
  rw [sum_ind, h2]; push_cast; rfl

end Cert.Count

end
-- ==== Proof.RefValue.lean ====
/-
  The reference's result as a function of the two argument arrays.

  The reference computes, with every float an extended real and every operation exact: the least and the greatest
  entry of x (a fold of the binary minimum from +infinity, of the binary maximum from -infinity: the infimum and the
  supremum); the range; every entry normalised, (x i - min) / range; the number of zero labels (a wrapping 32-bit
  sum of 0/1 words over 2^25 indices, which cannot wrap, converted to a float: the sum of the indicators); the sum of
  the normalised entries with a zero label (a select against 0, then a sum from 0); the sum of all normalised entries;
  and from these the two group means and the result. Read one operation at a time this is the specification's
  entry-by-entry form.
-/
import proofs.«166070_j33698313404542_2_alg».proof.Proof.Gen.ReferenceIdeal.Run
import proofs.«166070_j33698313404542_2_alg».proof.Proof.Gen.ReferenceIdeal.Read
import proofs.«166070_j33698313404542_2_alg».proof.Proof.Spec
import proofs.«166070_j33698313404542_2_alg».proof.Proof.Count

noncomputable section

namespace Cert.ReferenceIdeal.RefValue

open Cert.ReferenceIdeal Cert.ReferenceIdeal.Read Idealize.ShloMosaic Idealize.ShloMosaic.TcCoe Idealize.SL.Sem

variable [Facts]
open Facts₀ Facts

/-- The f32 pattern of +infinity is the top element. -/
theorem ofBits_pinf : Ideal.ofBits .f32 0x7F800000#32 = ⊤ := by simp [Ideal.ofBits, Ideal.ieee]
/-- The f32 pattern of -infinity is the bottom element. -/
theorem ofBits_ninf : Ideal.ofBits .f32 0xFF800000#32 = ⊥ := by simp [Ideal.ofBits, Ideal.ieee]

/-- Every index of the operand reduces to the one index of a rank-0 result. -/
theorem filter_drop (j : S_.Idx) :
    (Finset.univ.filter fun i : S33554432.Idx => reducesTo_S33554432_S_d0.drop i = j) = Finset.univ :=
  Finset.filter_true_of_mem fun i _ => funext fun b => b.elim0

/-- The min-reduce is the least entry. -/
theorem v0_eq (x : (⟨S33554432, .f32⟩ : BufTy).Contents (Elt Ideal)) (j : S_.Idx) :
    val_main_v0 (F := Ideal) x j = Cert.Spec.xmin x := by
  unfold val_main_v0
  rw [Host.reduce_eq_fold, filter_drop]
  show Finset.univ.fold FloatOps.minimumf (Ideal.ofBits .f32 0x7F800000#32) x = _
  rw [ofBits_pinf]
  exact Cert.Count.fold_min_univ _ (fun _ _ => rfl) x

/-- The max-reduce is the greatest entry. -/
theorem v1_eq (x : (⟨S33554432, .f32⟩ : BufTy).Contents (Elt Ideal)) (j : S_.Idx) :
    val_main_v1 (F := Ideal) x j = Cert.Spec.xmax x := by
  unfold val_main_v1
  rw [Host.reduce_eq_fold, filter_drop]
  show Finset.univ.fold FloatOps.maximumf (Ideal.ofBits .f32 0xFF800000#32) x = _
  rw [ofBits_ninf]
  exact Cert.Count.fold_max_univ _ (fun _ _ => rfl) x

/-- Every entry normalised: the entry less the least entry, over the range. -/
theorem v6_apply (x : (⟨S33554432, .f32⟩ : BufTy).Contents (Elt Ideal)) (i : S33554432.Idx) :
    val_main_v6 (F := Ideal) x i
      = Ideal.div (x i - Cert.Spec.xmin x) (Cert.Spec.xmax x - Cert.Spec.xmin x) := by
  rw [val_main_v6_apply, val_main_v4_apply, val_main_v3_apply, val_main_v5_apply, val_main_v2_apply]
  rw [v1_eq x (idx_main_v5 i), v0_eq x (idx_main_v3 i)]
  rw [Ideal.hostDivf_def, Ideal.subf_def, Ideal.subf_def]

/-- The comparison of a label with zero, as a one-bit word. -/
theorem v8_apply (y : (⟨S33554432, .i32⟩ : BufTy).Contents (Elt Ideal)) (i : S33554432.Idx) :
    val_main_v8 (F := Ideal) y i = BitVec.ofBool (y i == 0#32) := by
  rw [val_main_v8_apply, val_main_v7_apply, val_main_c_apply]; rfl

/-- The comparison widened to 32 bits: the word 1 at a zero label, the word 0 elsewhere. -/
theorem v9_apply (y : (⟨S33554432, .i32⟩ : BufTy).Contents (Elt Ideal)) (i : S33554432.Idx) :
    val_main_v9 (F := Ideal) y i = if y i = 0#32 then 1#32 else 0#32 := by
  rw [val_main_v9_apply, v8_apply]
  by_cases h : y i = 0#32
  · rw [if_pos h, h]; rfl
  · rw [if_neg h, beq_eq_false_iff_ne.mpr h]; rfl

/-- There are 2^25 indices, fewer than 2^31. -/
theorem card_lt : (Finset.univ : Finset S33554432.Idx).card < 2 ^ 31 := by
  rw [Finset.card_univ, Shape.card_idx]
  simp [Shape.numel]

/-- The number of zero labels, as a float. -/
theorem v11_eq (y : (⟨S33554432, .i32⟩ : BufTy).Contents (Elt Ideal)) (j : S_.Idx) :
    val_main_v11 (F := Ideal) y j = Cert.Spec.n0 y := by
  rw [val_main_v11_apply]
  unfold val_main_v10
  rw [Host.reduce_eq_fold, filter_drop]
  show ((((Finset.univ.fold IntOp.addi 0#32 (val_main_v9 (F := Ideal) y)).toInt : ℤ) : ℝ) : EReal) = _
  rw [Cert.Count.toInt_fold_addi (fun i => y i = 0#32) _ (v9_apply y) _ card_lt]
  rfl

/-- The select: the normalised entry at a zero label, zero elsewhere. -/
theorem v13_apply (x : (⟨S33554432, .f32⟩ : BufTy).Contents (Elt Ideal))
    (y : (⟨S33554432, .i32⟩ : BufTy).Contents (Elt Ideal)) (i : S33554432.Idx) :
    val_main_v13 (F := Ideal) x y i
      = if y i = 0#32 then Ideal.div (x i - Cert.Spec.xmin x) (Cert.Spec.xmax x - Cert.Spec.xmin x) else 0 := by
  rw [val_main_v13_apply, v8_apply, v6_apply, val_main_call0_v1_apply, val_main_call0_v0_apply, val_main_cst_3_apply,
    Ideal.ofBits_def, Ideal.ofBits_zero_f32]
  unfold Scalar.select
  by_cases h : y i = 0#32
  · rw [if_pos h, h]; rfl
  · rw [if_neg h, beq_eq_false_iff_ne.mpr h]; rfl

/-- The sum of the normalised entries with a zero label. -/
theorem v14_eq (x : (⟨S33554432, .f32⟩ : BufTy).Contents (Elt Ideal))
    (y : (⟨S33554432, .i32⟩ : BufTy).Contents (Elt Ideal)) (j : S_.Idx) :
    val_main_v14 (F := Ideal) x y j
      = ∑ i : S33554432.Idx,
          (if y i = 0#32 then Ideal.div (x i - Cert.Spec.xmin x) (Cert.Spec.xmax x - Cert.Spec.xmin x) else 0) := by
  rw [val_main_v14_apply, val_main_cst_4_apply, Ideal.ofBits_def, Ideal.ofBits_zero_f32, zero_add]
  exact Finset.sum_congr rfl fun i _ => v13_apply x y i

/-- The sum of all normalised entries. -/
theorem v15_eq (x : (⟨S33554432, .f32⟩ : BufTy).Contents (Elt Ideal)) (j : S_.Idx) :
    val_main_v15 (F := Ideal) x j
      = ∑ i : S33554432.Idx, Ideal.div (x i - Cert.Spec.xmin x) (Cert.Spec.xmax x - Cert.Spec.xmin x) := by
  rw [val_main_v15_apply, val_main_cst_5_apply, Ideal.ofBits_def, Ideal.ofBits_zero_f32, zero_add]
  exact Finset.sum_congr rfl fun i _ => v6_apply x i

/-- The result before the final reshape is the specification's entry-by-entry form. -/
theorem v21_eq (x : (⟨S33554432, .f32⟩ : BufTy).Contents (Elt Ideal))
    (y : (⟨S33554432, .i32⟩ : BufTy).Contents (Elt Ideal)) (j : S_.Idx) :
    val_main_v21 (F := Ideal) x y j = Cert.Spec.refForm x y := by
  rw [val_main_v21_apply, val_main_v19_apply, val_main_v20_apply, val_main_v17_apply, val_main_v18_apply,
    val_main_v16_apply, val_main_v12_apply, val_main_cst_2_apply, v14_eq, v15_eq, v11_eq]
  rfl

/-- The reference's result, at its one index, is the specification's entry-by-entry form of the two argument
    arrays. -/
theorem result_eq (x : (⟨S33554432, .f32⟩ : BufTy).Contents (Elt Ideal))
    (y : (⟨S33554432, .i32⟩ : BufTy).Contents (Elt Ideal)) (i : S1.Idx) :
    val_main_v22 (F := Ideal) x y i = Cert.Spec.refForm x y := by
  unfold val_main_v22 shapeCast
  exact v21_eq x y _

/-! ## The run, with the result named -/

/-- On every device, from any memory with zero counters: every weakly fair execution of the reference terminates
    with its result array holding the specification's entry-by-entry form of the two argument arrays at its one
    index, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v22)
          = (fun _ => Cert.Spec.refForm (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c).1.trans ((val_main_v22_eq m c).trans (funext fun i => result_eq _ _ i)), (h c).2⟩)
    (Cert.ReferenceIdeal.Value.run (F := Ideal) m ρ)

end Cert.ReferenceIdeal.RefValue

end
-- ==== Proof.Algebra.lean ====
/-
  The two shapes of the result agree on real entries: refForm x y = G x y when every x i is a real number.

  Write x i = a i (reals), m and M for the least and greatest entry (attained, the index type being finite and
  nonempty), r = M - m, c i for the indicator of "label i is zero", k0 = Σ c i, N = 2^25 the number of entries.

  * r ≠ 0. Every quotient (a i - m) / r is a real number, division by the real r being multiplication by 1 / r.
    Then Σ_{label 0} (a i - m) / r = (Σ a i c i - k0 m) / r, and
    Σ_all (a i - m) / r - Σ_{label 0} (a i - m) / r = ((Σ a i - Σ a i c i) - (N - k0) m) / r because Σ_all 1 = N.
    The two group sums agree, so the final quotients, minimum, maximum and difference agree term by term.
  * r = 0. All entries equal m. On the entry-by-entry side each normalised entry is 0 / 0 = ⊥; the zero-label sum is
    ⊥ if some label is zero and 0 otherwise, and in both cases its quotient by k0 is ⊥ (⊥ / positive = ⊥, 0 / 0 = ⊥).
    On the aggregate side the numerator Σ a i c i - k0 m is the real 0, so 0 / 0 = ⊥ and then ⊥ / k0 = ⊥ (k0 ≥ 0).
    With the first mean ⊥ the result min ⊥ t - max ⊥ t is ⊥ - t = ⊥ on both sides.
-/
import proofs.«166070_j33698313404542_2_alg».proof.Proof.Spec
import Mathlib.Order.ConditionallyCompleteLattice.Finset
import Mathlib.Data.Fintype.BigOperators
import Mathlib.Tactic.Ring
import Mathlib.Tactic.NormNum
import Mathlib.Tactic.Positivity
import Mathlib.Tactic.Linarith

noncomputable section

namespace Cert.Algebra

open Idealize.ShloMosaic

/-! ## Small facts about the extended reals -/

/-- The coercion of a finite real sum is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A finite sum with a term ⊥ is ⊥. -/
theorem sum_eq_bot {ι : Type} (s : Finset ι) (f : ι → EReal) (i : ι) (hi : i ∈ s) (h : f i = ⊥) :
    ∑ j ∈ s, f j = ⊥ := by
  classical
  rw [← Finset.add_sum_erase s f hi, h, EReal.bot_add]

theorem div_zero_zero : Ideal.div 0 0 = ⊥ := by simp [Ideal.div]

/-- ⊥ divided by a nonnegative real is ⊥ (by zero: the dividend is not positive). -/
theorem div_bot_coe_nonneg {k : ℝ} (hk : 0 ≤ k) : Ideal.div ⊥ (k : EReal) = ⊥ := by
  rcases hk.eq_or_lt with h | h
  · subst h; simp [Ideal.div]
  · rw [Ideal.div_coe h.ne', EReal.bot_mul_coe_of_pos (by positivity)]

/-- The last step of both programs, from the two group sums and the two counts. -/
def fin (s0 s1 k0 k1 : EReal) : EReal :=
  min (Ideal.div s0 k0) (Ideal.div s1 k1) - max (Ideal.div s0 k0) (Ideal.div s1 k1)

/-- When the first mean is ⊥ the result is ⊥. -/
theorem fin_bot (s0 s1 k0 k1 : EReal) (h : Ideal.div s0 k0 = ⊥) : fin s0 s1 k0 k1 = ⊥ := by
  unfold fin
  rw [h, min_eq_left bot_le, EReal.bot_sub]

/-- The f32 pattern 0x4C000000 denotes 2^25. -/
theorem cntAll_eq : Cert.Spec.cntAll = ((33554432 : ℝ) : EReal) := by
  simp [Cert.Spec.cntAll, Ideal.ofBits, Ideal.ieee, -EReal.coe_mul]
  norm_num

/-! ## The least and the greatest entry of a finite nonempty real family are attained -/

theorem iInf_coe_attained {ι : Type} [Finite ι] [Nonempty ι] (a : ι → ℝ) :
    ∃ m : ℝ, (⨅ i, (a i : EReal)) = (m : EReal) ∧ ∀ i, m ≤ a i := by
  obtain ⟨i0, h0⟩ := exists_eq_ciInf_of_finite (f := fun i => (a i : EReal))
  refine ⟨a i0, h0.symm, fun i => ?_⟩
  have h : (⨅ i, (a i : EReal)) ≤ (a i : EReal) := iInf_le _ i
  rw [← h0] at h
  exact EReal.coe_le_coe_iff.1 h

theorem iSup_coe_attained {ι : Type} [Finite ι] [Nonempty ι] (a : ι → ℝ) :
    ∃ M : ℝ, (⨆ i, (a i : EReal)) = (M : EReal) ∧ ∀ i, a i ≤ M := by
  obtain ⟨i0, h0⟩ := exists_eq_ciSup_of_finite (f := fun i => (a i : EReal))
  refine ⟨a i0, h0.symm, fun i => ?_⟩
  have h : (a i : EReal) ≤ (⨆ i, (a i : EReal)) := le_iSup (fun i => (a i : EReal)) i
  rw [← h0] at h
  exact EReal.coe_le_coe_iff.1 h

/-! ## The two group sums over the reals -/

section real

variable {ι : Type} [Fintype ι] (a : ι → ℝ) (z : ι → Prop) [DecidablePred z] (m t : ℝ)

/-- The zero-label sum of the normalised entries, from the aggregates. -/
theorem sum_group0 :
    ∑ i, (if z i then (a i - m) * t else 0)
      = (∑ i, a i * (if z i then 1 else 0) - (∑ i, (if z i then (1 : ℝ) else 0)) * m) * t := by
  have e : ∑ i, (a i * (if z i then 1 else 0) - (if z i then (1 : ℝ) else 0) * m) * t
      = (∑ i, a i * (if z i then 1 else 0) - (∑ i, (if z i then (1 : ℝ) else 0)) * m) * t := by
    simp only [← Finset.sum_mul, Finset.sum_sub_distrib]
  rw [← e]
  refine Finset.sum_congr rfl fun i _ => ?_
  split_ifs <;> ring

/-- The other group's sum, as the total minus the zero-label sum, from the aggregates; N is the number of entries. -/
theorem sum_group1 (N : ℝ) (hN : ∑ _i : ι, (1 : ℝ) = N) :
    ∑ i, (a i - m) * t - ∑ i, (if z i then (a i - m) * t else 0)
      = ((∑ i, a i - ∑ i, a i * (if z i then 1 else 0)) - (N - ∑ i, (if z i then (1 : ℝ) else 0)) * m) * t := by
  have e : ∑ i, ((a i - a i * (if z i then 1 else 0)) - (1 - (if z i then (1 : ℝ) else 0)) * m) * t
      = ((∑ i, a i - ∑ i, a i * (if z i then 1 else 0)) - (N - ∑ i, (if z i then (1 : ℝ) else 0)) * m) * t := by
    simp only [← Finset.sum_mul, Finset.sum_sub_distrib, hN]
  rw [← e, ← Finset.sum_sub_distrib]
  refine Finset.sum_congr rfl fun i _ => ?_
  split_ifs <;> ring

end real

/-! ## The group sums over the extended reals, nonzero range -/

section ereal

variable {ι : Type} [Fintype ι] (a : ι → ℝ) (z : ι → Prop) [DecidablePred z] (m r : ℝ)

/-- A normalised entry is a real number when the range is a nonzero real. -/
theorem norm_coe (hr : r ≠ 0) (i : ι) :
    Ideal.div ((a i : EReal) - (m : EReal)) (r : EReal) = (((a i - m) * (1 / r) : ℝ) : EReal) := by
  rw [← EReal.coe_sub, Ideal.div_coe hr, ← EReal.coe_mul]

theorem ite_coe (p : Prop) [Decidable p] (u : ℝ) :
    (if p then (u : EReal) else 0) = ((if p then u else 0 : ℝ) : EReal) := by
  split_ifs <;> simp

theorem group0_ne (hr : r ≠ 0) :
    (∑ i, if z i then Ideal.div ((a i : EReal) - (m : EReal)) (r : EReal) else 0)
      = Ideal.div (((∑ i, a i * (if z i then 1 else 0) : ℝ) : EReal)
          - ((∑ i, (if z i then (1 : ℝ) else 0) : ℝ) : EReal) * (m : EReal)) (r : EReal) := by
  have R : Ideal.div (((∑ i, a i * (if z i then 1 else 0) : ℝ) : EReal)
          - ((∑ i, (if z i then (1 : ℝ) else 0) : ℝ) : EReal) * (m : EReal)) (r : EReal)
      = (((∑ i, a i * (if z i then 1 else 0) - (∑ i, (if z i then (1 : ℝ) else 0)) * m) * (1 / r) : ℝ) : EReal) := by
    rw [← EReal.coe_mul, ← EReal.coe_sub, Ideal.div_coe hr, ← EReal.coe_mul]
  rw [R, ← sum_group0, coe_sum]
  refine Finset.sum_congr rfl fun i _ => ?_
  rw [norm_coe a m r hr i, ite_coe]

theorem group1_ne (hr : r ≠ 0) (N : ℝ) (hN : ∑ _i : ι, (1 : ℝ) = N) :
    (∑ i, Ideal.div ((a i : EReal) - (m : EReal)) (r : EReal))
        - (∑ i, if z i then Ideal.div ((a i : EReal) - (m : EReal)) (r : EReal) else 0)
      = Ideal.div ((((∑ i, a i : ℝ) : EReal) - ((∑ i, a i * (if z i then 1 else 0) : ℝ) : EReal))
          - ((N : EReal) - ((∑ i, (if z i then (1 : ℝ) else 0) : ℝ) : EReal)) * (m : EReal)) (r : EReal) := by
  have R : Ideal.div ((((∑ i, a i : ℝ) : EReal) - ((∑ i, a i * (if z i then 1 else 0) : ℝ) : EReal))
          - ((N : EReal) - ((∑ i, (if z i then (1 : ℝ) else 0) : ℝ) : EReal)) * (m : EReal)) (r : EReal)
      = ((((∑ i, a i - ∑ i, a i * (if z i then 1 else 0)) - (N - ∑ i, (if z i then (1 : ℝ) else 0)) * m)
          * (1 / r) : ℝ) : EReal) := by
    simp only [← EReal.coe_sub, ← EReal.coe_mul]
    rw [Ideal.div_coe hr, ← EReal.coe_mul]
  have L0 : (∑ i, Ideal.div ((a i : EReal) - (m : EReal)) (r : EReal)) = ((∑ i, (a i - m) * (1 / r) : ℝ) : EReal) := by
    rw [coe_sum]
    exact Finset.sum_congr rfl fun i _ => norm_coe a m r hr i
  have L1 : (∑ i, if z i then Ideal.div ((a i : EReal) - (m : EReal)) (r : EReal) else 0)
      = ((∑ i, (if z i then (a i - m) * (1 / r) else 0) : ℝ) : EReal) := by
    rw [coe_sum]
    refine Finset.sum_congr rfl fun i _ => ?_
    rw [norm_coe a m r hr i, ite_coe]
  rw [L0, L1, ← EReal.coe_sub, sum_group1 a z m (1 / r) N hN, R]

/-! ## Zero range: every entry equals the least entry -/

theorem norm_degenerate (i : ι) (h : a i = m) :
    Ideal.div ((a i : EReal) - (m : EReal)) ((0 : ℝ) : EReal) = ⊥ := by
  rw [← EReal.coe_sub, h, sub_self, EReal.coe_zero, div_zero_zero]

theorem count_nonneg : 0 ≤ ∑ i, (if z i then (1 : ℝ) else 0) :=
  Finset.sum_nonneg fun i _ => by split_ifs <;> norm_num

/-- Entry by entry: the zero-label mean is ⊥. -/
theorem lb_ref_degenerate (h : ∀ i, a i = m) :
    Ideal.div (∑ i, if z i then Ideal.div ((a i : EReal) - (m : EReal)) ((0 : ℝ) : EReal) else 0)
      ((∑ i, (if z i then (1 : ℝ) else 0) : ℝ) : EReal) = ⊥ := by
  by_cases hz : ∃ i, z i
  · obtain ⟨i0, hi0⟩ := hz
    have hs : (∑ i, if z i then Ideal.div ((a i : EReal) - (m : EReal)) ((0 : ℝ) : EReal) else 0) = ⊥ :=
      sum_eq_bot _ _ i0 (Finset.mem_univ _) (by rw [if_pos hi0, norm_degenerate a m i0 (h i0)])
    rw [hs]
    exact div_bot_coe_nonneg (count_nonneg z)
  · rw [not_exists] at hz
    have hs : (∑ i, if z i then Ideal.div ((a i : EReal) - (m : EReal)) ((0 : ℝ) : EReal) else 0) = 0 :=
      Finset.sum_eq_zero fun i _ => if_neg (hz i)
    have hk : (∑ i, (if z i then (1 : ℝ) else 0)) = 0 := Finset.sum_eq_zero fun i _ => if_neg (hz i)
    rw [hs, hk, EReal.coe_zero, div_zero_zero]

/-- From the aggregates: the zero-label mean is ⊥. -/
theorem lb_agg_degenerate (h : ∀ i, a i = m) :
    Ideal.div (Ideal.div (((∑ i, a i * (if z i then 1 else 0) : ℝ) : EReal)
        - ((∑ i, (if z i then (1 : ℝ) else 0) : ℝ) : EReal) * (m : EReal)) ((0 : ℝ) : EReal))
      ((∑ i, (if z i then (1 : ℝ) else 0) : ℝ) : EReal) = ⊥ := by
  have e : (∑ i, a i * (if z i then 1 else 0)) - (∑ i, (if z i then (1 : ℝ) else 0)) * m = 0 := by
    rw [Finset.sum_mul, ← Finset.sum_sub_distrib]
    exact Finset.sum_eq_zero fun i _ => by rw [h i]; ring
  rw [← EReal.coe_mul, ← EReal.coe_sub, e, EReal.coe_zero, div_zero_zero]
  exact div_bot_coe_nonneg (count_nonneg z)

end ereal

/-! ## The certificate's index type: nonempty, with 2^25 entries -/

open Cert.Spec

instance : Nonempty SN.Idx := ⟨ValueIdx.ix1 (⟨0, by norm_num⟩ : Fin 33554432)⟩

/-- The number of entries, as a real sum of ones. -/
theorem sum_one : ∑ _i : SN.Idx, (1 : ℝ) = 33554432 := by
  have hc : Fintype.card SN.Idx = 33554432 := by
    rw [Shape.card_idx]
    show ∏ d : Fin 1, SN.size d = 33554432
    rw [Fin.prod_univ_one]
    rfl
  rw [Finset.sum_const, Finset.card_univ, hc]
  norm_num

/-! ## Both shapes through the common last step -/

theorem refForm_fin (x : SN.Idx → EReal) (y : SN.Idx → BitVec 32) :
    refForm x y = fin (∑ i, if y i = 0#32 then Ideal.div (x i - xmin x) (xmax x - xmin x) else 0)
      ((∑ i, Ideal.div (x i - xmin x) (xmax x - xmin x))
        - ∑ i, if y i = 0#32 then Ideal.div (x i - xmin x) (xmax x - xmin x) else 0)
      (n0 y) (cntAll - n0 y) := rfl

theorem G_fin (x : SN.Idx → EReal) (y : SN.Idx → BitVec 32) :
    G x y = fin (Ideal.div (s0raw x y - n0 y * xmin x) (xmax x - xmin x))
      (Ideal.div ((stot x - s0raw x y) - (cntAll - n0 y) * xmin x) (xmax x - xmin x))
      (n0 y) (cntAll - n0 y) := rfl

/-- The indicator of the label zero is the coercion of the real indicator. -/
theorem ind_coe (b : BitVec 32) : ind b = ((if b = 0#32 then (1 : ℝ) else 0 : ℝ) : EReal) := by
  unfold ind
  split_ifs <;> simp

/-! ## The theorem -/

theorem refForm_eq_G (x : SN.Idx → EReal) (y : SN.Idx → BitVec 32) (hfin : ∀ i, x i ≠ ⊤ ∧ x i ≠ ⊥) :
    refForm x y = G x y := by
  obtain ⟨a, rfl⟩ : ∃ a : SN.Idx → ℝ, x = fun i => (a i : EReal) :=
    ⟨fun i => (x i).toReal, funext fun i => (EReal.coe_toReal (hfin i).1 (hfin i).2).symm⟩
  obtain ⟨m, hm, hmle⟩ := iInf_coe_attained a
  obtain ⟨M, hM, hMle⟩ := iSup_coe_attained a
  have hmn : xmin (fun i => (a i : EReal)) = (m : EReal) := hm
  have hmx : xmax (fun i => (a i : EReal)) = (M : EReal) := hM
  have hk0 : n0 y = ((∑ i, (if y i = 0#32 then (1 : ℝ) else 0) : ℝ) : EReal) := by
    rw [coe_sum]
    exact Finset.sum_congr rfl fun i _ => ind_coe (y i)
  have hs0 : s0raw (fun i => (a i : EReal)) y = ((∑ i, a i * (if y i = 0#32 then 1 else 0) : ℝ) : EReal) := by
    rw [coe_sum]
    exact Finset.sum_congr rfl fun i _ => by rw [ind_coe, EReal.coe_mul]
  have hst : stot (fun i => (a i : EReal)) = ((∑ i, a i : ℝ) : EReal) := (coe_sum _ _).symm
  rw [refForm_fin, G_fin, hmn, hmx, hk0, hs0, hst, cntAll_eq, ← EReal.coe_sub M m]
  by_cases hr : M - m = 0
  · have hall : ∀ i, a i = m := fun i => le_antisymm (by have := hMle i; linarith) (hmle i)
    rw [hr, fin_bot _ _ _ _ (lb_ref_degenerate a (fun i => y i = 0#32) m hall),
      fin_bot _ _ _ _ (lb_agg_degenerate a (fun i => y i = 0#32) m hall)]
  · rw [group1_ne a (fun i => y i = 0#32) m (M - m) hr 33554432 sum_one,
      group0_ne a (fun i => y i = 0#32) m (M - m) hr]

end Cert.Algebra

end
-- ==== Proof.Finite.lean ====
/-
  The precondition read back: every entry of x is a real number.

  The printed predicate is all_i (|x i| < +inf): the elementwise comparison of |x| against the pattern of +inf,
  reduced by "and" from 1. If the result is 1 then each comparison is 1, i.e. max (x i) (-(x i)) < ⊤ in the extended
  reals, which excludes x i = ⊤ (its absolute value is ⊤) and x i = ⊥ (likewise).
-/
import proofs.«166070_j33698313404542_2_alg».proof.Pre_finite_inputs
import proofs.«166070_j33698313404542_2_alg».proof.Proof.Gen.Pre_finite_inputs
import Idealize.ShloMosaic.Lib.ReduceAll
import Idealize.ShloMosaic.PureOps.Ideal
import Idealize.ShloMosaic.Lib.ValueIdx

noncomputable section

namespace Cert.Finite

open Idealize.ShloMosaic

/-- The scalar shape has a single index. -/
instance : Subsingleton Cert.Pre_finite_inputs.S_.Idx := ⟨fun a b => funext fun d => d.elim0⟩

/-- The f32 pattern 0x7F800000 denotes +inf. -/
theorem ofBits_inf : Ideal.ofBits .f32 0x7F800000#32 = (⊤ : EReal) := by
  simp [Ideal.ofBits, Ideal.ieee]

/-- An extended real whose absolute value is below +inf is neither infinity. -/
theorem ne_of_abs_lt_top (a : EReal) (h : Ideal.cmp .olt (max a (-a)) (⊤ : EReal) = 1#1) : a ≠ ⊤ ∧ a ≠ ⊥ := by
  induction a using EReal.rec with
  | bot => simp [Ideal.cmp] at h
  | coe r => exact ⟨EReal.coe_ne_top r, EReal.coe_ne_bot r⟩
  | top => simp [Ideal.cmp] at h

theorem finite_of_pre [Cert.Pre_finite_inputs.Facts] (x : FVec Ideal Cert.Pre_finite_inputs.S33554432 .f32)
    (y : IVec Cert.Pre_finite_inputs.S33554432 32)
    (h : Cert.Pre_finite_inputs.fn (F := Ideal) x y = fun _ => 1#1) : ∀ i, x i ≠ ⊤ ∧ x i ≠ ⊥ := by
  intro i
  have e := congrFun h ValueIdx.ix0
  dsimp only [Cert.Pre_finite_inputs.fn] at e
  have hi := Host.reduce_andi_all _ _ _ _ _ e i
  have hi' : Ideal.cmp .olt (max (x i) (-(x i))) (Ideal.ofBits .f32 0x7F800000#32) = 1#1 := hi
  rw [ofBits_inf] at hi'
  exact ne_of_abs_lt_top _ hi'

end Cert.Finite

end
-- ==== Proof.Algebraic.lean ====
/-
  The kernel and the reference, run at the extended reals from memories that agree on the two argument arrays, end
  with equal results, given that the kernel's run ends with the specification's value `G` of its argument arrays.

  The reference's run ends with the specification's entry-by-entry form of ITS argument arrays; those are the
  kernel's, by agreement; every entry of x is a real number, by the precondition; and on real entries the
  entry-by-entry form equals `G` (normalising each entry and then summing by group is summing by group and then
  correcting by the group's size times the least entry, over the range). So both results are `G` of the kernel's
  argument arrays.
-/
import proofs.«166070_j33698313404542_2_alg».proof.Defs
import proofs.«166070_j33698313404542_2_alg».proof.Proof.RefValue
import proofs.«166070_j33698313404542_2_alg».proof.Proof.Algebra
import proofs.«166070_j33698313404542_2_alg».proof.Proof.Finite

noncomputable section

open Idealize.ShloMosaic Idealize.ShloMosaic.TcCoe Idealize.SL.Sem

namespace Cert.Proof.Alg

/-- The idealized kernel is the kernel's own text read at the extended reals: no operation was rewritten. -/
theorem preserves : Cert.preserves_Kernel_KernelIdeal := trivial

/-- If the kernel's run ends with `G` of its argument arrays in its result (and the arguments unchanged), then the
    kernel and the reference end with equal results. -/
theorem algebraic_of [hKernelIdeal : Cert.KernelIdeal.Facts] [hReferenceIdeal : Cert.ReferenceIdeal.Facts]
    [hPre_finite_inputs : Cert.Pre_finite_inputs.Facts]
    (hk : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD,
          r.2.mem ((c.tc : Thread Cert.KernelIdeal.nD Cert.KernelIdeal.τ).loc Cert.KernelIdeal.main_v22)
              = (fun _ => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))) :
    Cert.algebraic_KernelIdeal_ReferenceIdeal := by
  intro m ρ m' ρ' hpre hagree
  refine ⟨fun c => fun _ => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)), hk m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]
  funext _
  exact Cert.Algebra.refForm_eq_G _ _ (Cert.Finite.finite_of_pre _ _ (hpre c))

end Cert.Proof.Alg

end
-- ==== Proof.lean ====
/-
  The proof of `Cert.Claim`: the kernel and its reference compute the same scalar.

  WHAT IS COMPUTED. The inputs are x, 33,554,432 = 2^25 floats, and y, as many 32-bit labels. With min and max the
  least and greatest entry of x and rng = max - min, every entry is normalised to (x i - min) / rng; the entries are
  split into the group with label zero (n0 of them) and the rest (n1 = 2^25 - n0); lb and lh are the two groups' means
  of the normalised entries, and the result is min lb lh - max lb lh, a one-element array.
  The reference does exactly this, entry by entry: it normalises every entry, sums the normalised entries with a zero
  label and all normalised entries, subtracts, and divides by the group sizes.
  The kernel never forms a normalised entry. It sweeps x and y once, as 2 x 16 blocks of 8192 rows by 128 lanes, on a
  grid of two cores by sixteen steps, and keeps five lane-wise running results across the sixteen steps of a core: the
  least entry, the greatest entry, the sum of the entries, the sum of the entries with a zero label and the number of
  zero labels (the first step stores the block's own column results, every later step combines them in, the last step
  also writes the five rows out). Afterwards the five 2 x 1 x 128 arrays are reduced to five scalars and the
  normalisation is fixed up there: s0 = (s0raw - n0 * min) / rng for the zero-label group and
  s1 = ((stot - s0raw) - n1 * min) / rng for the other, then lb = s0 / n0, lh = s1 / n1 and min lb lh - max lb lh.

  WHY THEY AGREE. Read at the extended reals with exact operations, and with every entry of x a real number (the
  precondition), summing (x i - min) / rng over a group is (the group's sum less its size times min) over rng when
  rng is not zero; when rng is zero (all entries equal) every normalised entry is 0 / 0, and both sides come out as
  the bottom element. So both programs end with one scalar, `Cert.Spec.G` of the two argument arrays.

  WHERE EACH PART IS PROVED (modules under Proof/).
  * Spec: the specification — the five aggregates, the scalar from the aggregates (`G`), and the same quantity
    entry by entry (`refForm`).
  * The reference. Count: a fold of min from the top element is an infimum, of max from the bottom element a
    supremum, and a wrapping 32-bit sum of 0/1 words over fewer than 2^31 indices is the count. RefValue: the
    reference's result, read one operation at a time, is `refForm` of its arguments, and its run ends with that value.
    RefFrame: the reference runs and leaves its arguments unchanged.
  * The bridge. Finite: the precondition says every entry of x is a real number. Algebra: on real entries
    `refForm` = `G`, including the case of all entries equal. Algebraic: from the two runs, the equality claim.
  * The kernel's steps. KAcc, KKept: the five kept rows as a recursion over the step and over the grid points.
    KCases, KRunA, KRunB, KRunC: the body run in its three cases (first, middle and last step of a core).
    KPiecesA, KPiecesB, KPiecesC, KPiecesCO: what each case leaves in the kept rows and the output buffers, read
    back as the arithmetic of that step. KFrame: the program runs, leaves its arguments unchanged, and after every
    grid point the kept rows hold the running results of the core's sweep so far. The modules whose names end in
    Bits are the same frame for the kernel as printed, over bit patterns.
  * The kernel's value. KPay: one step's arithmetic at a lane (column infimum, supremum and sums). KBlocks,
    Regroup, RegroupFold: the blocks are rows of the arguments, and the 2 x 16 x 8192 x 128 positions are all
    positions once. KAccValue, KKeptValue: after a core's last step the kept rows hold that core's five aggregates
    lane by lane, and the aggregates of the five output arrays are those of the whole arguments. KOutArr: the two
    write-backs tile each output array. KTail, KValueAux, KValue: the operations after the sweep give `G`.
-/
import proofs.«166070_j33698313404542_2_alg».proof.Defs
import proofs.«166070_j33698313404542_2_alg».proof.Proof.Gen.Kernel
import proofs.«166070_j33698313404542_2_alg».proof.Proof.Gen.Kernel.Skeleton
import proofs.«166070_j33698313404542_2_alg».proof.Proof.Gen.Kernel.Launch
import proofs.«166070_j33698313404542_2_alg».proof.Proof.Gen.Kernel.Points
import proofs.«166070_j33698313404542_2_alg».proof.Proof.Gen.Kernel.Frame
import proofs.«166070_j33698313404542_2_alg».proof.Proof.Gen.KernelIdeal
import proofs.«166070_j33698313404542_2_alg».proof.Proof.Gen.KernelIdeal.Skeleton
import proofs.«166070_j33698313404542_2_alg».proof.Proof.Gen.KernelIdeal.Launch
import proofs.«166070_j33698313404542_2_alg».proof.Proof.Gen.KernelIdeal.Points
import proofs.«166070_j33698313404542_2_alg».proof.Proof.Gen.KernelIdeal.Frame
import proofs.«166070_j33698313404542_2_alg».proof.Proof.Gen.ReferenceIdeal
import proofs.«166070_j33698313404542_2_alg».proof.Proof.Gen.Pre_finite_inputs
import proofs.«166070_j33698313404542_2_alg».proof.Proof.KFrameBits
import proofs.«166070_j33698313404542_2_alg».proof.Proof.KFrame
import proofs.«166070_j33698313404542_2_alg».proof.Proof.KValue
import proofs.«166070_j33698313404542_2_alg».proof.Proof.RefFrame
import proofs.«166070_j33698313404542_2_alg».proof.Proof.Algebraic
import Idealize.ShloMosaic.Adequacy
import Idealize.ShloMosaic.Init

noncomputable section

namespace Cert.Proof

open Idealize.ShloMosaic Idealize.SL.Sem

/-- The kernel as printed runs and leaves its arguments unchanged. -/
theorem frame_p : Cert.frame_Kernel := fun m ρ _ => Cert.Kernel.Hand.frame (F := Bits) m ρ

/-- The kernel read at the extended reals runs and leaves its arguments unchanged. -/
theorem frame_pi : Cert.frame_KernelIdeal := fun m ρ _ => Cert.KernelIdeal.Hand.frame (F := Ideal) m ρ

/-- The reference runs and leaves its arguments unchanged. -/
theorem frame_ri : Cert.frame_ReferenceIdeal := Cert.ReferenceIdeal.RefFrame.frame_ri

/-- The kernel read at the extended reals is the kernel's own text: no operation was rewritten. -/
theorem preserves : Cert.preserves_Kernel_KernelIdeal := Cert.Proof.Alg.preserves

/-- Both programs end with the specification's scalar of the kernel's argument arrays: the kernel because after
    each core's last step its output buffers hold that core's kept rows, the reference by reading its operations
    and the agreement of the two forms on real entries. -/
theorem algebraic : Cert.algebraic_KernelIdeal_ReferenceIdeal :=
  Cert.Proof.Alg.algebraic_of fun m ρ =>
    Cert.KernelIdeal.Value'.value_of m ρ (Cert.KernelIdeal.Hand.dats m) (Cert.KernelIdeal.Hand.A_eq m)
      (fun c t _ _ => ⟨Cert.KernelIdeal.Hand.after_2 m c t, Cert.KernelIdeal.Hand.after_3 m c t,
        Cert.KernelIdeal.Hand.after_4 m c t, Cert.KernelIdeal.Hand.after_5 m c t, Cert.KernelIdeal.Hand.after_6 m c t⟩)
      (Cert.KernelIdeal.Hand.run_main m ρ)

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
